-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x256 : Shape := ⟨3, ![2, 512, 256]⟩
abbrev S2x512x512x12 : Shape := ⟨4, ![2, 512, 512, 12]⟩
abbrev S12x32 : Shape := ⟨2, ![12, 32]⟩
abbrev S32 : Shape := ⟨1, ![32]⟩
abbrev S32x256 : Shape := ⟨2, ![32, 256]⟩
abbrev S256 : Shape := ⟨1, ![256]⟩
abbrev S256x768 : Shape := ⟨2, ![256, 768]⟩
abbrev S_ : Shape := ⟨0, ![]⟩

class Facts : Prop where
  bcast_S_S2x512x256 : S_.BroadcastsInDim S2x512x256 (![] : Fin 0 → Fin S2x512x256.rank)
  reducesTo_S2x512x256_S_d0_1_2 : S2x512x256.ReducesTo [0, 1, 2] S_
  h_S_ : 0 < S_.numel
  bcast_S_S2x512x512x12 : S_.BroadcastsInDim S2x512x512x12 (![] : Fin 0 → Fin S2x512x512x12.rank)
  reducesTo_S2x512x512x12_S_d0_1_2_3 : S2x512x512x12.ReducesTo [0, 1, 2, 3] S_
  bcast_S_S12x32 : S_.BroadcastsInDim S12x32 (![] : Fin 0 → Fin S12x32.rank)
  reducesTo_S12x32_S_d0_1 : S12x32.ReducesTo [0, 1] S_
  bcast_S_S32 : S_.BroadcastsInDim S32 (![] : Fin 0 → Fin S32.rank)
  reducesTo_S32_S_d0 : S32.ReducesTo [0] S_
  bcast_S_S32x256 : S_.BroadcastsInDim S32x256 (![] : Fin 0 → Fin S32x256.rank)
  reducesTo_S32x256_S_d0_1 : S32x256.ReducesTo [0, 1] S_
  bcast_S_S256 : S_.BroadcastsInDim S256 (![] : Fin 0 → Fin S256.rank)
  reducesTo_S256_S_d0 : S256.ReducesTo [0] S_
  bcast_S_S256x768 : S_.BroadcastsInDim S256x768 (![] : Fin 0 → Fin S256x768.rank)
  reducesTo_S256x768_S_d0_1 : S256x768.ReducesTo [0, 1] S_

variable [Facts]

def fn_part4 {F : FTy → Type} [FloatOps F] (main_arg7 : FVec F S32 .f32) (main_arg13 : FVec F S256 .f32) (main_arg14 : FVec F S256x768 .f32) (main_v63 : IVec S_ 1) (main_v67 : IVec S_ 1) : IVec S_ 1 :=
  let main_v68 : IVec S_ 1 := andi main_v63 main_v67
  let main_v69 : FVec F S256x768 .f32 := Host.absf main_arg14
  let main_cst_26 : FVec F S_ .f32 := constant S_ .f32 0x7F800000#32
  let main_v70 : FVec F S256x768 .f32 := broadcastInDim S256x768 ![] bcast_S_S256x768 main_cst_26
  let main_v71 : IVec S256x768 1 := cmpf .olt main_v69 main_v70
  let main_c_27 : IVec S_ 1 := constantI S_ 1 1#1
  let main_v72 : IVec S_ 1 := (fun x v => Host.reduce IntOp.andi x v reducesTo_S256x768_S_d0_1 h_S_) main_v71 main_c_27
  let main_v73 : IVec S_ 1 := andi main_v68 main_v72
  let main_cst_28 : FVec F S_ .f32 := constant S_ .f32 0x00000000#32
  let main_v74 : FVec F S32 .f32 := broadcastInDim S32 ![] bcast_S_S32 main_cst_28
  let main_v75 : IVec S32 1 := cmpf .oge main_arg7 main_v74
  let main_c_29 : IVec S_ 1 := constantI S_ 1 1#1
  let main_v76 : IVec S_ 1 := (fun x v => Host.reduce IntOp.andi x v reducesTo_S32_S_d0 h_S_) main_v75 main_c_29
  let main_v77 : IVec S_ 1 := andi main_v73 main_v76
  let main_cst_30 : FVec F S_ .f32 := constant S_ .f32 0x00000000#32
  let main_v78 : FVec F S256 .f32 := broadcastInDim S256 ![] bcast_S_S256 main_cst_30
  let main_v79 : IVec S256 1 := cmpf .oge main_arg13 main_v78
  let main_c_31 : IVec S_ 1 := constantI S_ 1 1#1
  let main_v80 : IVec S_ 1 := (fun x v => Host.reduce IntOp.andi x v reducesTo_S256_S_d0 h_S_) main_v79 main_c_31
  let main_v81 : IVec S_ 1 := andi main_v77 main_v80
  main_v81

def fn_part3 {F : FTy → Type} [FloatOps F] (main_arg7 : FVec F S32 .f32) (main_arg11 : FVec F S256 .f32) (main_arg12 : FVec F S256 .f32) (main_arg13 : FVec F S256 .f32) (main_arg14 : FVec F S256x768 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg7 main_arg13 main_arg14 main_v63 main_v67

def fn_part2 {F : FTy → Type} [FloatOps F] (main_arg7 : FVec F S32 .f32) (main_arg8 : FVec F S32x256 .f32) (main_arg9 : FVec F S256 .f32) (main_arg10 : FVec F S256 .f32) (main_arg11 : FVec F S256 .f32) (main_arg12 : FVec F S256 .f32) (main_arg13 : FVec F S256 .f32) (main_arg14 : FVec F S256x768 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x256 .f32 := Host.absf main_arg8
  let main_cst_14 : FVec F S_ .f32 := constant S_ .f32 0x7F800000#32
  let main_v40 : FVec F S32x256 .f32 := broadcastInDim S32x256 ![] bcast_S_S32x256 main_cst_14
  let main_v41 : IVec S32x256 1 := cmpf .olt main_v39 main_v40
  let main_c_15 : IVec S_ 1 := constantI S_ 1 1#1
  let main_v42 : IVec S_ 1 := (fun x v => Host.reduce IntOp.andi x v reducesTo_S32x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg7 main_arg11 main_arg12 main_arg13 main_arg14 main_v48 main_v49 main_v50

def fn_part1 {F : FTy → Type} [FloatOps F] (main_arg4 : FVec F S32 .f32) (main_arg5 : FVec F S32 .f32) (main_arg6 : FVec F S32 .f32) (main_arg7 : FVec F S32 .f32) (main_arg8 : FVec F S32x256 .f32) (main_arg9 : FVec F S256 .f32) (main_arg10 : FVec F S256 .f32) (main_arg11 : FVec F S256 .f32) (main_arg12 : FVec F S256 .f32) (main_arg13 : FVec F S256 .f32) (main_arg14 : FVec F S256x768 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S2x512x256 .f32) (main_arg1 : FVec F S2x512x512x12 .f32) (main_arg2 : FVec F S12x32 .f32) (main_arg3 : FVec F S32 .f32) (main_arg4 : FVec F S32 .f32) (main_arg5 : FVec F S32 .f32) (main_arg6 : FVec F S32 .f32) (main_arg7 : FVec F S32 .f32) (main_arg8 : FVec F S32x256 .f32) (main_arg9 : FVec F S256 .f32) (main_arg10 : FVec F S256 .f32) (main_arg11 : FVec F S256 .f32) (main_arg12 : FVec F S256 .f32) (main_arg13 : FVec F S256 .f32) (main_arg14 : FVec F S256x768 .f32) : IVec S_ 1 :=
  let main_v0 : FVec F S2x512x256 .f32 := Host.absf main_arg0
  let main_cst : FVec F S_ .f32 := constant S_ .f32 0x7F800000#32
  let main_v1 : FVec F S2x512x256 .f32 := broadcastInDim S2x512x256 ![] bcast_S_S2x512x256 main_cst
  let main_v2 : IVec S2x512x256 1 := cmpf .olt main_v0 main_v1
  let main_c : IVec S_ 1 := constantI S_ 1 1#1
  let main_v3 : IVec S_ 1 := (fun x v => Host.reduce IntOp.andi x v reducesTo_S2x512x256_S_d0_1_2 h_S_) main_v2 main_c
  let main_v4 : FVec F S2x512x512x12 .f32 := Host.absf main_arg1
  let main_cst_0 : FVec F S_ .f32 := constant S_ .f32 0x7F800000#32
  let main_v5 : FVec F S2x512x512x12 .f32 := broadcastInDim S2x512x512x12 ![] bcast_S_S2x512x512x12 main_cst_0
  let main_v6 : IVec S2x512x512x12 1 := cmpf .olt main_v4 main_v5
  let main_c_1 : IVec S_ 1 := constantI S_ 1 1#1
  let main_v7 : IVec S_ 1 := (fun x v => Host.reduce IntOp.andi x v reducesTo_S2x512x512x12_S_d0_1_2_3 h_S_) main_v6 main_c_1
  let main_v8 : IVec S_ 1 := andi main_v3 main_v7
  let main_v9 : FVec F S12x32 .f32 := Host.absf main_arg2
  let main_cst_2 : FVec F S_ .f32 := constant S_ .f32 0x7F800000#32
  let main_v10 : FVec F S12x32 .f32 := broadcastInDim S12x32 ![] bcast_S_S12x32 main_cst_2
  let main_v11 : IVec S12x32 1 := cmpf .olt main_v9 main_v10
  let main_c_3 : IVec S_ 1 := constantI S_ 1 1#1
  let main_v12 : IVec S_ 1 := (fun x v => Host.reduce IntOp.andi x v reducesTo_S12x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S2x512x256 : Shape := ⟨3, ![2, 512, 256]⟩
abbrev S2x512x512x12 : Shape := ⟨4, ![2, 512, 512, 12]⟩
abbrev S12x32 : Shape := ⟨2, ![12, 32]⟩
abbrev S32 : Shape := ⟨1, ![32]⟩
abbrev S32x256 : Shape := ⟨2, ![32, 256]⟩
abbrev S256 : Shape := ⟨1, ![256]⟩
abbrev S256x768 : Shape := ⟨2, ![256, 768]⟩
abbrev S_ : Shape := ⟨0, ![]⟩
abbrev S1x32 : Shape := ⟨2, ![1, 32]⟩
abbrev S1x256 : Shape := ⟨2, ![1, 256]⟩
abbrev S2x512x6144 : Shape := ⟨3, ![2, 512, 6144]⟩
abbrev S1x128x768 : Shape := ⟨3, ![1, 128, 768]⟩
abbrev S1x128x256 : Shape := ⟨3, ![1, 128, 256]⟩
abbrev S128x256 : Shape := ⟨2, ![128, 256]⟩
abbrev S128x768 : Shape := ⟨2, ![128, 768]⟩
abbrev S8192x12 : Shape := ⟨2, ![8192, 12]⟩
abbrev S8192x32 : Shape := ⟨2, ![8192, 32]⟩
abbrev S8192x256 : Shape := ⟨2, ![8192, 256]⟩
abbrev S128x64x256 : Shape := ⟨3, ![128, 64, 256]⟩
abbrev S1x512x256 : Shape := ⟨3, ![1, 512, 256]⟩
abbrev S512x256 : Shape := ⟨2, ![512, 256]⟩
abbrev S512x768 : Shape := ⟨2, ![512, 768]⟩
abbrev S256x512 : Shape := ⟨2, ![256, 512]⟩
abbrev S512x512 : Shape := ⟨2, ![512, 512]⟩
abbrev S512 : Shape := ⟨1, ![512]⟩
abbrev S512x1 : Shape := ⟨2, ![512, 1]⟩

abbrev nBuf : Space → Nat
  | .hbm => 40
  | .vmem => 16
  | .smem => 0
  | _ => 0

abbrev bufTy : (tb : Table) → Fin (tcTables nBuf tb) → BufTy
  | .hbm, ⟨0, _⟩ => ⟨S2x512x256, .f32⟩
  | .hbm, ⟨1, _⟩ => ⟨S2x512x512x12, .f32⟩
  | .hbm, ⟨2, _⟩ => ⟨S12x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S32x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256x768, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S1x32, .f32⟩
  | .hbm, ⟨21, _⟩ => ⟨S12x32, .f32⟩
  | .hbm, ⟨22, _⟩ => ⟨S12x32, .f32⟩
  | .hbm, ⟨23, _⟩ => ⟨S32, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S256, .f32⟩
  | .hbm, ⟨30, _⟩ => ⟨S256, .f32⟩
  | .hbm, ⟨31, _⟩ => ⟨S1x256, .f32⟩
  | .hbm, ⟨32, _⟩ => ⟨S32x256, .f32⟩
  | .hbm, ⟨33, _⟩ => ⟨S32x256, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S2x512x6144, .f32⟩
  | .hbm, ⟨38, _⟩ => ⟨S2x512x256, .f32⟩
  | .hbm, ⟨39, _⟩ => ⟨S2x512x256, .f32⟩
  | .local _ .vmem, ⟨0, _⟩ => ⟨S1x128x768, .f32⟩
  | .local _ .vmem, ⟨1, _⟩ => ⟨S1x128x768, .f32⟩
  | .local _ .vmem, ⟨2, _⟩ => ⟨S12x32, .f32⟩
  | .local _ .vmem, ⟨3, _⟩ => ⟨S32, .f32⟩
  | .local _ .vmem, ⟨4, _⟩ => ⟨S32x256, .f32⟩
  | .local _ .vmem, ⟨5, _⟩ => ⟨S256, .f32⟩
  | .local _ .vmem, ⟨6, _⟩ => ⟨S1x128x256, .f32⟩
  | .local _ .vmem, ⟨7, _⟩ => ⟨S1x128x256, .f32⟩
  | .local _ .vmem, ⟨8, _⟩ => ⟨S128x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S256x768, .f32⟩
  | .local _ .vmem, ⟨14, _⟩ => ⟨S1x512x256, .f32⟩
  | .local _ .vmem, ⟨15, _⟩ => ⟨S1x512x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v33 : BitVec 1 := Scalar.cmpi .eq arg2 c7_i32
  let v34 : BitVec 32 := Scalar.extui v33
  let c0_i32_17 : BitVec 32 := 0#32
  let v35 : BitVec 1 := Scalar.cmpi .ne v34 c0_i32_17
  v35

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S12x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S32 : S_.BroadcastsInDim S32 (![] : Fin 0 → Fin S32.rank)
  bcast_S32_S1x32_1 : S32.BroadcastsInDim S1x32 (![1] : Fin 1 → Fin S1x32.rank)
  bcast_S1x32_S12x32_0_1 : S1x32.BroadcastsInDim S12x32 (![0, 1] : Fin 2 → Fin S12x32.rank)
  bcast_S_S256 : S_.BroadcastsInDim S256 (![] : Fin 0 → Fin S256.rank)
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  shapeCasts_S2x512x512x12_S2x512x6144 : S2x512x512x12.ShapeCasts S2x512x6144
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  shapeCasts_S128x768_S8192x12 : S128x768.ShapeCasts S8192x12
  inb_S12x32_S12x32_0_0 : ∀ a, (![0, 0] : Fin 2 → Nat) a + S12x32.size a ≤ S12x32.size a
  h_S12x32 : 0 < S12x32.numel
  shapeCasts_S12x32_S12x32 : S12x32.ShapeCasts S12x32
  inb_S32_S32_0 : ∀ a, (![0] : Fin 1 → Nat) a + S32.size a ≤ S32.size a
  h_S32 : 0 < S32.numel
  shapeCasts_S32_S32 : S32.ShapeCasts S32
  shapeCasts_S32_S1x32 : S32.ShapeCasts S1x32
  broadcasts_S1x32_S8192x32 : S1x32.Broadcasts S8192x32
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S8192x256 : S1x256.Broadcasts S8192x256
  shapeCasts_S8192x256_S128x64x256 : S8192x256.ShapeCasts S128x64x256
  reduces_S128x64x256_S128x256 : S128x64x256.Reduces [1] S128x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  shapeCasts_S128x256_S1x128x256 : S128x256.ShapeCasts S1x128x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S256x768_S256x768_0_0 : ∀ a, (![0, 0] : Fin 2 → Nat) a + S256x768.size a ≤ S256x768.size a
  h_S256x768 : 0 < S256x768.numel
  slices_S512x768_o0_0_S512x256 : S512x768.Slices ![0, 0] S512x256
  slices_S512x768_o0_256_S512x256 : S512x768.Slices ![0, 256] S512x256
  slices_S512x768_o0_512_S512x256 : S512x768.Slices ![0, 512] S512x256
  transposes_S512x256_p1_0_S256x512 : S512x256.Transposes [1, 0] S256x512
  reduces_S512x512_S512 : S512x512.Reduces [1] S512
  shapeCasts_S512_S512x1 : S512.ShapeCasts S512x1
  broadcasts_S512x1_S512x512 : S512x1.Broadcasts S512x512
  shapeCasts_S512x256_S1x512x256 : S512x256.ShapeCasts S1x512x256
  dot_S8192x12_S12x32_S8192x32_1_0_0_1_n_n_wf : DotDims.WF S8192x12 S12x32 S8192x32 [1] [0] [0] [1] [] []
  dot_S8192x32_S32x256_S8192x256_1_0_0_1_n_n_wf : DotDims.WF S8192x32 S32x256 S8192x256 [1] [0] [0] [1] [] []
  dot_S512x256_S256x768_S512x768_1_0_0_1_n_n_wf : DotDims.WF S512x256 S256x768 S512x768 [1] [0] [0] [1] [] []
  dot_S512x256_S256x512_S512x512_1_0_0_1_n_n_wf : DotDims.WF S512x256 S256x512 S512x512 [1] [0] [0] [1] [] []
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x768.size a ≤ S2x512x6144.size a
  hwx0_0 : ∀ i : grid0.Coords, EltTy.bits .f32 = 32 ∨ (Rect.block (s := S2x512x6144) S1x128x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x32.size a ≤ S12x32.size a
  hwx0_1 : ∀ i : grid0.Coords, EltTy.bits .f32 = 32 ∨ (Rect.block (s := S12x32) S12x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x256.size a
  hwx0_3 : ∀ i : grid0.Coords, EltTy.bits .f32 = 32 ∨ (Rect.block (s := S32x256) S32x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x256.size a ≤ S2x512x256.size a
  hwx0_5 : ∀ i : grid0.Coords, EltTy.bits .f32 = 32 ∨ (Rect.block (s := S2x512x256) S1x128x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x256.size a ≤ S2x512x256.size a
  hwx1_0 : ∀ i : grid1.Coords, EltTy.bits .f32 = 32 ∨ (Rect.block (s := S2x512x256) S1x512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x256.size a ≤ S2x512x256.size a
  hwx1_1 : ∀ i : grid1.Coords, EltTy.bits .f32 = 32 ∨ (Rect.block (s := S2x512x256) S1x512x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x768.size a ≤ S256x768.size a
  hwx1_2 : ∀ i : grid1.Coords, EltTy.bits .f32 = 32 ∨ (Rect.block (s := S256x768) S256x768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x256.size a ≤ S2x512x256.size a
  hwx1_3 : ∀ i : grid1.Coords, EltTy.bits .f32 = 32 ∨ (Rect.block (s := S2x512x256) S1x512x256.size (cc1_transform_3 i) (hinb1_3 i)).WholeWords (EltTy.packing .f32)

variable [Facts₀]

def dot_S8192x12_S12x32_S8192x32_1_0_0_1_n_n : DotDims S8192x12 S12x32 S8192x32 where
  lhsContracting := [1]
  rhsContracting := [0]
  lhsNonContracting := [0]
  rhsNonContracting := [1]
  lhsBatch := []
  rhsBatch := []
  wf := dot_S8192x12_S12x32_S8192x32_1_0_0_1_n_n_wf
def dot_S8192x32_S32x256_S8192x256_1_0_0_1_n_n : DotDims S8192x32 S32x256 S8192x256 where
  lhsContracting := [1]
  rhsContracting := [0]
  lhsNonContracting := [0]
  rhsNonContracting := [1]
  lhsBatch := []
  rhsBatch := []
  wf := dot_S8192x32_S32x256_S8192x256_1_0_0_1_n_n_wf
def dot_S512x256_S256x768_S512x768_1_0_0_1_n_n : DotDims S512x256 S256x768 S512x768 where
  lhsContracting := [1]
  rhsContracting := [0]
  lhsNonContracting := [0]
  rhsNonContracting := [1]
  lhsBatch := []
  rhsBatch := []
  wf := dot_S512x256_S256x768_S512x768_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_v20) S1x128x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S12x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S32x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x128x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S1x512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1x512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg14) S256x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x512x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x512x256 : Shape := ⟨3, ![2, 512, 256]⟩
abbrev S2x512x512x12 : Shape := ⟨4, ![2, 512, 512, 12]⟩
abbrev S12x32 : Shape := ⟨2, ![12, 32]⟩
abbrev S32 : Shape := ⟨1, ![32]⟩
abbrev S32x256 : Shape := ⟨2, ![32, 256]⟩
abbrev S256 : Shape := ⟨1, ![256]⟩
abbrev S256x768 : Shape := ⟨2, ![256, 768]⟩
abbrev S2x512x512x32 : Shape := ⟨4, ![2, 512, 512, 32]⟩
abbrev S1x1x1x32 : Shape := ⟨4, ![1, 1, 1, 32]⟩
abbrev S_ : Shape := ⟨0, ![]⟩
abbrev S2x512x512x256 : Shape := ⟨4, ![2, 512, 512, 256]⟩
abbrev S1x1x1x256 : Shape := ⟨4, ![1, 1, 1, 256]⟩
abbrev S2x512x768 : Shape := ⟨3, ![2, 512, 768]⟩
abbrev S2x512x512 : Shape := ⟨3, ![2, 512, 512]⟩
abbrev S2x512 : Shape := ⟨2, ![2, 512]⟩
abbrev S2x512x1 : Shape := ⟨3, ![2, 512, 1]⟩

abbrev nBuf : Space → Nat
  | .hbm => 87
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S2x512x512x12, .f32⟩
  | .hbm, ⟨2, _⟩ => ⟨S12x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S32x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256x768, .f32⟩
  | .hbm, ⟨15, _⟩ => ⟨S2x512x512x32, .f32⟩
  | .hbm, ⟨16, _⟩ => ⟨S1x1x1x32, .f32⟩
  | .hbm, ⟨17, _⟩ => ⟨S2x512x512x32, .f32⟩
  | .hbm, ⟨18, _⟩ => ⟨S2x512x512x32, .f32⟩
  | .hbm, ⟨19, _⟩ => ⟨S1x1x1x32, .f32⟩
  | .hbm, ⟨20, _⟩ => ⟨S2x512x512x32, .f32⟩
  | .hbm, ⟨21, _⟩ => ⟨S2x512x512x32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S32, .f32⟩
  | .hbm, ⟨26, _⟩ => ⟨S1x1x1x32, .f32⟩
  | .hbm, ⟨27, _⟩ => ⟨S2x512x512x32, .f32⟩
  | .hbm, ⟨28, _⟩ => ⟨S2x512x512x32, .f32⟩
  | .hbm, ⟨29, _⟩ => ⟨S1x1x1x32, .f32⟩
  | .hbm, ⟨30, _⟩ => ⟨S2x512x512x32, .f32⟩
  | .hbm, ⟨31, _⟩ => ⟨S2x512x512x32, .f32⟩
  | .hbm, ⟨32, _⟩ => ⟨S1x1x1x32, .f32⟩
  | .hbm, ⟨33, _⟩ => ⟨S2x512x512x32, .f32⟩
  | .hbm, ⟨34, _⟩ => ⟨S2x512x512x32, .f32⟩
  | .hbm, ⟨35, _⟩ => ⟨S_, .f32⟩
  | .hbm, ⟨36, _⟩ => ⟨S2x512x512x32, .f32⟩
  | .hbm, ⟨37, _⟩ => ⟨S2x512x512x32, .f32⟩
  | .hbm, ⟨38, _⟩ => ⟨S2x512x512x256, .f32⟩
  | .hbm, ⟨39, _⟩ => ⟨S1x1x1x256, .f32⟩
  | .hbm, ⟨40, _⟩ => ⟨S2x512x512x256, .f32⟩
  | .hbm, ⟨41, _⟩ => ⟨S2x512x512x256, .f32⟩
  | .hbm, ⟨42, _⟩ => ⟨S1x1x1x256, .f32⟩
  | .hbm, ⟨43, _⟩ => ⟨S2x512x512x256, .f32⟩
  | .hbm, ⟨44, _⟩ => ⟨S2x512x512x256, .f32⟩
  | .hbm, ⟨45, _⟩ => ⟨S_, .f32⟩
  | .hbm, ⟨46, _⟩ => ⟨S256, .f32⟩
  | .hbm, ⟨47, _⟩ => ⟨S256, .f32⟩
  | .hbm, ⟨48, _⟩ => ⟨S256, .f32⟩
  | .hbm, ⟨49, _⟩ => ⟨S1x1x1x256, .f32⟩
  | .hbm, ⟨50, _⟩ => ⟨S2x512x512x256, .f32⟩
  | .hbm, ⟨51, _⟩ => ⟨S2x512x512x256, .f32⟩
  | .hbm, ⟨52, _⟩ => ⟨S1x1x1x256, .f32⟩
  | .hbm, ⟨53, _⟩ => ⟨S2x512x512x256, .f32⟩
  | .hbm, ⟨54, _⟩ => ⟨S2x512x512x256, .f32⟩
  | .hbm, ⟨55, _⟩ => ⟨S1x1x1x256, .f32⟩
  | .hbm, ⟨56, _⟩ => ⟨S2x512x512x256, .f32⟩
  | .hbm, ⟨57, _⟩ => ⟨S2x512x512x256, .f32⟩
  | .hbm, ⟨58, _⟩ => ⟨S_, .f32⟩
  | .hbm, ⟨59, _⟩ => ⟨S2x512x512x256, .f32⟩
  | .hbm, ⟨60, _⟩ => ⟨S2x512x512x256, .f32⟩
  | .hbm, ⟨61, _⟩ => ⟨S_, .f32⟩
  | .hbm, ⟨62, _⟩ => ⟨S2x512x256, .f32⟩
  | .hbm, ⟨63, _⟩ => ⟨S2x512x256, .f32⟩
  | .hbm, ⟨64, _⟩ => ⟨S2x512x768, .f32⟩
  | .hbm, ⟨65, _⟩ => ⟨S2x512x256, .f32⟩
  | .hbm, ⟨66, _⟩ => ⟨S2x512x256, .f32⟩
  | .hbm, ⟨67, _⟩ => ⟨S2x512x256, .f32⟩
  | .hbm, ⟨68, _⟩ => ⟨S2x512x512, .f32⟩
  | .hbm, ⟨69, _⟩ => ⟨S_, .f32⟩
  | .hbm, ⟨70, _⟩ => ⟨S2x512x512, .f32⟩
  | .hbm, ⟨71, _⟩ => ⟨S2x512x512, .f32⟩
  | .hbm, ⟨72, _⟩ => ⟨S_, .f32⟩
  | .hbm, ⟨73, _⟩ => ⟨S2x512, .f32⟩
  | .hbm, ⟨74, _⟩ => ⟨S_, .f32⟩
  | .hbm, ⟨75, _⟩ => ⟨S2x512, .f32⟩
  | .hbm, ⟨76, _⟩ => ⟨S2x512, .f32⟩
  | .hbm, ⟨77, _⟩ => ⟨S2x512x1, .f32⟩
  | .hbm, ⟨78, _⟩ => ⟨S2x512x512, .f32⟩
  | .hbm, ⟨79, _⟩ => ⟨S2x512x512, .f32⟩
  | .hbm, ⟨80, _⟩ => ⟨S2x512x512, .f32⟩
  | .hbm, ⟨81, _⟩ => ⟨S_, .f32⟩
  | .hbm, ⟨82, _⟩ => ⟨S2x512, .f32⟩
  | .hbm, ⟨83, _⟩ => ⟨S2x512x1, .f32⟩
  | .hbm, ⟨84, _⟩ => ⟨S2x512x512, .f32⟩
  | .hbm, ⟨85, _⟩ => ⟨S2x512x512, .f32⟩
  | .hbm, ⟨86, _⟩ => ⟨S2x512x256, .f32⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call1_cst : Ref sig .tc := ⟨.hbm, 58, rfl⟩
abbrev main_call1_v0 : Ref sig .tc := ⟨.hbm, 59, rfl⟩
abbrev main_v39 : Ref sig .tc := ⟨.hbm, 60, rfl⟩
abbrev main_cst_1 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_2 : Ref sig .tc := ⟨.hbm, 69, rfl⟩
abbrev main_v47 : Ref sig .tc := ⟨.hbm, 70, rfl⟩
abbrev main_v48 : Ref sig .tc := ⟨.hbm, 71, rfl⟩
abbrev main_cst_3 : Ref sig .tc := ⟨.hbm, 72, rfl⟩
abbrev main_v49 : Ref sig .tc := ⟨.hbm, 73, rfl⟩
abbrev main_cst_4 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_5 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]

class Facts₀ : Prop where
  bcast_S32_S1x1x1x32_3 : S32.BroadcastsInDim S1x1x1x32 (![3] : Fin 1 → Fin S1x1x1x32.rank)
  bcast_S1x1x1x32_S2x512x512x32_0_1_2_3 : S1x1x1x32.BroadcastsInDim S2x512x512x32 (![0, 1, 2, 3] : Fin 4 → Fin S2x512x512x32.rank)
  bcast_S_S32 : S_.BroadcastsInDim S32 (![] : Fin 0 → Fin S32.rank)
  bcast_S_S2x512x512x32 : S_.BroadcastsInDim S2x512x512x32 (![] : Fin 0 → Fin S2x512x512x32.rank)
  bcast_S256_S1x1x1x256_3 : S256.BroadcastsInDim S1x1x1x256 (![3] : Fin 1 → Fin S1x1x1x256.rank)
  bcast_S1x1x1x256_S2x512x512x256_0_1_2_3 : S1x1x1x256.BroadcastsInDim S2x512x512x256 (![0, 1, 2, 3] : Fin 4 → Fin S2x512x512x256.rank)
  bcast_S_S256 : S_.BroadcastsInDim S256 (![] : Fin 0 → Fin S256.rank)
  bcast_S_S2x512x512x256 : S_.BroadcastsInDim S2x512x512x256 (![] : Fin 0 → Fin S2x512x512x256.rank)
  reducesTo_S2x512x512x256_S2x512x256_d2 : S2x512x512x256.ReducesTo [2] S2x512x256
  h_S_ : 0 < S_.numel
  slices_S2x512x768_S2x512x256_0_0_0 : S2x512x768.Slices ![0, 0, 0] S2x512x256
  slices_S2x512x768_S2x512x256_0_0_256 : S2x512x768.Slices ![0, 0, 256] S2x512x256
  slices_S2x512x768_S2x512x256_0_0_512 : S2x512x768.Slices ![0, 0, 512] S2x512x256
  bcast_S_S2x512x512 : S_.BroadcastsInDim S2x512x512 (![] : Fin 0 → Fin S2x512x512.rank)
  reducesTo_S2x512x512_S2x512_d2 : S2x512x512.ReducesTo [2] S2x512
  bcast_S_S2x512 : S_.BroadcastsInDim S2x512 (![] : Fin 0 → Fin S2x512.rank)
  bcast_S2x512_S2x512x1_0_1 : S2x512.BroadcastsInDim S2x512x1 (![0, 1] : Fin 2 → Fin S2x512x1.rank)
  bcast_S2x512x1_S2x512x512_0_1_2 : S2x512x1.BroadcastsInDim S2x512x512 (![0, 1, 2] : Fin 3 → Fin S2x512x512.rank)
  dot_S2x512x512x12_S12x32_S2x512x512x32_3_0_012_1_n_n_wf : DotDims.WF S2x512x512x12 S12x32 S2x512x512x32 [3] [0] [0, 1, 2] [1] [] []
  dot_S2x512x512x32_S32x256_S2x512x512x256_3_0_012_1_n_n_wf : DotDims.WF S2x512x512x32 S32x256 S2x512x512x256 [3] [0] [0, 1, 2] [1] [] []
  dot_S2x512x256_S256x768_S2x512x768_2_0_01_1_n_n_wf : DotDims.WF S2x512x256 S256x768 S2x512x768 [2] [0] [0, 1] [1] [] []
  dot_S2x512x256_S2x512x256_S2x512x512_2_2_1_1_0_0_wf : DotDims.WF S2x512x256 S2x512x256 S2x512x512 [2] [2] [1] [1] [0] [0]
  dot_S2x512x512_S2x512x256_S2x512x256_2_1_1_2_0_0_wf : DotDims.WF S2x512x512 S2x512x256 S2x512x256 [2] [1] [1] [2] [0] [0]

variable [Facts₀]

def dot_S2x512x512x12_S12x32_S2x512x512x32_3_0_012_1_n_n : DotDims S2x512x512x12 S12x32 S2x512x512x32 where
  lhsContracting := [3]
  rhsContracting := [0]
  lhsNonContracting := [0, 1, 2]
  rhsNonContracting := [1]
  lhsBatch := []
  rhsBatch := []
  wf := dot_S2x512x512x12_S12x32_S2x512x512x32_3_0_012_1_n_n_wf
def dot_S2x512x512x32_S32x256_S2x512x512x256_3_0_012_1_n_n : DotDims S2x512x512x32 S32x256 S2x512x512x256 where
  lhsContracting := [3]
  rhsContracting := [0]
  lhsNonContracting := [0, 1, 2]
  rhsNonContracting := [1]
  lhsBatch := []
  rhsBatch := []
  wf := dot_S2x512x512x32_S32x256_S2x512x512x256_3_0_012_1_n_n_wf
def dot_S2x512x256_S256x768_S2x512x768_2_0_01_1_n_n : DotDims S2x512x256 S256x768 S2x512x768 where
  lhsContracting := [2]
  rhsContracting := [0]
  lhsNonContracting := [0, 1]
  rhsNonContracting := [1]
  lhsBatch := []
  rhsBatch := []
  wf := dot_S2x512x256_S256x768_S2x512x768_2_0_01_1_n_n_wf
def dot_S2x512x256_S2x512x256_S2x512x512_2_2_1_1_0_0 : DotDims S2x512x256 S2x512x256 S2x512x512 where
  lhsContracting := [2]
  rhsContracting := [2]
  lhsNonContracting := [1]
  rhsNonContracting := [1]
  lhsBatch := [0]
  rhsBatch := [0]
  wf := dot_S2x512x256_S2x512x256_S2x512x512_2_2_1_1_0_0_wf
def dot_S2x512x512_S2x512x256_S2x512x256_2_1_1_2_0_0 : DotDims S2x512x512 S2x512x256 S2x512x256 where
  lhsContracting := [2]
  rhsContracting := [1]
  lhsNonContracting := [1]
  rhsNonContracting := [2]
  lhsBatch := [0]
  rhsBatch := [0]
  wf := dot_S2x512x512_S2x512x256_S2x512x256_2_1_1_2_0_0_wf

class Facts : Prop extends Facts₀ where

variable [Facts]
-- ==== Proof.KRegion0Base.lean ====
/- Region 0 (the two-layer ReLU network with its running maximum over the last grid axis): what the three
   control cases of its body share — each window's block at a grid point, the two branch conditions in closed form
   over the 64 points (the last coordinate is 0: the accumulator is reset; it is 7: the result block is written),
   where the result window is idle, the staging and scratch buffers as the body is handed them, and the region's
   invariant split into the accumulator's buffer and the rest. -/
import proofs.«101855_j59579786330696_2_alg».proof.Proof.Gen.Kernel.Launch
import proofs.«101855_j59579786330696_2_alg».proof.Proof.Gen.Kernel.Skeleton
import proofs.«101855_j59579786330696_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: unfetched, the block
    index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: unfetched, the block
    index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: unfetched, the block
    index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: unfetched, the block
    index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: unfetched, the block
    index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- The first branch (reset the accumulator): the last grid coordinate is zero. -/
abbrev cond0_0 (i : grid0.Coords) : Prop := (Scalar.cmpi .ne (Scalar.extui (Scalar.cmpi .eq (BitVec.ofNat 32 (i 2).val) 0#32)) 0#32) = 1#1
/-- It holds at the first point of every group of 8. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second branch (write the result block): the last grid coordinate is 7. -/
abbrev cond0_1 (i : grid0.Coords) : Prop := k0_cond2 i = 1#1
/-- It holds at the last point of every group of 8. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Where the result block is not written the result window is idle and is not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
/-- Where it is written the window is live. -/
theorem liveAt0_5_C : ∀ t : Fin cfg0.N, ¬cond0_0 (grid0.coords t) → cond0_1 (grid0.coords t) → cfg0.idle 5 (grid0.coords t) = false := by decide +kernel

/-! ## The buffers the body is handed -/

/-- One staging buffer of the result window, through which its contents are stated. -/
abbrev VO0_5 : View sig .tc .vmem S1x128x256 .f32 := (Memref.whole cc0_stg5_0 : Memref sig .tc .vmem S1x128x256 .f32).view
abbrev ms0_0 (t : Fin cfg0.N) : Memref sig .tc .vmem S1x128x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S12x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x256 .f32 := win0_5.stage (cfg0.slots t 5)
abbrev hs0_5 (t : Fin cfg0.N) : (ms0_5 t).IsWhole := hstage0_5 ((cfg0.slots t 5).cast nbuf0_5)
/-- The accumulator: a whole scoped buffer of the kernel's own, passed beside the windows. -/
abbrev scM0_0 : Memref sig .tc .vmem S128x256 .f32 := Memref.whole cc0_scratch0
abbrev VS0_0 : View sig .tc .vmem S128x256 .f32 := scM0_0.view

/-- The core's other scoped buffers that are no staging buffer of this region (the second region's staging
    buffers), each whole at some contents: they ride through the region untouched. -/
def restScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class's invariant with the accumulator as a buffer owned at some contents. -/
theorem PhiA0_eq (c : Dev nD) :
    (Pipeline.ΦA spec0 c : sProp 𝕄)
      = iprop(iprop((∃ d, owns (c : Thread nD τ) scM0_0 fullShare d) ∗ restScoped0 (F := F) c) ∗ (∃ r, prngReg c r)) := by
  unfold Pipeline.ΦA restScoped0; rw [scopedRest0_eq]; simp only [scM0_0, owns_whole]; try rfl

end Cert.Kernel.Hand

end
-- ==== Proof.KRegion0RunA.lean ====
/- Region 0's body run whole in one of its three control cases — the first point of a group of 8: the accumulator is reset to -inf, then takes the maximum with this step's block maximum; the result block is not written.
   The pieces each buffer ends with are found by the run itself. -/
import proofs.«101855_j59579786330696_2_alg».proof.Proof.KRegion0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the result block (`L5`) and in the accumulator (`LS0`), last first, with the proof
    that on whole buffers — the five inputs at their contents, the result block handed back untouched, the accumulator at anything — the body
    runs to the continuation holding the inputs as they were and those stores written. -/
noncomputable def kernelRun0_A (c : Dev nD) (i : grid0.Coords) (arg3 : Memref sig .tc .vmem S1x128x768 .f32) (harg3 : arg3.IsWhole) (arg4 : Memref sig .tc .vmem S12x32 .f32) (harg4 : arg4.IsWhole) (arg5 : Memref sig .tc .vmem S32 .f32) (harg5 : arg5.IsWhole) (arg6 : Memref sig .tc .vmem S32x256 .f32) (harg6 : arg6.IsWhole) (arg7 : Memref sig .tc .vmem S256 .f32) (harg7 : arg7.IsWhole) (arg8 : Memref sig .tc .vmem S1x128x256 .f32) (harg8 : arg8.IsWhole) (arg9 : Memref sig .tc .vmem S128x256 .f32) (harg9 : arg9.IsWhole) (hc0 : cond0_0 i) (hc1 : ¬cond0_1 i)
    (x0 : Vec F S1x128x768 .f32) (x1 : Vec F S12x32 .f32) (x2 : Vec F S32 .f32) (x3 : Vec F S32x256 .f32) (x4 : Vec F S256 .f32) :
    Σ' (L5 : List (View.Piece (Elt F) S1x128x256 .f32)), { LS0 : List (View.Piece (Elt F) S128x256 .f32) //
      ∀ (xi5 : Vec F S1x128x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0__tpr_bias_kernel i arg3 harg3 arg4 harg4 arg5 harg5 arg6 harg6 arg7 harg7 arg8 harg8 arg9 harg9) K } := by
  refine ⟨[], ?_, fun xi5 E K => ?run⟩
  case run =>
    simp only [cc0__tpr_bias_kernel_eq_skeleton]; unfold cc0__tpr_bias_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Hand

end
-- ==== Proof.KRegion0RunB.lean ====
/- Region 0's body run whole in one of its three control cases — a middle point of a group of 8: the accumulator takes the maximum with this step's block maximum; the result block is not written.
   The pieces each buffer ends with are found by the run itself. -/
import proofs.«101855_j59579786330696_2_alg».proof.Proof.KRegion0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the result block (`L5`) and in the accumulator (`LS0`), last first, with the proof
    that on whole buffers — the five inputs at their contents, the result block handed back untouched, the accumulator at what the point before left — the body
    runs to the continuation holding the inputs as they were and those stores written. -/
noncomputable def kernelRun0_B (c : Dev nD) (i : grid0.Coords) (arg3 : Memref sig .tc .vmem S1x128x768 .f32) (harg3 : arg3.IsWhole) (arg4 : Memref sig .tc .vmem S12x32 .f32) (harg4 : arg4.IsWhole) (arg5 : Memref sig .tc .vmem S32 .f32) (harg5 : arg5.IsWhole) (arg6 : Memref sig .tc .vmem S32x256 .f32) (harg6 : arg6.IsWhole) (arg7 : Memref sig .tc .vmem S256 .f32) (harg7 : arg7.IsWhole) (arg8 : Memref sig .tc .vmem S1x128x256 .f32) (harg8 : arg8.IsWhole) (arg9 : Memref sig .tc .vmem S128x256 .f32) (harg9 : arg9.IsWhole) (hc0 : ¬cond0_0 i) (hc1 : ¬cond0_1 i)
    (x0 : Vec F S1x128x768 .f32) (x1 : Vec F S12x32 .f32) (x2 : Vec F S32 .f32) (x3 : Vec F S32x256 .f32) (x4 : Vec F S256 .f32) (xs0 : Vec F S128x256 .f32) :
    Σ' (L5 : List (View.Piece (Elt F) S1x128x256 .f32)), { LS0 : List (View.Piece (Elt F) S128x256 .f32) //
      ∀ (xi5 : Vec F S1x128x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0__tpr_bias_kernel i arg3 harg3 arg4 harg4 arg5 harg5 arg6 harg6 arg7 harg7 arg8 harg8 arg9 harg9) K } := by
  refine ⟨[], ?_, fun xi5 E K => ?run⟩
  case run =>
    simp only [cc0__tpr_bias_kernel_eq_skeleton]; unfold cc0__tpr_bias_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Hand

end
-- ==== Proof.KRegion0RunC.lean ====
/- Region 0's body run whole in one of its three control cases — the last point of a group of 8: the accumulator takes the maximum with this step's block maximum and is copied into the result block.
   The pieces each buffer ends with are found by the run itself. -/
import proofs.«101855_j59579786330696_2_alg».proof.Proof.KRegion0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the result block (`L5`) and in the accumulator (`LS0`), last first, with the proof
    that on whole buffers — the five inputs at their contents, the result block at anything, the accumulator at what the point before left — the body
    runs to the continuation holding the inputs as they were and those stores written. -/
noncomputable def kernelRun0_C (c : Dev nD) (i : grid0.Coords) (arg3 : Memref sig .tc .vmem S1x128x768 .f32) (harg3 : arg3.IsWhole) (arg4 : Memref sig .tc .vmem S12x32 .f32) (harg4 : arg4.IsWhole) (arg5 : Memref sig .tc .vmem S32 .f32) (harg5 : arg5.IsWhole) (arg6 : Memref sig .tc .vmem S32x256 .f32) (harg6 : arg6.IsWhole) (arg7 : Memref sig .tc .vmem S256 .f32) (harg7 : arg7.IsWhole) (arg8 : Memref sig .tc .vmem S1x128x256 .f32) (harg8 : arg8.IsWhole) (arg9 : Memref sig .tc .vmem S128x256 .f32) (harg9 : arg9.IsWhole) (hc0 : ¬cond0_0 i) (hc1 : cond0_1 i)
    (x0 : Vec F S1x128x768 .f32) (x1 : Vec F S12x32 .f32) (x2 : Vec F S32 .f32) (x3 : Vec F S32x256 .f32) (x4 : Vec F S256 .f32) (xs0 : Vec F S128x256 .f32) :
    Σ' (L5 : List (View.Piece (Elt F) S1x128x256 .f32)), { LS0 : List (View.Piece (Elt F) S128x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc0__tpr_bias_kernel i arg3 harg3 arg4 harg4 arg5 harg5 arg6 harg6 arg7 harg7 arg8 harg8 arg9 harg9) K } := by
  refine ⟨?_, ?_, fun E K => ?run⟩
  case run =>
    simp only [cc0__tpr_bias_kernel_eq_skeleton]; unfold cc0__tpr_bias_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.Hand

end
-- ==== Proof.KRegion0.lean ====
/- Region 0 (the two-layer ReLU network with its running maximum): what the result block and the accumulator hold
   after every grid point, the pipeline's proof data, and the body obligation at every point.
   The accumulator is carried from point to point within a group of 8 points (one block of rows of one batch element):
   reset at the group's first point, joined with the step's block maximum at every point, copied into the result block
   at the group's last point, the only point whose block is written back. -/
import proofs.«101855_j59579786330696_2_alg».proof.Proof.KRegion0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the result block and in the accumulator -/

/-- What case A leaves in the result block: its stores read back (none: a placeholder nothing consults, the window being idle and not written back there). -/
def out0_A_5 (c : Dev nD) (i : grid0.Coords) (arg3 : Memref sig .tc .vmem S1x128x768 .f32) (harg3 : arg3.IsWhole) (arg4 : Memref sig .tc .vmem S12x32 .f32) (harg4 : arg4.IsWhole) (arg5 : Memref sig .tc .vmem S32 .f32) (harg5 : arg5.IsWhole) (arg6 : Memref sig .tc .vmem S32x256 .f32) (harg6 : arg6.IsWhole) (arg7 : Memref sig .tc .vmem S256 .f32) (harg7 : arg7.IsWhole) (arg8 : Memref sig .tc .vmem S1x128x256 .f32) (harg8 : arg8.IsWhole) (arg9 : Memref sig .tc .vmem S128x256 .f32) (harg9 : arg9.IsWhole) (hc0 : cond0_0 i) (hc1 : ¬cond0_1 i)
    (x0 : Vec F S1x128x768 .f32) (x1 : Vec F S12x32 .f32) (x2 : Vec F S32 .f32) (x3 : Vec F S32x256 .f32) (x4 : Vec F S256 .f32) : Vec F S1x128x256 .f32 :=
  VO0_5.read (Elt F) (VO0_5.writes (Elt F) VO0_5.junk (kernelRun0_A c i arg3 harg3 arg4 harg4 arg5 harg5 arg6 harg6 arg7 harg7 arg8 harg8 arg9 harg9 hc0 hc1 x0 x1 x2 x3 x4).1)

/-- Case A's stores into the accumulator cover it. -/
theorem scover0_A_0 (c : Dev nD) (i : grid0.Coords) (arg3 : Memref sig .tc .vmem S1x128x768 .f32) (harg3 : arg3.IsWhole) (arg4 : Memref sig .tc .vmem S12x32 .f32) (harg4 : arg4.IsWhole) (arg5 : Memref sig .tc .vmem S32 .f32) (harg5 : arg5.IsWhole) (arg6 : Memref sig .tc .vmem S32x256 .f32) (harg6 : arg6.IsWhole) (arg7 : Memref sig .tc .vmem S256 .f32) (harg7 : arg7.IsWhole) (arg8 : Memref sig .tc .vmem S1x128x256 .f32) (harg8 : arg8.IsWhole) (arg9 : Memref sig .tc .vmem S128x256 .f32) (harg9 : arg9.IsWhole) (hc0 : cond0_0 i) (hc1 : ¬cond0_1 i)
    (x0 : Vec F S1x128x768 .f32) (x1 : Vec F S12x32 .f32) (x2 : Vec F S32 .f32) (x3 : Vec F S32x256 .f32) (x4 : Vec F S256 .f32) (y : S128x256.Idx) :
    ∃ pc ∈ (kernelRun0_A c i arg3 harg3 arg4 harg4 arg5 harg5 arg6 harg6 arg7 harg7 arg8 harg8 arg9 harg9 hc0 hc1 x0 x1 x2 x3 x4).2.1, y ∈ pc.1.set :=
  View.cover_of_tiledL (kernelRun0_A c i arg3 harg3 arg4 harg4 arg5 harg5 arg6 harg6 arg7 harg7 arg8 harg8 arg9 harg9 hc0 hc1 x0 x1 x2 x3 x4).2.1 S128x256.size (by sl_kernel_rfl) y

/-- What case A leaves in the accumulator: its stores read back. -/
def sout0_A_0 (c : Dev nD) (i : grid0.Coords) (arg3 : Memref sig .tc .vmem S1x128x768 .f32) (harg3 : arg3.IsWhole) (arg4 : Memref sig .tc .vmem S12x32 .f32) (harg4 : arg4.IsWhole) (arg5 : Memref sig .tc .vmem S32 .f32) (harg5 : arg5.IsWhole) (arg6 : Memref sig .tc .vmem S32x256 .f32) (harg6 : arg6.IsWhole) (arg7 : Memref sig .tc .vmem S256 .f32) (harg7 : arg7.IsWhole) (arg8 : Memref sig .tc .vmem S1x128x256 .f32) (harg8 : arg8.IsWhole) (arg9 : Memref sig .tc .vmem S128x256 .f32) (harg9 : arg9.IsWhole) (hc0 : cond0_0 i) (hc1 : ¬cond0_1 i)
    (x0 : Vec F S1x128x768 .f32) (x1 : Vec F S12x32 .f32) (x2 : Vec F S32 .f32) (x3 : Vec F S32x256 .f32) (x4 : Vec F S256 .f32) : Vec F S128x256 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2 x3 x4).2.1)

/-- What case B leaves in the result block: its stores read back (none: a placeholder nothing consults, the window being idle and not written back there). -/
def out0_B_5 (c : Dev nD) (i : grid0.Coords) (arg3 : Memref sig .tc .vmem S1x128x768 .f32) (harg3 : arg3.IsWhole) (arg4 : Memref sig .tc .vmem S12x32 .f32) (harg4 : arg4.IsWhole) (arg5 : Memref sig .tc .vmem S32 .f32) (harg5 : arg5.IsWhole) (arg6 : Memref sig .tc .vmem S32x256 .f32) (harg6 : arg6.IsWhole) (arg7 : Memref sig .tc .vmem S256 .f32) (harg7 : arg7.IsWhole) (arg8 : Memref sig .tc .vmem S1x128x256 .f32) (harg8 : arg8.IsWhole) (arg9 : Memref sig .tc .vmem S128x256 .f32) (harg9 : arg9.IsWhole) (hc0 : ¬cond0_0 i) (hc1 : ¬cond0_1 i)
    (x0 : Vec F S1x128x768 .f32) (x1 : Vec F S12x32 .f32) (x2 : Vec F S32 .f32) (x3 : Vec F S32x256 .f32) (x4 : Vec F S256 .f32) (xs0 : Vec F S128x256 .f32) : Vec F S1x128x256 .f32 :=
  VO0_5.read (Elt F) (VO0_5.writes (Elt F) VO0_5.junk (kernelRun0_B c i arg3 harg3 arg4 harg4 arg5 harg5 arg6 harg6 arg7 harg7 arg8 harg8 arg9 harg9 hc0 hc1 x0 x1 x2 x3 x4 xs0).1)

/-- Case B's stores into the accumulator cover it. -/
theorem scover0_B_0 (c : Dev nD) (i : grid0.Coords) (arg3 : Memref sig .tc .vmem S1x128x768 .f32) (harg3 : arg3.IsWhole) (arg4 : Memref sig .tc .vmem S12x32 .f32) (harg4 : arg4.IsWhole) (arg5 : Memref sig .tc .vmem S32 .f32) (harg5 : arg5.IsWhole) (arg6 : Memref sig .tc .vmem S32x256 .f32) (harg6 : arg6.IsWhole) (arg7 : Memref sig .tc .vmem S256 .f32) (harg7 : arg7.IsWhole) (arg8 : Memref sig .tc .vmem S1x128x256 .f32) (harg8 : arg8.IsWhole) (arg9 : Memref sig .tc .vmem S128x256 .f32) (harg9 : arg9.IsWhole) (hc0 : ¬cond0_0 i) (hc1 : ¬cond0_1 i)
    (x0 : Vec F S1x128x768 .f32) (x1 : Vec F S12x32 .f32) (x2 : Vec F S32 .f32) (x3 : Vec F S32x256 .f32) (x4 : Vec F S256 .f32) (xs0 : Vec F S128x256 .f32) (y : S128x256.Idx) :
    ∃ pc ∈ (kernelRun0_B c i arg3 harg3 arg4 harg4 arg5 harg5 arg6 harg6 arg7 harg7 arg8 harg8 arg9 harg9 hc0 hc1 x0 x1 x2 x3 x4 xs0).2.1, y ∈ pc.1.set :=
  View.cover_of_tiledL (kernelRun0_B c i arg3 harg3 arg4 harg4 arg5 harg5 arg6 harg6 arg7 harg7 arg8 harg8 arg9 harg9 hc0 hc1 x0 x1 x2 x3 x4 xs0).2.1 S128x256.size (by sl_kernel_rfl) y

/-- What case B leaves in the accumulator: its stores read back. -/
def sout0_B_0 (c : Dev nD) (i : grid0.Coords) (arg3 : Memref sig .tc .vmem S1x128x768 .f32) (harg3 : arg3.IsWhole) (arg4 : Memref sig .tc .vmem S12x32 .f32) (harg4 : arg4.IsWhole) (arg5 : Memref sig .tc .vmem S32 .f32) (harg5 : arg5.IsWhole) (arg6 : Memref sig .tc .vmem S32x256 .f32) (harg6 : arg6.IsWhole) (arg7 : Memref sig .tc .vmem S256 .f32) (harg7 : arg7.IsWhole) (arg8 : Memref sig .tc .vmem S1x128x256 .f32) (harg8 : arg8.IsWhole) (arg9 : Memref sig .tc .vmem S128x256 .f32) (harg9 : arg9.IsWhole) (hc0 : ¬cond0_0 i) (hc1 : ¬cond0_1 i)
    (x0 : Vec F S1x128x768 .f32) (x1 : Vec F S12x32 .f32) (x2 : Vec F S32 .f32) (x3 : Vec F S32x256 .f32) (x4 : Vec F S256 .f32) (xs0 : Vec F S128x256 .f32) : Vec F S128x256 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 x3 x4 xs0).2.1)

/-- In the last case the stores into the result block cover it. -/
theorem cover0_C_5 (c : Dev nD) (i : grid0.Coords) (arg3 : Memref sig .tc .vmem S1x128x768 .f32) (harg3 : arg3.IsWhole) (arg4 : Memref sig .tc .vmem S12x32 .f32) (harg4 : arg4.IsWhole) (arg5 : Memref sig .tc .vmem S32 .f32) (harg5 : arg5.IsWhole) (arg6 : Memref sig .tc .vmem S32x256 .f32) (harg6 : arg6.IsWhole) (arg7 : Memref sig .tc .vmem S256 .f32) (harg7 : arg7.IsWhole) (arg8 : Memref sig .tc .vmem S1x128x256 .f32) (harg8 : arg8.IsWhole) (arg9 : Memref sig .tc .vmem S128x256 .f32) (harg9 : arg9.IsWhole) (hc0 : ¬cond0_0 i) (hc1 : cond0_1 i)
    (x0 : Vec F S1x128x768 .f32) (x1 : Vec F S12x32 .f32) (x2 : Vec F S32 .f32) (x3 : Vec F S32x256 .f32) (x4 : Vec F S256 .f32) (xs0 : Vec F S128x256 .f32) (y : S1x128x256.Idx) :
    ∃ pc ∈ (kernelRun0_C c i arg3 harg3 arg4 harg4 arg5 harg5 arg6 harg6 arg7 harg7 arg8 harg8 arg9 harg9 hc0 hc1 x0 x1 x2 x3 x4 xs0).1, y ∈ pc.1.set :=
  View.cover_of_tiledL (kernelRun0_C c i arg3 harg3 arg4 harg4 arg5 harg5 arg6 harg6 arg7 harg7 arg8 harg8 arg9 harg9 hc0 hc1 x0 x1 x2 x3 x4 xs0).1 S1x128x256.size (by sl_kernel_rfl) y

/-- What case C leaves in the result block: its stores read back. -/
def out0_C_5 (c : Dev nD) (i : grid0.Coords) (arg3 : Memref sig .tc .vmem S1x128x768 .f32) (harg3 : arg3.IsWhole) (arg4 : Memref sig .tc .vmem S12x32 .f32) (harg4 : arg4.IsWhole) (arg5 : Memref sig .tc .vmem S32 .f32) (harg5 : arg5.IsWhole) (arg6 : Memref sig .tc .vmem S32x256 .f32) (harg6 : arg6.IsWhole) (arg7 : Memref sig .tc .vmem S256 .f32) (harg7 : arg7.IsWhole) (arg8 : Memref sig .tc .vmem S1x128x256 .f32) (harg8 : arg8.IsWhole) (arg9 : Memref sig .tc .vmem S128x256 .f32) (harg9 : arg9.IsWhole) (hc0 : ¬cond0_0 i) (hc1 : cond0_1 i)
    (x0 : Vec F S1x128x768 .f32) (x1 : Vec F S12x32 .f32) (x2 : Vec F S32 .f32) (x3 : Vec F S32x256 .f32) (x4 : Vec F S256 .f32) (xs0 : Vec F S128x256 .f32) : Vec F S1x128x256 .f32 :=
  VO0_5.read (Elt F) (VO0_5.writes (Elt F) VO0_5.junk (kernelRun0_C c i arg3 harg3 arg4 harg4 arg5 harg5 arg6 harg6 arg7 harg7 arg8 harg8 arg9 harg9 hc0 hc1 x0 x1 x2 x3 x4 xs0).1)

/-- Case C's stores into the accumulator cover it. -/
theorem scover0_C_0 (c : Dev nD) (i : grid0.Coords) (arg3 : Memref sig .tc .vmem S1x128x768 .f32) (harg3 : arg3.IsWhole) (arg4 : Memref sig .tc .vmem S12x32 .f32) (harg4 : arg4.IsWhole) (arg5 : Memref sig .tc .vmem S32 .f32) (harg5 : arg5.IsWhole) (arg6 : Memref sig .tc .vmem S32x256 .f32) (harg6 : arg6.IsWhole) (arg7 : Memref sig .tc .vmem S256 .f32) (harg7 : arg7.IsWhole) (arg8 : Memref sig .tc .vmem S1x128x256 .f32) (harg8 : arg8.IsWhole) (arg9 : Memref sig .tc .vmem S128x256 .f32) (harg9 : arg9.IsWhole) (hc0 : ¬cond0_0 i) (hc1 : cond0_1 i)
    (x0 : Vec F S1x128x768 .f32) (x1 : Vec F S12x32 .f32) (x2 : Vec F S32 .f32) (x3 : Vec F S32x256 .f32) (x4 : Vec F S256 .f32) (xs0 : Vec F S128x256 .f32) (y : S128x256.Idx) :
    ∃ pc ∈ (kernelRun0_C c i arg3 harg3 arg4 harg4 arg5 harg5 arg6 harg6 arg7 harg7 arg8 harg8 arg9 harg9 hc0 hc1 x0 x1 x2 x3 x4 xs0).2.1, y ∈ pc.1.set :=
  View.cover_of_tiledL (kernelRun0_C c i arg3 harg3 arg4 harg4 arg5 harg5 arg6 harg6 arg7 harg7 arg8 harg8 arg9 harg9 hc0 hc1 x0 x1 x2 x3 x4 xs0).2.1 S128x256.size (by sl_kernel_rfl) y

/-- What case C leaves in the accumulator: its stores read back. -/
def sout0_C_0 (c : Dev nD) (i : grid0.Coords) (arg3 : Memref sig .tc .vmem S1x128x768 .f32) (harg3 : arg3.IsWhole) (arg4 : Memref sig .tc .vmem S12x32 .f32) (harg4 : arg4.IsWhole) (arg5 : Memref sig .tc .vmem S32 .f32) (harg5 : arg5.IsWhole) (arg6 : Memref sig .tc .vmem S32x256 .f32) (harg6 : arg6.IsWhole) (arg7 : Memref sig .tc .vmem S256 .f32) (harg7 : arg7.IsWhole) (arg8 : Memref sig .tc .vmem S1x128x256 .f32) (harg8 : arg8.IsWhole) (arg9 : Memref sig .tc .vmem S128x256 .f32) (harg9 : arg9.IsWhole) (hc0 : ¬cond0_0 i) (hc1 : cond0_1 i)
    (x0 : Vec F S1x128x768 .f32) (x1 : Vec F S12x32 .f32) (x2 : Vec F S32 .f32) (x3 : Vec F S32x256 .f32) (x4 : Vec F S256 .f32) (xs0 : Vec F S128x256 .f32) : Vec F S128x256 .f32 :=
  VS0_0.read (Elt F) (VS0_0.writes (Elt F) VS0_0.junk (kernelRun0_C c i arg3 harg3 arg4 harg4 arg5 harg5 arg6 harg6 arg7 harg7 arg8 harg8 arg9 harg9 hc0 hc1 x0 x1 x2 x3 x4 xs0).2.1)

variable (V : (c : Dev nD) → (b : Ref sig .tc) → Buf (Elt F) ((c : Thread nD τ).loc b))

/-! ## What the result block and the accumulator hold after each point -/

/-- After the body at position `n`: the result block's staging buffer and the accumulator. The case is the one the closed
    forms select at `n`, run at the point's buffers and input blocks, the accumulator at what position `n - 1` left. -/
def outsAt0 (c : Dev nD) : (n : ℕ) → n < cfg0.N → Vec F S1x128x256 .f32 × Vec F S128x256 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 8 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 8 = 7 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

/-- At a group's first point. -/
theorem outsAt0_A (c : Dev nD) (t : Fin cfg0.N) (h0 : t.val % 8 = 0) (h1 : ¬t.val % 8 = 7) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans rfl

/-- At a middle point: over what the point before left. -/
theorem outsAt0_B (c : Dev nD) (t : Fin cfg0.N) (h0 : ¬t.val % 8 = 0) (h1 : ¬t.val % 8 = 7) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a group's last point: over what the point before left. -/
theorem outsAt0_C (c : Dev nD) (t : Fin cfg0.N) (h0 : ¬t.val % 8 = 0) (h1 : t.val % 8 = 7) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: before the first point every scoped buffer at anything; afterwards the accumulator at what
    the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restScoped0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ restScoped0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restScoped0 (F := F) c) ∗ (∃ r, prngReg c r)) := by
  cases n with
  | zero => exact absurd rfl hz
  | succ n => rfl

/-! ## The pipeline's proof data -/

/-- The arrays as the region finds them; after the body at point `t` each input's buffer at its block and the result
    block's at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' buffers hold their blocks; the closed forms say which case the point is in;
    the invariant hands the body the accumulator at what the point before left (at anything at the very first point) and
    takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 8 = 0
  · have h1 : ¬t.val % 8 = 7 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
    rw [outsAt0_A V c t h0 h1]
    unfold sout0_A_0; (try dsimp only)
    by_cases hz : t.val = 0
    · rw [PhiS_castSucc V c t, PhiS_zero V c _ _ hz, PhiA0_eq]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [outsAt0_C V c t h0 h1]
      unfold out0_C_5 sout0_C_0; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B V c t h0 h1]
      unfold sout0_B_0; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulator's contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS V c t.val (Nat.le_of_lt_succ t.isLt) from rfl, PhiS_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ (Pipeline.ΦA spec0 c : sProp 𝕄) :=
  Phi_out0 V c _ (by rw [Fin.val_last]; have : cfg0.N = 64 := N_0; omega)

end Cert.Kernel.Hand

end
-- ==== Proof.KRegion1.lean ====
/- Region 1 of @main (the attention kernel, custom_call 1), at a parameter `V` — the TensorCore's buffer contents when
   the region is entered. Each window's block at a point is read off its array; the body loads its three input blocks
   (and, unread afterwards, the output's buffer at whatever it holds) and stores ONE whole block: the payload
   `k1_pay1` of the three loaded blocks. So the output's staging buffer after the body is the canonical contents of
   that one whole-block write, the inputs' buffers are as fetched, and the class-A invariant (the scoped rest and the core's
   pseudo-random register) passes through. From these: the proof data `dat1 V c` and the body obligation at every point. Generic in
   the float instance. -/
import proofs.«101855_j59579786330696_2_alg».proof.Proof.Gen.Kernel.Launch
import proofs.«101855_j59579786330696_2_alg».proof.Proof.Gen.Kernel.Skeleton
import proofs.«101855_j59579786330696_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved): for ANY proof data whose array is `V`'s and whose body leaves the block in place.
    Window 0: the point's batch of x. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Window 1: the point's batch of the bias. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Window 2: the whole projection matrix, fetched once (its block index is constant). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole buffer -/

abbrev rB : Rect S1x512x256 := Rect.unit (s := S1x512x256) ![0, 0, 0] S1x512x256.size inb_S1x512x256_S1x512x256_0_0_0
abbrev rW : Rect S256x768 := Rect.unit (s := S256x768) ![0, 0] S256x768.size inb_S256x768_S256x768_0_0

/-! ## What the body leaves in the output window's buffer -/

/-- Window 3's staging buffer after the body, from the three input blocks: its one store, of the whole block. -/
def out1_3 (x0 : Vec F S1x512x256 .f32) (x1 : Vec F S1x512x256 .f32) (x2 : Vec F S256x768 .f32) : Vec F S1x512x256 .f32 :=
  View.canon [⟨rB, k1_pay1 (View.ld x0 rB) (View.ld x1 rB) (View.ld x2 rW)⟩]

/-- The one store is the whole block, so it covers the buffer. -/
theorem cover1_3 (p0 : Vec F S1x512x256 .f32) (y : S1x512x256.Idx) :
    ∃ pc ∈ ([⟨rB, p0⟩] : List (View.Piece (Elt F) S1x512x256 .f32)), y ∈ pc.1.set :=
  View.cover_of_tiled [⟨rB, p0⟩] S1x512x256.size (by rfl) y

/-! ## The body's triple -/

set_option maxHeartbeats 1000000 in
/-- The kernel body on whole staging memrefs, the inputs' at read contents `x0 x1 x2` and the output's at anything,
    runs to the continuation holding the inputs' as they were and the output's at `out1_3` of the inputs'. -/
theorem sound_kernel1 (c : Dev nD) (E : Set ℕ) (i : grid1.Coords)
    (arg1 : Memref sig .tc .vmem S1x512x256 .f32) (harg1 : arg1.IsWhole) (arg2 : Memref sig .tc .vmem S1x512x256 .f32) (harg2 : arg2.IsWhole)
    (arg3 : Memref sig .tc .vmem S256x768 .f32) (harg3 : arg3.IsWhole) (arg4 : Memref sig .tc .vmem S1x512x256 .f32) (harg4 : arg4.IsWhole)
    (x0 : Vec F S1x512x256 .f32) (x1 : Vec F S1x512x256 .f32) (x2 : Vec F S256x768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__attn_kernel i arg1 harg1 arg2 harg2 arg3 harg3 arg4 harg4) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point `t`
    each input's buffer at its block and the output's at `out1_3` of the input blocks; the class-A invariant; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KRun.lean ====
/- The run of @main over its segments: the stretch of host operations, then region 0, then region 1 (no host
   operation between the regions or after the last). The buffer contents at each segment boundary are a fold from the
   launch memory: `W1` is what the host operations leave, `W2` replaces region 0's arrays by what its write-backs
   leave, `W3` does the same for region 1. Every weakly fair execution terminates with every unscoped buffer at
   `W3` (`run`); the fifteen arguments are read back through the fold to their launch contents (`W3_main_argK`:
   no host operation writes an argument, and a region only reads it through an input window), which is the frame
   claim (`frame`); the result's buffer is region 1's output array after its last write-back (`W3_result`), and
   region 1 reads in `main_v21` region 0's output array after its last write-back (`W2_bias`). Generic in the float
   instance. -/
import proofs.«101855_j59579786330696_2_alg».proof.Proof.Gen.Kernel.Regions
import proofs.«101855_j59579786330696_2_alg».proof.Proof.KRegion0
import proofs.«101855_j59579786330696_2_alg».proof.Proof.KRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host operations (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs
    folded), every other buffer as entered. This is also region 1's entry. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (what region 1's proof data take). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- A buffer no host operation writes holds after them what it held at launch. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- The result's buffer at the end: region 1's output array after its last write-back. -/
theorem W3_result (c : Dev nD) : W3 m ρ c (Proc.devRef .tc main_v22) = (dat1 (V2 m ρ) c).arrAt 3 cfg1.N := W3_arr m ρ c 3
/-- The bias buffer region 1 is entered with: region 0's output array after its last write-back. -/
theorem W2_bias (c : Dev nD) : W2 m ρ c (Proc.devRef .tc main_v21) = (dat0 (V1 m ρ) c).arrAt 5 cfg0.N := W2_arr m ρ c 5

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl
theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl
theorem W3_main_arg10 (c : Dev nD) : W3 m ρ c (Proc.devRef .tc main_arg10) = m ((c : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl
theorem W3_main_arg11 (c : Dev nD) : W3 m ρ c (Proc.devRef .tc main_arg11) = m ((c : Thread nD τ).loc main_arg11) :=
  calc W3 m ρ c (Proc.devRef .tc main_arg11)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl
theorem W3_main_arg12 (c : Dev nD) : W3 m ρ c (Proc.devRef .tc main_arg12) = m ((c : Thread nD τ).loc main_arg12) :=
  calc W3 m ρ c (Proc.devRef .tc main_arg12)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := W1_of m ρ c main_arg12 (by decide)
    _ = m ((c : Thread nD τ).loc main_arg12) := rfl
theorem W3_main_arg13 (c : Dev nD) : W3 m ρ c (Proc.devRef .tc main_arg13) = m ((c : Thread nD τ).loc main_arg13) :=
  calc W3 m ρ c (Proc.devRef .tc main_arg13)
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := W1_of m ρ c main_arg13 (by decide)
    _ = m ((c : Thread nD τ).loc main_arg13) := rfl
theorem W3_main_arg14 (c : Dev nD) : W3 m ρ c (Proc.devRef .tc main_arg14) = m ((c : Thread nD τ).loc main_arg14) :=
  calc W3 m ρ c (Proc.devRef .tc main_arg14)
    _ = W2 m ρ c (Proc.devRef .tc main_arg14) := (W3_arr m ρ c 2).trans (((dat1 (V2 m ρ) c).arrAt_in 2 rfl _).trans (A_eq1 (V2 m ρ) c 2))
    _ = W1 m ρ c (Proc.devRef .tc main_arg14) := W2_of_ne m ρ c main_arg14 (by decide)
    _ = W0 m ρ c (Proc.devRef .tc main_arg14) := W1_of m ρ c main_arg14 (by decide)
    _ = m ((c : Thread nD τ).loc main_arg14) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's pseudo-random register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W3`, the
    pseudo-random register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 (custom_call 0) over the thread state: entered from every unscoped buffer at `W1`, left at `W2`. Its
    arrays are split out of the unscoped buffers and put back at the exit contents; the pseudo-random register goes
    into the pipeline's invariant and comes out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    iintro ⟨Hp, -, Hr⟩
    iapply (hin0 (V1 m ρ) c)
    unfold Pipeline.ΦA
    isplitl [Hr]; · iexact Hr
    iexact Hp
  hout c := by
    rw [Pipeline.ownSems0_none, show (pdats m ρ 0 c).Φ (Fin.last _) = (dat0 (V1 m ρ) c).Φ (Fin.last cfg0.N) from rfl]
    have hΦ := hout0 (V1 m ρ) c
    iintro H
    ihave H' := hΦ $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (custom_call 1) over the thread state: entered from every unscoped buffer at `W2`, left at `W3`. Its
    arrays are split out of the unscoped buffers and put back at the exit contents; the pseudo-random register goes
    into the pipeline's invariant and comes out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state has every unscoped buffer at `W3`. -/
theorem run : θ_run defs (onTc (τ := τ) (main (F := F))) ⟨m, fun _ => 0, ρ⟩ (fun r => ∀ c : Dev nD,
      ∀ b ∈ Pipeline.ucRefs τ sig, r.2.mem ((c : Thread nD τ).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every weakly fair execution of @main terminates, nothing faulting, and every final state has the
    fifteen argument arrays as launched — `run`'s post read at each argument, each through `W3_main_argK`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c),
      (h c _ (mem_uc main_arg7 (by decide))).trans (W3_main_arg7 m ρ c),
      (h c _ (mem_uc main_arg8 (by decide))).trans (W3_main_arg8 m ρ c),
      (h c _ (mem_uc main_arg9 (by decide))).trans (W3_main_arg9 m ρ c),
      (h c _ (mem_uc main_arg10 (by decide))).trans (W3_main_arg10 m ρ c),
      (h c _ (mem_uc main_arg11 (by decide))).trans (W3_main_arg11 m ρ c),
      (h c _ (mem_uc main_arg12 (by decide))).trans (W3_main_arg12 m ρ c),
      (h c _ (mem_uc main_arg13 (by decide))).trans (W3_main_arg13 m ρ c),
      (h c _ (mem_uc main_arg14 (by decide))).trans (W3_main_arg14 m ρ c)⟩) (run m ρ)

end Cert.Kernel.Hand

end
-- ==== Proof.KIRegion0Base.lean ====
/- Region 0 (the two-layer ReLU network with its running maximum over the last grid axis): what the three
   control cases of its body share — each window's block at a grid point, the two branch conditions in closed form
   over the 64 points (the last coordinate is 0: the accumulator is reset; it is 7: the result block is written),
   where the result window is idle, the staging and scratch buffers as the body is handed them, and the region's
   invariant split into the accumulator's buffer and the rest. -/
import proofs.«101855_j59579786330696_2_alg».proof.Proof.Gen.KernelIdeal.Launch
import proofs.«101855_j59579786330696_2_alg».proof.Proof.Gen.KernelIdeal.Skeleton
import proofs.«101855_j59579786330696_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: unfetched, the block
    index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: unfetched, the block
    index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: unfetched, the block
    index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: unfetched, the block
    index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: unfetched, the block
    index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- The first branch (reset the accumulator): the last grid coordinate is zero. -/
abbrev cond0_0 (i : grid0.Coords) : Prop := (Scalar.cmpi .ne (Scalar.extui (Scalar.cmpi .eq (BitVec.ofNat 32 (i 2).val) 0#32)) 0#32) = 1#1
/-- It holds at the first point of every group of 8. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second branch (write the result block): the last grid coordinate is 7. -/
abbrev cond0_1 (i : grid0.Coords) : Prop := k0_cond2 i = 1#1
/-- It holds at the last point of every group of 8. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Where the result block is not written the result window is idle and is not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
/-- Where it is written the window is live. -/
theorem liveAt0_5_C : ∀ t : Fin cfg0.N, ¬cond0_0 (grid0.coords t) → cond0_1 (grid0.coords t) → cfg0.idle 5 (grid0.coords t) = false := by decide +kernel

/-! ## The buffers the body is handed -/

/-- One staging buffer of the result window, through which its contents are stated. -/
abbrev VO0_5 : View sig .tc .vmem S1x128x256 .f32 := (Memref.whole cc0_stg5_0 : Memref sig .tc .vmem S1x128x256 .f32).view
abbrev ms0_0 (t : Fin cfg0.N) : Memref sig .tc .vmem S1x128x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S12x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x256 .f32 := win0_5.stage (cfg0.slots t 5)
abbrev hs0_5 (t : Fin cfg0.N) : (ms0_5 t).IsWhole := hstage0_5 ((cfg0.slots t 5).cast nbuf0_5)
/-- The accumulator: a whole scoped buffer of the kernel's own, passed beside the windows. -/
abbrev scM0_0 : Memref sig .tc .vmem S128x256 .f32 := Memref.whole cc0_scratch0
abbrev VS0_0 : View sig .tc .vmem S128x256 .f32 := scM0_0.view

/-- The core's other scoped buffers that are no staging buffer of this region (the second region's staging
    buffers), each whole at some contents: they ride through the region untouched. -/
def restScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class's invariant with the accumulator as a buffer owned at some contents. -/
theorem PhiA0_eq (c : Dev nD) :
    (Pipeline.ΦA spec0 c : sProp 𝕄)
      = iprop(iprop((∃ d, owns (c : Thread nD τ) scM0_0 fullShare d) ∗ restScoped0 (F := F) c) ∗ (∃ r, prngReg c r)) := by
  unfold Pipeline.ΦA restScoped0; rw [scopedRest0_eq]; simp only [scM0_0, owns_whole]; try rfl

end Cert.KernelIdeal.Hand

end
-- ==== Proof.KIRegion0RunA.lean ====
/- Region 0's body run whole in one of its three control cases — the first point of a group of 8: the accumulator is reset to -inf, then takes the maximum with this step's block maximum; the result block is not written.
   The pieces each buffer ends with are found by the run itself. -/
import proofs.«101855_j59579786330696_2_alg».proof.Proof.KIRegion0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the result block (`L5`) and in the accumulator (`LS0`), last first, with the proof
    that on whole buffers — the five inputs at their contents, the result block handed back untouched, the accumulator at anything — the body
    runs to the continuation holding the inputs as they were and those stores written. -/
noncomputable def kernelRun0_A (c : Dev nD) (i : grid0.Coords) (arg3 : Memref sig .tc .vmem S1x128x768 .f32) (harg3 : arg3.IsWhole) (arg4 : Memref sig .tc .vmem S12x32 .f32) (harg4 : arg4.IsWhole) (arg5 : Memref sig .tc .vmem S32 .f32) (harg5 : arg5.IsWhole) (arg6 : Memref sig .tc .vmem S32x256 .f32) (harg6 : arg6.IsWhole) (arg7 : Memref sig .tc .vmem S256 .f32) (harg7 : arg7.IsWhole) (arg8 : Memref sig .tc .vmem S1x128x256 .f32) (harg8 : arg8.IsWhole) (arg9 : Memref sig .tc .vmem S128x256 .f32) (harg9 : arg9.IsWhole) (hc0 : cond0_0 i) (hc1 : ¬cond0_1 i)
    (x0 : Vec F S1x128x768 .f32) (x1 : Vec F S12x32 .f32) (x2 : Vec F S32 .f32) (x3 : Vec F S32x256 .f32) (x4 : Vec F S256 .f32) :
    Σ' (L5 : List (View.Piece (Elt F) S1x128x256 .f32)), { LS0 : List (View.Piece (Elt F) S128x256 .f32) //
      ∀ (xi5 : Vec F S1x128x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0__tpr_bias_kernel i arg3 harg3 arg4 harg4 arg5 harg5 arg6 harg6 arg7 harg7 arg8 harg8 arg9 harg9) K } := by
  refine ⟨[], ?_, fun xi5 E K => ?run⟩
  case run =>
    simp only [cc0__tpr_bias_kernel_eq_skeleton]; unfold cc0__tpr_bias_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Hand

end
-- ==== Proof.KIRegion0RunB.lean ====
/- Region 0's body run whole in one of its three control cases — a middle point of a group of 8: the accumulator takes the maximum with this step's block maximum; the result block is not written.
   The pieces each buffer ends with are found by the run itself. -/
import proofs.«101855_j59579786330696_2_alg».proof.Proof.KIRegion0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the result block (`L5`) and in the accumulator (`LS0`), last first, with the proof
    that on whole buffers — the five inputs at their contents, the result block handed back untouched, the accumulator at what the point before left — the body
    runs to the continuation holding the inputs as they were and those stores written. -/
noncomputable def kernelRun0_B (c : Dev nD) (i : grid0.Coords) (arg3 : Memref sig .tc .vmem S1x128x768 .f32) (harg3 : arg3.IsWhole) (arg4 : Memref sig .tc .vmem S12x32 .f32) (harg4 : arg4.IsWhole) (arg5 : Memref sig .tc .vmem S32 .f32) (harg5 : arg5.IsWhole) (arg6 : Memref sig .tc .vmem S32x256 .f32) (harg6 : arg6.IsWhole) (arg7 : Memref sig .tc .vmem S256 .f32) (harg7 : arg7.IsWhole) (arg8 : Memref sig .tc .vmem S1x128x256 .f32) (harg8 : arg8.IsWhole) (arg9 : Memref sig .tc .vmem S128x256 .f32) (harg9 : arg9.IsWhole) (hc0 : ¬cond0_0 i) (hc1 : ¬cond0_1 i)
    (x0 : Vec F S1x128x768 .f32) (x1 : Vec F S12x32 .f32) (x2 : Vec F S32 .f32) (x3 : Vec F S32x256 .f32) (x4 : Vec F S256 .f32) (xs0 : Vec F S128x256 .f32) :
    Σ' (L5 : List (View.Piece (Elt F) S1x128x256 .f32)), { LS0 : List (View.Piece (Elt F) S128x256 .f32) //
      ∀ (xi5 : Vec F S1x128x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0__tpr_bias_kernel i arg3 harg3 arg4 harg4 arg5 harg5 arg6 harg6 arg7 harg7 arg8 harg8 arg9 harg9) K } := by
  refine ⟨[], ?_, fun xi5 E K => ?run⟩
  case run =>
    simp only [cc0__tpr_bias_kernel_eq_skeleton]; unfold cc0__tpr_bias_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Hand

end
-- ==== Proof.KIRegion0RunC.lean ====
/- Region 0's body run whole in one of its three control cases — the last point of a group of 8: the accumulator takes the maximum with this step's block maximum and is copied into the result block.
   The pieces each buffer ends with are found by the run itself. -/
import proofs.«101855_j59579786330696_2_alg».proof.Proof.KIRegion0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body leaves in the result block (`L5`) and in the accumulator (`LS0`), last first, with the proof
    that on whole buffers — the five inputs at their contents, the result block at anything, the accumulator at what the point before left — the body
    runs to the continuation holding the inputs as they were and those stores written. -/
noncomputable def kernelRun0_C (c : Dev nD) (i : grid0.Coords) (arg3 : Memref sig .tc .vmem S1x128x768 .f32) (harg3 : arg3.IsWhole) (arg4 : Memref sig .tc .vmem S12x32 .f32) (harg4 : arg4.IsWhole) (arg5 : Memref sig .tc .vmem S32 .f32) (harg5 : arg5.IsWhole) (arg6 : Memref sig .tc .vmem S32x256 .f32) (harg6 : arg6.IsWhole) (arg7 : Memref sig .tc .vmem S256 .f32) (harg7 : arg7.IsWhole) (arg8 : Memref sig .tc .vmem S1x128x256 .f32) (harg8 : arg8.IsWhole) (arg9 : Memref sig .tc .vmem S128x256 .f32) (harg9 : arg9.IsWhole) (hc0 : ¬cond0_0 i) (hc1 : cond0_1 i)
    (x0 : Vec F S1x128x768 .f32) (x1 : Vec F S12x32 .f32) (x2 : Vec F S32 .f32) (x3 : Vec F S32x256 .f32) (x4 : Vec F S256 .f32) (xs0 : Vec F S128x256 .f32) :
    Σ' (L5 : List (View.Piece (Elt F) S1x128x256 .f32)), { LS0 : List (View.Piece (Elt F) S128x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc0__tpr_bias_kernel i arg3 harg3 arg4 harg4 arg5 harg5 arg6 harg6 arg7 harg7 arg8 harg8 arg9 harg9) K } := by
  refine ⟨?_, ?_, fun E K => ?run⟩
  case run =>
    simp only [cc0__tpr_bias_kernel_eq_skeleton]; unfold cc0__tpr_bias_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.Hand

end
-- ==== Proof.KIRegion0.lean ====
/- Region 0 (the two-layer ReLU network with its running maximum): what the result block and the accumulator hold
   after every grid point, the pipeline's proof data, and the body obligation at every point.
   The accumulator is carried from point to point within a group of 8 points (one block of rows of one batch element):
   reset at the group's first point, joined with the step's block maximum at every point, copied into the result block
   at the group's last point, the only point whose block is written back. -/
import proofs.«101855_j59579786330696_2_alg».proof.Proof.KIRegion0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the result block and in the accumulator -/

/-- What case A leaves in the result block: its stores read back (none: a placeholder nothing consults, the window being idle and not written back there). -/
def out0_A_5 (c : Dev nD) (i : grid0.Coords) (arg3 : Memref sig .tc .vmem S1x128x768 .f32) (harg3 : arg3.IsWhole) (arg4 : Memref sig .tc .vmem S12x32 .f32) (harg4 : arg4.IsWhole) (arg5 : Memref sig .tc .vmem S32 .f32) (harg5 : arg5.IsWhole) (arg6 : Memref sig .tc .vmem S32x256 .f32) (harg6 : arg6.IsWhole) (arg7 : Memref sig .tc .vmem S256 .f32) (harg7 : arg7.IsWhole) (arg8 : Memref sig .tc .vmem S1x128x256 .f32) (harg8 : arg8.IsWhole) (arg9 : Memref sig .tc .vmem S128x256 .f32) (harg9 : arg9.IsWhole) (hc0 : cond0_0 i) (hc1 : ¬cond0_1 i)
    (x0 : Vec F S1x128x768 .f32) (x1 : Vec F S12x32 .f32) (x2 : Vec F S32 .f32) (x3 : Vec F S32x256 .f32) (x4 : Vec F S256 .f32) : Vec F S1x128x256 .f32 :=
  VO0_5.read (Elt F) (VO0_5.writes (Elt F) VO0_5.junk (kernelRun0_A c i arg3 harg3 arg4 harg4 arg5 harg5 arg6 harg6 arg7 harg7 arg8 harg8 arg9 harg9 hc0 hc1 x0 x1 x2 x3 x4).1)

/-- Case A's stores into the accumulator cover it. -/
theorem scover0_A_0 (c : Dev nD) (i : grid0.Coords) (arg3 : Memref sig .tc .vmem S1x128x768 .f32) (harg3 : arg3.IsWhole) (arg4 : Memref sig .tc .vmem S12x32 .f32) (harg4 : arg4.IsWhole) (arg5 : Memref sig .tc .vmem S32 .f32) (harg5 : arg5.IsWhole) (arg6 : Memref sig .tc .vmem S32x256 .f32) (harg6 : arg6.IsWhole) (arg7 : Memref sig .tc .vmem S256 .f32) (harg7 : arg7.IsWhole) (arg8 : Memref sig .tc .vmem S1x128x256 .f32) (harg8 : arg8.IsWhole) (arg9 : Memref sig .tc .vmem S128x256 .f32) (harg9 : arg9.IsWhole) (hc0 : cond0_0 i) (hc1 : ¬cond0_1 i)
    (x0 : Vec F S1x128x768 .f32) (x1 : Vec F S12x32 .f32) (x2 : Vec F S32 .f32) (x3 : Vec F S32x256 .f32) (x4 : Vec F S256 .f32) (y : S128x256.Idx) :
    ∃ pc ∈ (kernelRun0_A c i arg3 harg3 arg4 harg4 arg5 harg5 arg6 harg6 arg7 harg7 arg8 harg8 arg9 harg9 hc0 hc1 x0 x1 x2 x3 x4).2.1, y ∈ pc.1.set :=
  View.cover_of_tiledL (kernelRun0_A c i arg3 harg3 arg4 harg4 arg5 harg5 arg6 harg6 arg7 harg7 arg8 harg8 arg9 harg9 hc0 hc1 x0 x1 x2 x3 x4).2.1 S128x256.size (by sl_kernel_rfl) y

/-- What case A leaves in the accumulator: its stores read back. -/
def sout0_A_0 (c : Dev nD) (i : grid0.Coords) (arg3 : Memref sig .tc .vmem S1x128x768 .f32) (harg3 : arg3.IsWhole) (arg4 : Memref sig .tc .vmem S12x32 .f32) (harg4 : arg4.IsWhole) (arg5 : Memref sig .tc .vmem S32 .f32) (harg5 : arg5.IsWhole) (arg6 : Memref sig .tc .vmem S32x256 .f32) (harg6 : arg6.IsWhole) (arg7 : Memref sig .tc .vmem S256 .f32) (harg7 : arg7.IsWhole) (arg8 : Memref sig .tc .vmem S1x128x256 .f32) (harg8 : arg8.IsWhole) (arg9 : Memref sig .tc .vmem S128x256 .f32) (harg9 : arg9.IsWhole) (hc0 : cond0_0 i) (hc1 : ¬cond0_1 i)
    (x0 : Vec F S1x128x768 .f32) (x1 : Vec F S12x32 .f32) (x2 : Vec F S32 .f32) (x3 : Vec F S32x256 .f32) (x4 : Vec F S256 .f32) : Vec F S128x256 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2 x3 x4).2.1)

/-- What case B leaves in the result block: its stores read back (none: a placeholder nothing consults, the window being idle and not written back there). -/
def out0_B_5 (c : Dev nD) (i : grid0.Coords) (arg3 : Memref sig .tc .vmem S1x128x768 .f32) (harg3 : arg3.IsWhole) (arg4 : Memref sig .tc .vmem S12x32 .f32) (harg4 : arg4.IsWhole) (arg5 : Memref sig .tc .vmem S32 .f32) (harg5 : arg5.IsWhole) (arg6 : Memref sig .tc .vmem S32x256 .f32) (harg6 : arg6.IsWhole) (arg7 : Memref sig .tc .vmem S256 .f32) (harg7 : arg7.IsWhole) (arg8 : Memref sig .tc .vmem S1x128x256 .f32) (harg8 : arg8.IsWhole) (arg9 : Memref sig .tc .vmem S128x256 .f32) (harg9 : arg9.IsWhole) (hc0 : ¬cond0_0 i) (hc1 : ¬cond0_1 i)
    (x0 : Vec F S1x128x768 .f32) (x1 : Vec F S12x32 .f32) (x2 : Vec F S32 .f32) (x3 : Vec F S32x256 .f32) (x4 : Vec F S256 .f32) (xs0 : Vec F S128x256 .f32) : Vec F S1x128x256 .f32 :=
  VO0_5.read (Elt F) (VO0_5.writes (Elt F) VO0_5.junk (kernelRun0_B c i arg3 harg3 arg4 harg4 arg5 harg5 arg6 harg6 arg7 harg7 arg8 harg8 arg9 harg9 hc0 hc1 x0 x1 x2 x3 x4 xs0).1)

/-- Case B's stores into the accumulator cover it. -/
theorem scover0_B_0 (c : Dev nD) (i : grid0.Coords) (arg3 : Memref sig .tc .vmem S1x128x768 .f32) (harg3 : arg3.IsWhole) (arg4 : Memref sig .tc .vmem S12x32 .f32) (harg4 : arg4.IsWhole) (arg5 : Memref sig .tc .vmem S32 .f32) (harg5 : arg5.IsWhole) (arg6 : Memref sig .tc .vmem S32x256 .f32) (harg6 : arg6.IsWhole) (arg7 : Memref sig .tc .vmem S256 .f32) (harg7 : arg7.IsWhole) (arg8 : Memref sig .tc .vmem S1x128x256 .f32) (harg8 : arg8.IsWhole) (arg9 : Memref sig .tc .vmem S128x256 .f32) (harg9 : arg9.IsWhole) (hc0 : ¬cond0_0 i) (hc1 : ¬cond0_1 i)
    (x0 : Vec F S1x128x768 .f32) (x1 : Vec F S12x32 .f32) (x2 : Vec F S32 .f32) (x3 : Vec F S32x256 .f32) (x4 : Vec F S256 .f32) (xs0 : Vec F S128x256 .f32) (y : S128x256.Idx) :
    ∃ pc ∈ (kernelRun0_B c i arg3 harg3 arg4 harg4 arg5 harg5 arg6 harg6 arg7 harg7 arg8 harg8 arg9 harg9 hc0 hc1 x0 x1 x2 x3 x4 xs0).2.1, y ∈ pc.1.set :=
  View.cover_of_tiledL (kernelRun0_B c i arg3 harg3 arg4 harg4 arg5 harg5 arg6 harg6 arg7 harg7 arg8 harg8 arg9 harg9 hc0 hc1 x0 x1 x2 x3 x4 xs0).2.1 S128x256.size (by sl_kernel_rfl) y

/-- What case B leaves in the accumulator: its stores read back. -/
def sout0_B_0 (c : Dev nD) (i : grid0.Coords) (arg3 : Memref sig .tc .vmem S1x128x768 .f32) (harg3 : arg3.IsWhole) (arg4 : Memref sig .tc .vmem S12x32 .f32) (harg4 : arg4.IsWhole) (arg5 : Memref sig .tc .vmem S32 .f32) (harg5 : arg5.IsWhole) (arg6 : Memref sig .tc .vmem S32x256 .f32) (harg6 : arg6.IsWhole) (arg7 : Memref sig .tc .vmem S256 .f32) (harg7 : arg7.IsWhole) (arg8 : Memref sig .tc .vmem S1x128x256 .f32) (harg8 : arg8.IsWhole) (arg9 : Memref sig .tc .vmem S128x256 .f32) (harg9 : arg9.IsWhole) (hc0 : ¬cond0_0 i) (hc1 : ¬cond0_1 i)
    (x0 : Vec F S1x128x768 .f32) (x1 : Vec F S12x32 .f32) (x2 : Vec F S32 .f32) (x3 : Vec F S32x256 .f32) (x4 : Vec F S256 .f32) (xs0 : Vec F S128x256 .f32) : Vec F S128x256 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 x3 x4 xs0).2.1)

/-- In the last case the stores into the result block cover it. -/
theorem cover0_C_5 (c : Dev nD) (i : grid0.Coords) (arg3 : Memref sig .tc .vmem S1x128x768 .f32) (harg3 : arg3.IsWhole) (arg4 : Memref sig .tc .vmem S12x32 .f32) (harg4 : arg4.IsWhole) (arg5 : Memref sig .tc .vmem S32 .f32) (harg5 : arg5.IsWhole) (arg6 : Memref sig .tc .vmem S32x256 .f32) (harg6 : arg6.IsWhole) (arg7 : Memref sig .tc .vmem S256 .f32) (harg7 : arg7.IsWhole) (arg8 : Memref sig .tc .vmem S1x128x256 .f32) (harg8 : arg8.IsWhole) (arg9 : Memref sig .tc .vmem S128x256 .f32) (harg9 : arg9.IsWhole) (hc0 : ¬cond0_0 i) (hc1 : cond0_1 i)
    (x0 : Vec F S1x128x768 .f32) (x1 : Vec F S12x32 .f32) (x2 : Vec F S32 .f32) (x3 : Vec F S32x256 .f32) (x4 : Vec F S256 .f32) (xs0 : Vec F S128x256 .f32) (y : S1x128x256.Idx) :
    ∃ pc ∈ (kernelRun0_C c i arg3 harg3 arg4 harg4 arg5 harg5 arg6 harg6 arg7 harg7 arg8 harg8 arg9 harg9 hc0 hc1 x0 x1 x2 x3 x4 xs0).1, y ∈ pc.1.set :=
  View.cover_of_tiledL (kernelRun0_C c i arg3 harg3 arg4 harg4 arg5 harg5 arg6 harg6 arg7 harg7 arg8 harg8 arg9 harg9 hc0 hc1 x0 x1 x2 x3 x4 xs0).1 S1x128x256.size (by sl_kernel_rfl) y

/-- What case C leaves in the result block: its stores read back. -/
def out0_C_5 (c : Dev nD) (i : grid0.Coords) (arg3 : Memref sig .tc .vmem S1x128x768 .f32) (harg3 : arg3.IsWhole) (arg4 : Memref sig .tc .vmem S12x32 .f32) (harg4 : arg4.IsWhole) (arg5 : Memref sig .tc .vmem S32 .f32) (harg5 : arg5.IsWhole) (arg6 : Memref sig .tc .vmem S32x256 .f32) (harg6 : arg6.IsWhole) (arg7 : Memref sig .tc .vmem S256 .f32) (harg7 : arg7.IsWhole) (arg8 : Memref sig .tc .vmem S1x128x256 .f32) (harg8 : arg8.IsWhole) (arg9 : Memref sig .tc .vmem S128x256 .f32) (harg9 : arg9.IsWhole) (hc0 : ¬cond0_0 i) (hc1 : cond0_1 i)
    (x0 : Vec F S1x128x768 .f32) (x1 : Vec F S12x32 .f32) (x2 : Vec F S32 .f32) (x3 : Vec F S32x256 .f32) (x4 : Vec F S256 .f32) (xs0 : Vec F S128x256 .f32) : Vec F S1x128x256 .f32 :=
  VO0_5.read (Elt F) (VO0_5.writes (Elt F) VO0_5.junk (kernelRun0_C c i arg3 harg3 arg4 harg4 arg5 harg5 arg6 harg6 arg7 harg7 arg8 harg8 arg9 harg9 hc0 hc1 x0 x1 x2 x3 x4 xs0).1)

/-- Case C's stores into the accumulator cover it. -/
theorem scover0_C_0 (c : Dev nD) (i : grid0.Coords) (arg3 : Memref sig .tc .vmem S1x128x768 .f32) (harg3 : arg3.IsWhole) (arg4 : Memref sig .tc .vmem S12x32 .f32) (harg4 : arg4.IsWhole) (arg5 : Memref sig .tc .vmem S32 .f32) (harg5 : arg5.IsWhole) (arg6 : Memref sig .tc .vmem S32x256 .f32) (harg6 : arg6.IsWhole) (arg7 : Memref sig .tc .vmem S256 .f32) (harg7 : arg7.IsWhole) (arg8 : Memref sig .tc .vmem S1x128x256 .f32) (harg8 : arg8.IsWhole) (arg9 : Memref sig .tc .vmem S128x256 .f32) (harg9 : arg9.IsWhole) (hc0 : ¬cond0_0 i) (hc1 : cond0_1 i)
    (x0 : Vec F S1x128x768 .f32) (x1 : Vec F S12x32 .f32) (x2 : Vec F S32 .f32) (x3 : Vec F S32x256 .f32) (x4 : Vec F S256 .f32) (xs0 : Vec F S128x256 .f32) (y : S128x256.Idx) :
    ∃ pc ∈ (kernelRun0_C c i arg3 harg3 arg4 harg4 arg5 harg5 arg6 harg6 arg7 harg7 arg8 harg8 arg9 harg9 hc0 hc1 x0 x1 x2 x3 x4 xs0).2.1, y ∈ pc.1.set :=
  View.cover_of_tiledL (kernelRun0_C c i arg3 harg3 arg4 harg4 arg5 harg5 arg6 harg6 arg7 harg7 arg8 harg8 arg9 harg9 hc0 hc1 x0 x1 x2 x3 x4 xs0).2.1 S128x256.size (by sl_kernel_rfl) y

/-- What case C leaves in the accumulator: its stores read back. -/
def sout0_C_0 (c : Dev nD) (i : grid0.Coords) (arg3 : Memref sig .tc .vmem S1x128x768 .f32) (harg3 : arg3.IsWhole) (arg4 : Memref sig .tc .vmem S12x32 .f32) (harg4 : arg4.IsWhole) (arg5 : Memref sig .tc .vmem S32 .f32) (harg5 : arg5.IsWhole) (arg6 : Memref sig .tc .vmem S32x256 .f32) (harg6 : arg6.IsWhole) (arg7 : Memref sig .tc .vmem S256 .f32) (harg7 : arg7.IsWhole) (arg8 : Memref sig .tc .vmem S1x128x256 .f32) (harg8 : arg8.IsWhole) (arg9 : Memref sig .tc .vmem S128x256 .f32) (harg9 : arg9.IsWhole) (hc0 : ¬cond0_0 i) (hc1 : cond0_1 i)
    (x0 : Vec F S1x128x768 .f32) (x1 : Vec F S12x32 .f32) (x2 : Vec F S32 .f32) (x3 : Vec F S32x256 .f32) (x4 : Vec F S256 .f32) (xs0 : Vec F S128x256 .f32) : Vec F S128x256 .f32 :=
  VS0_0.read (Elt F) (VS0_0.writes (Elt F) VS0_0.junk (kernelRun0_C c i arg3 harg3 arg4 harg4 arg5 harg5 arg6 harg6 arg7 harg7 arg8 harg8 arg9 harg9 hc0 hc1 x0 x1 x2 x3 x4 xs0).2.1)

variable (V : (c : Dev nD) → (b : Ref sig .tc) → Buf (Elt F) ((c : Thread nD τ).loc b))

/-! ## What the result block and the accumulator hold after each point -/

/-- After the body at position `n`: the result block's staging buffer and the accumulator. The case is the one the closed
    forms select at `n`, run at the point's buffers and input blocks, the accumulator at what position `n - 1` left. -/
def outsAt0 (c : Dev nD) : (n : ℕ) → n < cfg0.N → Vec F S1x128x256 .f32 × Vec F S128x256 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 8 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 8 = 7 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

/-- At a group's first point. -/
theorem outsAt0_A (c : Dev nD) (t : Fin cfg0.N) (h0 : t.val % 8 = 0) (h1 : ¬t.val % 8 = 7) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans rfl

/-- At a middle point: over what the point before left. -/
theorem outsAt0_B (c : Dev nD) (t : Fin cfg0.N) (h0 : ¬t.val % 8 = 0) (h1 : ¬t.val % 8 = 7) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a group's last point: over what the point before left. -/
theorem outsAt0_C (c : Dev nD) (t : Fin cfg0.N) (h0 : ¬t.val % 8 = 0) (h1 : t.val % 8 = 7) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: before the first point every scoped buffer at anything; afterwards the accumulator at what
    the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restScoped0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ restScoped0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restScoped0 (F := F) c) ∗ (∃ r, prngReg c r)) := by
  cases n with
  | zero => exact absurd rfl hz
  | succ n => rfl

/-! ## The pipeline's proof data -/

/-- The arrays as the region finds them; after the body at point `t` each input's buffer at its block and the result
    block's at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' buffers hold their blocks; the closed forms say which case the point is in;
    the invariant hands the body the accumulator at what the point before left (at anything at the very first point) and
    takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 8 = 0
  · have h1 : ¬t.val % 8 = 7 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
    rw [outsAt0_A V c t h0 h1]
    unfold sout0_A_0; (try dsimp only)
    by_cases hz : t.val = 0
    · rw [PhiS_castSucc V c t, PhiS_zero V c _ _ hz, PhiA0_eq]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [outsAt0_C V c t h0 h1]
      unfold out0_C_5 sout0_C_0; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B V c t h0 h1]
      unfold sout0_B_0; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulator's contents are forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS V c t.val (Nat.le_of_lt_succ t.isLt) from rfl, PhiS_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ (Pipeline.ΦA spec0 c : sProp 𝕄) :=
  Phi_out0 V c _ (by rw [Fin.val_last]; have : cfg0.N = 64 := N_0; omega)

end Cert.KernelIdeal.Hand

end
-- ==== Proof.KIRegion1.lean ====
/- Region 1 of @main (the attention kernel, custom_call 1), at a parameter `V` — the TensorCore's buffer contents when
   the region is entered. Each window's block at a point is read off its array; the body loads its three input blocks
   (and, unread afterwards, the output's buffer at whatever it holds) and stores ONE whole block: the payload
   `k1_pay1` of the three loaded blocks. So the output's staging buffer after the body is the canonical contents of
   that one whole-block write, the inputs' buffers are as fetched, and the class-A invariant (the scoped rest and the core's
   pseudo-random register) passes through. From these: the proof data `dat1 V c` and the body obligation at every point. Generic in
   the float instance. -/
import proofs.«101855_j59579786330696_2_alg».proof.Proof.Gen.KernelIdeal.Launch
import proofs.«101855_j59579786330696_2_alg».proof.Proof.Gen.KernelIdeal.Skeleton
import proofs.«101855_j59579786330696_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved): for ANY proof data whose array is `V`'s and whose body leaves the block in place.
    Window 0: the point's batch of x. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Window 1: the point's batch of the bias. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Window 2: the whole projection matrix, fetched once (its block index is constant). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole buffer -/

abbrev rB : Rect S1x512x256 := Rect.unit (s := S1x512x256) ![0, 0, 0] S1x512x256.size inb_S1x512x256_S1x512x256_0_0_0
abbrev rW : Rect S256x768 := Rect.unit (s := S256x768) ![0, 0] S256x768.size inb_S256x768_S256x768_0_0

/-! ## What the body leaves in the output window's buffer -/

/-- Window 3's staging buffer after the body, from the three input blocks: its one store, of the whole block. -/
def out1_3 (x0 : Vec F S1x512x256 .f32) (x1 : Vec F S1x512x256 .f32) (x2 : Vec F S256x768 .f32) : Vec F S1x512x256 .f32 :=
  View.canon [⟨rB, k1_pay1 (View.ld x0 rB) (View.ld x1 rB) (View.ld x2 rW)⟩]

/-- The one store is the whole block, so it covers the buffer. -/
theorem cover1_3 (p0 : Vec F S1x512x256 .f32) (y : S1x512x256.Idx) :
    ∃ pc ∈ ([⟨rB, p0⟩] : List (View.Piece (Elt F) S1x512x256 .f32)), y ∈ pc.1.set :=
  View.cover_of_tiled [⟨rB, p0⟩] S1x512x256.size (by rfl) y

/-! ## The body's triple -/

set_option maxHeartbeats 1000000 in
/-- The kernel body on whole staging memrefs, the inputs' at read contents `x0 x1 x2` and the output's at anything,
    runs to the continuation holding the inputs' as they were and the output's at `out1_3` of the inputs'. -/
theorem sound_kernel1 (c : Dev nD) (E : Set ℕ) (i : grid1.Coords)
    (arg1 : Memref sig .tc .vmem S1x512x256 .f32) (harg1 : arg1.IsWhole) (arg2 : Memref sig .tc .vmem S1x512x256 .f32) (harg2 : arg2.IsWhole)
    (arg3 : Memref sig .tc .vmem S256x768 .f32) (harg3 : arg3.IsWhole) (arg4 : Memref sig .tc .vmem S1x512x256 .f32) (harg4 : arg4.IsWhole)
    (x0 : Vec F S1x512x256 .f32) (x1 : Vec F S1x512x256 .f32) (x2 : Vec F S256x768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__attn_kernel i arg1 harg1 arg2 harg2 arg3 harg3 arg4 harg4) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point `t`
    each input's buffer at its block and the output's at `out1_3` of the input blocks; the class-A invariant; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KIRun.lean ====
/- The run of @main over its segments: the stretch of host operations, then region 0, then region 1 (no host
   operation between the regions or after the last). The buffer contents at each segment boundary are a fold from the
   launch memory: `W1` is what the host operations leave, `W2` replaces region 0's arrays by what its write-backs
   leave, `W3` does the same for region 1. Every weakly fair execution terminates with every unscoped buffer at
   `W3` (`run`); the fifteen arguments are read back through the fold to their launch contents (`W3_main_argK`:
   no host operation writes an argument, and a region only reads it through an input window), which is the frame
   claim (`frame`); the result's buffer is region 1's output array after its last write-back (`W3_result`), and
   region 1 reads in `main_v21` region 0's output array after its last write-back (`W2_bias`). Generic in the float
   instance. -/
import proofs.«101855_j59579786330696_2_alg».proof.Proof.Gen.KernelIdeal.Regions
import proofs.«101855_j59579786330696_2_alg».proof.Proof.KIRegion0
import proofs.«101855_j59579786330696_2_alg».proof.Proof.KIRegion1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host operations (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs
    folded), every other buffer as entered. This is also region 1's entry. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (what region 1's proof data take). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- A buffer no host operation writes holds after them what it held at launch. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- The result's buffer at the end: region 1's output array after its last write-back. -/
theorem W3_result (c : Dev nD) : W3 m ρ c (Proc.devRef .tc main_v22) = (dat1 (V2 m ρ) c).arrAt 3 cfg1.N := W3_arr m ρ c 3
/-- The bias buffer region 1 is entered with: region 0's output array after its last write-back. -/
theorem W2_bias (c : Dev nD) : W2 m ρ c (Proc.devRef .tc main_v21) = (dat0 (V1 m ρ) c).arrAt 5 cfg0.N := W2_arr m ρ c 5

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl
theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl
theorem W3_main_arg10 (c : Dev nD) : W3 m ρ c (Proc.devRef .tc main_arg10) = m ((c : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl
theorem W3_main_arg11 (c : Dev nD) : W3 m ρ c (Proc.devRef .tc main_arg11) = m ((c : Thread nD τ).loc main_arg11) :=
  calc W3 m ρ c (Proc.devRef .tc main_arg11)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl
theorem W3_main_arg12 (c : Dev nD) : W3 m ρ c (Proc.devRef .tc main_arg12) = m ((c : Thread nD τ).loc main_arg12) :=
  calc W3 m ρ c (Proc.devRef .tc main_arg12)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := W1_of m ρ c main_arg12 (by decide)
    _ = m ((c : Thread nD τ).loc main_arg12) := rfl
theorem W3_main_arg13 (c : Dev nD) : W3 m ρ c (Proc.devRef .tc main_arg13) = m ((c : Thread nD τ).loc main_arg13) :=
  calc W3 m ρ c (Proc.devRef .tc main_arg13)
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := W1_of m ρ c main_arg13 (by decide)
    _ = m ((c : Thread nD τ).loc main_arg13) := rfl
theorem W3_main_arg14 (c : Dev nD) : W3 m ρ c (Proc.devRef .tc main_arg14) = m ((c : Thread nD τ).loc main_arg14) :=
  calc W3 m ρ c (Proc.devRef .tc main_arg14)
    _ = W2 m ρ c (Proc.devRef .tc main_arg14) := (W3_arr m ρ c 2).trans (((dat1 (V2 m ρ) c).arrAt_in 2 rfl _).trans (A_eq1 (V2 m ρ) c 2))
    _ = W1 m ρ c (Proc.devRef .tc main_arg14) := W2_of_ne m ρ c main_arg14 (by decide)
    _ = W0 m ρ c (Proc.devRef .tc main_arg14) := W1_of m ρ c main_arg14 (by decide)
    _ = m ((c : Thread nD τ).loc main_arg14) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's pseudo-random register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W3`, the
    pseudo-random register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 (custom_call 0) over the thread state: entered from every unscoped buffer at `W1`, left at `W2`. Its
    arrays are split out of the unscoped buffers and put back at the exit contents; the pseudo-random register goes
    into the pipeline's invariant and comes out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    iintro ⟨Hp, -, Hr⟩
    iapply (hin0 (V1 m ρ) c)
    unfold Pipeline.ΦA
    isplitl [Hr]; · iexact Hr
    iexact Hp
  hout c := by
    rw [Pipeline.ownSems0_none, show (pdats m ρ 0 c).Φ (Fin.last _) = (dat0 (V1 m ρ) c).Φ (Fin.last cfg0.N) from rfl]
    have hΦ := hout0 (V1 m ρ) c
    iintro H
    ihave H' := hΦ $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (custom_call 1) over the thread state: entered from every unscoped buffer at `W2`, left at `W3`. Its
    arrays are split out of the unscoped buffers and put back at the exit contents; the pseudo-random register goes
    into the pipeline's invariant and comes out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state has every unscoped buffer at `W3`. -/
theorem run : θ_run defs (onTc (τ := τ) (main (F := F))) ⟨m, fun _ => 0, ρ⟩ (fun r => ∀ c : Dev nD,
      ∀ b ∈ Pipeline.ucRefs τ sig, r.2.mem ((c : Thread nD τ).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME: every weakly fair execution of @main terminates, nothing faulting, and every final state has the
    fifteen argument arrays as launched — `run`'s post read at each argument, each through `W3_main_argK`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c),
      (h c _ (mem_uc main_arg7 (by decide))).trans (W3_main_arg7 m ρ c),
      (h c _ (mem_uc main_arg8 (by decide))).trans (W3_main_arg8 m ρ c),
      (h c _ (mem_uc main_arg9 (by decide))).trans (W3_main_arg9 m ρ c),
      (h c _ (mem_uc main_arg10 (by decide))).trans (W3_main_arg10 m ρ c),
      (h c _ (mem_uc main_arg11 (by decide))).trans (W3_main_arg11 m ρ c),
      (h c _ (mem_uc main_arg12 (by decide))).trans (W3_main_arg12 m ρ c),
      (h c _ (mem_uc main_arg13 (by decide))).trans (W3_main_arg13 m ρ c),
      (h c _ (mem_uc main_arg14 (by decide))).trans (W3_main_arg14 m ρ c)⟩) (run m ρ)

end Cert.KernelIdeal.Hand

end
-- ==== Proof.KIRegion0Pieces.lean ====
/- Region 0, the found stores read back as values: in every case the accumulator ends at the step function of the five
   input blocks and the accumulator before it (the reset value -inf at a group's first point), and at a group's last point
   the result block is that accumulator with a unit axis in front; hence, by induction on the point, what the accumulator
   holds after every point is the running fold of the step function within the point's group of 8. -/
import proofs.«101855_j59579786330696_2_alg».proof.Proof.KIRegion0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A middle point: the accumulator at `xs0` ends at the step function of the blocks and `xs0`. -/
theorem sout_B (c : Dev nD) (i : grid0.Coords) (arg3 : Memref sig .tc .vmem S1x128x768 .f32) (harg3 : arg3.IsWhole) (arg4 : Memref sig .tc .vmem S12x32 .f32) (harg4 : arg4.IsWhole) (arg5 : Memref sig .tc .vmem S32 .f32) (harg5 : arg5.IsWhole) (arg6 : Memref sig .tc .vmem S32x256 .f32) (harg6 : arg6.IsWhole) (arg7 : Memref sig .tc .vmem S256 .f32) (harg7 : arg7.IsWhole) (arg8 : Memref sig .tc .vmem S1x128x256 .f32) (harg8 : arg8.IsWhole) (arg9 : Memref sig .tc .vmem S128x256 .f32) (harg9 : arg9.IsWhole) (hc0 : ¬cond0_0 i) (hc1 : ¬cond0_1 i)
    (x0 : Vec F S1x128x768 .f32) (x1 : Vec F S12x32 .f32) (x2 : Vec F S32 .f32) (x3 : Vec F S32x256 .f32) (x4 : Vec F S256 .f32) (xs0 : Vec F S128x256 .f32) :
    sout0_B_0 c i arg3 harg3 arg4 harg4 arg5 harg5 arg6 harg6 arg7 harg7 arg8 harg8 arg9 harg9 hc0 hc1 x0 x1 x2 x3 x4 xs0 = k0_pay3 x0 x1 x2 x3 x4 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  rw [View.canon_unit_zero hz2]
  simp only [View.readAt_eq_ld, harg3.read_unread, harg4.read_unread, harg5.read_unread, harg6.read_unread, harg7.read_unread, harg8.read_unread, harg9.read_unread, View.ld_unit_zero (S := S1x128x768) hz3, View.ld_unit_zero (S := S12x32) hz2, View.ld_unit_zero (S := S32) hz1, View.ld_unit_zero (S := S32x256) hz2, View.ld_unit_zero (S := S256) hz1, View.ld_unit_zero (S := S128x256) hz2, View.ld_unit_zero (S := S1x128x256) hz3]

/-- A group's last point: the same for the accumulator, -/
theorem sout_C (c : Dev nD) (i : grid0.Coords) (arg3 : Memref sig .tc .vmem S1x128x768 .f32) (harg3 : arg3.IsWhole) (arg4 : Memref sig .tc .vmem S12x32 .f32) (harg4 : arg4.IsWhole) (arg5 : Memref sig .tc .vmem S32 .f32) (harg5 : arg5.IsWhole) (arg6 : Memref sig .tc .vmem S32x256 .f32) (harg6 : arg6.IsWhole) (arg7 : Memref sig .tc .vmem S256 .f32) (harg7 : arg7.IsWhole) (arg8 : Memref sig .tc .vmem S1x128x256 .f32) (harg8 : arg8.IsWhole) (arg9 : Memref sig .tc .vmem S128x256 .f32) (harg9 : arg9.IsWhole) (hc0 : ¬cond0_0 i) (hc1 : cond0_1 i)
    (x0 : Vec F S1x128x768 .f32) (x1 : Vec F S12x32 .f32) (x2 : Vec F S32 .f32) (x3 : Vec F S32x256 .f32) (x4 : Vec F S256 .f32) (xs0 : Vec F S128x256 .f32) :
    sout0_C_0 c i arg3 harg3 arg4 harg4 arg5 harg5 arg6 harg6 arg7 harg7 arg8 harg8 arg9 harg9 hc0 hc1 x0 x1 x2 x3 x4 xs0 = k0_pay3 x0 x1 x2 x3 x4 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, View.ld_unit_zero (S := S1x128x768) hz3, View.ld_unit_zero (S := S12x32) hz2, View.ld_unit_zero (S := S32) hz1, View.ld_unit_zero (S := S32x256) hz2, View.ld_unit_zero (S := S256) hz1, View.ld_unit_zero (S := S128x256) hz2, View.ld_unit_zero (S := S1x128x256) hz3]

/-- and the result block is the new accumulator read back. -/
theorem out_C (c : Dev nD) (i : grid0.Coords) (arg3 : Memref sig .tc .vmem S1x128x768 .f32) (harg3 : arg3.IsWhole) (arg4 : Memref sig .tc .vmem S12x32 .f32) (harg4 : arg4.IsWhole) (arg5 : Memref sig .tc .vmem S32 .f32) (harg5 : arg5.IsWhole) (arg6 : Memref sig .tc .vmem S32x256 .f32) (harg6 : arg6.IsWhole) (arg7 : Memref sig .tc .vmem S256 .f32) (harg7 : arg7.IsWhole) (arg8 : Memref sig .tc .vmem S1x128x256 .f32) (harg8 : arg8.IsWhole) (arg9 : Memref sig .tc .vmem S128x256 .f32) (harg9 : arg9.IsWhole) (hc0 : ¬cond0_0 i) (hc1 : cond0_1 i)
    (x0 : Vec F S1x128x768 .f32) (x1 : Vec F S12x32 .f32) (x2 : Vec F S32 .f32) (x3 : Vec F S32x256 .f32) (x4 : Vec F S256 .f32) (xs0 : Vec F S128x256 .f32) :
    out0_C_5 c i arg3 harg3 arg4 harg4 arg5 harg5 arg6 harg6 arg7 harg7 arg8 harg8 arg9 harg9 hc0 hc1 x0 x1 x2 x3 x4 xs0 = k0_pay1 (k0_pay3 x0 x1 x2 x3 x4 xs0) := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz3, View.readCov_unit_zero (S := S128x256) _ hz2]
  simp only [View.readAt_eq_ld, harg3.read_unread, harg4.read_unread, harg5.read_unread, harg6.read_unread, harg7.read_unread, harg8.read_unread, harg9.read_unread, View.ld_unit_zero (S := S1x128x768) hz3, View.ld_unit_zero (S := S12x32) hz2, View.ld_unit_zero (S := S32) hz1, View.ld_unit_zero (S := S32x256) hz2, View.ld_unit_zero (S := S256) hz1, View.ld_unit_zero (S := S128x256) hz2, View.ld_unit_zero (S := S1x128x256) hz3]

/-- A group's first point: the reset value is stored, read back, and joined with the step's block maximum. -/
theorem sout_A (c : Dev nD) (i : grid0.Coords) (arg3 : Memref sig .tc .vmem S1x128x768 .f32) (harg3 : arg3.IsWhole) (arg4 : Memref sig .tc .vmem S12x32 .f32) (harg4 : arg4.IsWhole) (arg5 : Memref sig .tc .vmem S32 .f32) (harg5 : arg5.IsWhole) (arg6 : Memref sig .tc .vmem S32x256 .f32) (harg6 : arg6.IsWhole) (arg7 : Memref sig .tc .vmem S256 .f32) (harg7 : arg7.IsWhole) (arg8 : Memref sig .tc .vmem S1x128x256 .f32) (harg8 : arg8.IsWhole) (arg9 : Memref sig .tc .vmem S128x256 .f32) (harg9 : arg9.IsWhole) (hc0 : cond0_0 i) (hc1 : ¬cond0_1 i)
    (x0 : Vec F S1x128x768 .f32) (x1 : Vec F S12x32 .f32) (x2 : Vec F S32 .f32) (x3 : Vec F S32x256 .f32) (x4 : Vec F S256 .f32) :
    sout0_A_0 c i arg3 harg3 arg4 harg4 arg5 harg5 arg6 harg6 arg7 harg7 arg8 harg8 arg9 harg9 hc0 hc1 x0 x1 x2 x3 x4 = k0_pay3 x0 x1 x2 x3 x4 (k0_pay2 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S128x256) hz2, View.readCov_unit_zero (S := S128x256) _ hz2]
  simp only [View.readAt_eq_ld, harg3.read_unread, harg4.read_unread, harg5.read_unread, harg6.read_unread, harg7.read_unread, harg8.read_unread, harg9.read_unread, View.ld_unit_zero (S := S1x128x768) hz3, View.ld_unit_zero (S := S12x32) hz2, View.ld_unit_zero (S := S32) hz1, View.ld_unit_zero (S := S32x256) hz2, View.ld_unit_zero (S := S256) hz1, View.ld_unit_zero (S := S128x256) hz2, View.ld_unit_zero (S := S1x128x256) hz3]

variable (V : (c : Dev nD) → (b : Ref sig .tc) → Buf (Elt F) ((c : Thread nD τ).loc b))

-- the case equations of the point-by-point contents are proved: nothing below unfolds the recursion itself
attribute [local irreducible] outsAt0

/-- The step at point `t` from the accumulator `a`: the step function of the five input blocks there. -/
def step0 (c : Dev nD) (t : Fin cfg0.N) (a : Vec F S128x256 .f32) : Vec F S128x256 .f32 :=
  k0_pay3 (iblk0 V c 0 t) (iblk0 V c 1 t) (iblk0 V c 2 t) (iblk0 V c 3 t) (iblk0 V c 4 t) a

/-- What the accumulator holds after point `n`: from the reset value at a group's first point, from what the point before
    left elsewhere. -/
def acc0 (c : Dev nD) : (n : ℕ) → n < cfg0.N → Vec F S128x256 .f32
  | 0, h => step0 V c ⟨0, h⟩ (k0_pay2 (F := F))
  | n + 1, h => if (n + 1) % 8 = 0 then step0 V c ⟨n + 1, h⟩ (k0_pay2 (F := F)) else step0 V c ⟨n + 1, h⟩ (acc0 c n (Nat.lt_of_succ_lt h))

theorem acc0_first (c : Dev nD) (t : Fin cfg0.N) (h0 : t.val % 8 = 0) : acc0 V c t.val t.isLt = step0 V c t (k0_pay2 (F := F)) := by
  obtain ⟨n, hn⟩ := t
  cases n with
  | zero => rfl
  | succ n => exact if_pos h0

theorem acc0_later (c : Dev nD) (t : Fin cfg0.N) (h0 : ¬t.val % 8 = 0) :
    acc0 V c t.val t.isLt = step0 V c t (acc0 V c (t.val - 1) (Nat.lt_of_le_of_lt (Nat.sub_le _ _) t.isLt)) := by
  obtain ⟨n, hn⟩ := t
  cases n with
  | zero => exact absurd (Nat.zero_mod _) h0
  | succ n => exact if_neg h0

attribute [local irreducible] acc0

/-- At a group's first point the accumulator ends at the step from the reset value. -/
theorem outsAt_first (c : Dev nD) (t : Fin cfg0.N) (h0 : t.val % 8 = 0) :
    (outsAt0 V c t.val t.isLt).2 = step0 V c t (k0_pay2 (F := F)) := by
  have h1 : ¬t.val % 8 = 7 := by omega
  rw [outsAt0_A V c t h0 h1]
  exact sout_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)

/-- At any other point it ends at the step from what the point before left. -/
theorem outsAt_later (c : Dev nD) (t : Fin cfg0.N) (h0 : ¬t.val % 8 = 0) :
    (outsAt0 V c t.val t.isLt).2 = step0 V c t (outsAt0 V c (t.val - 1) (Nat.lt_of_le_of_lt (Nat.sub_le _ _) t.isLt)).2 := by
  by_cases h1 : t.val % 8 = 7
  · rw [outsAt0_C V c t h0 h1]
    exact sout_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2
  · rw [outsAt0_B V c t h0 h1]
    exact sout_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2

/-- The accumulator after every point is the running fold — by induction on the point. -/
theorem outsAt_acc (c : Dev nD) : ∀ (n : ℕ) (h : n < cfg0.N), (outsAt0 V c n h).2 = acc0 V c n h
  | 0, h => (outsAt_first V c ⟨0, h⟩ (Nat.zero_mod _)).trans (acc0_first V c ⟨0, h⟩ (Nat.zero_mod _)).symm
  | n + 1, h => by
    by_cases h0 : (n + 1) % 8 = 0
    · exact (outsAt_first V c ⟨n + 1, h⟩ h0).trans (acc0_first V c ⟨n + 1, h⟩ h0).symm
    · exact (outsAt_later V c ⟨n + 1, h⟩ h0).trans
        ((congrArg (step0 V c ⟨n + 1, h⟩) (outsAt_acc c n (Nat.lt_of_succ_lt h))).trans (acc0_later V c ⟨n + 1, h⟩ h0).symm)

set_option maxHeartbeats 1000000 in
/-- At a group's last point the result block's staging buffer holds the new accumulator with a unit axis in front. -/
theorem outsAt_out_step (c : Dev nD) (t : Fin cfg0.N) (h0 : ¬t.val % 8 = 0) (h1 : t.val % 8 = 7) :
    (outsAt0 V c t.val t.isLt).1
      = k0_pay1 (k0_pay3 (iblk0 V c 0 t) (iblk0 V c 1 t) (iblk0 V c 2 t) (iblk0 V c 3 t) (iblk0 V c 4 t) (outsAt0 V c (t.val - 1) (Nat.lt_of_le_of_lt (Nat.sub_le _ _) t.isLt)).2) :=
  (congrArg Prod.fst (outsAt0_C V c t h0 h1)).trans
    (out_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2)

set_option maxHeartbeats 1000000 in
theorem outsAt_out (c : Dev nD) (t : Fin cfg0.N) (h1 : t.val % 8 = 7) :
    (outsAt0 V c t.val t.isLt).1 = k0_pay1 (acc0 V c t.val t.isLt) := by
  have h0 : ¬t.val % 8 = 0 := by omega
  refine (outsAt_out_step V c t h0 h1).trans (congrArg k0_pay1 ?_)
  show step0 V c t (outsAt0 V c (t.val - 1) (Nat.lt_of_le_of_lt (Nat.sub_le _ _) t.isLt)).2 = _
  refine (congrArg (step0 V c t) (outsAt_acc V c (t.val - 1) (Nat.lt_of_le_of_lt (Nat.sub_le _ _) t.isLt))).trans ?_
  exact (acc0_later V c t h0).symm

end Cert.KernelIdeal.Hand

end
-- ==== Proof.LibMiddleAxisMax.lean ====
/-
  A maximum over the MIDDLE axis of a rank-three array, read at an index given by coordinates.

  At the ideal values a `vector.multi_reduction <maximumf>` over axis 1 of an `[l, m, n]` array, read at `(b, c)`, is
  the fold of `max`, from the accumulator's value, over `k : Fin m` of the entries `(b, k, c)`: on the extended reals a
  maximum has no order of evaluation left in it, and the reduced index with the coordinate `k` put back on the middle
  axis is `(b, k, c)`. Generic in the three extents and in the float format; library imports only.
-/
import Idealize.ShloMosaic.Lib.Pipeline.Value
import Idealize.ShloMosaic.Lib.ValueIdx
import Idealize.ShloMosaic.PureOps.Ideal.Laws

namespace Cert.MiddleAxisMax

open Idealize.ShloMosaic Idealize.ShloMosaic.ValueIdx

/-- In a rank-three array, `(b, c)` with the middle coordinate `k` put back is `(b, k, c)`. -/
theorem lift_middle {l m n : ℕ} (h : (⟨3, ![l, m, n]⟩ : Shape).Reduces [1] (⟨2, ![l, n]⟩ : Shape)) (b : Fin l) (c : Fin n)
    (k : Fin ((⟨3, ![l, m, n]⟩ : Shape).size 1)) : h.lift (ix2 b c) k = ix3 b (⟨k.val, k.isLt⟩ : Fin m) c := by
  funext a; apply Fin.ext
  fin_cases a <;> rfl

/-- A maximum over the middle axis of an `[l, m, n]` array of extended reals, read at `(b, c)`: the fold of `max`, from
    the accumulator's value, over the entries `(b, k, c)`. -/
theorem multiReduction_maximumf_middle {l m n : ℕ} {φ : FTy} (src : FVec Ideal ⟨3, ![l, m, n]⟩ φ) (acc : BitVec φ.bits)
    (h : (⟨3, ![l, m, n]⟩ : Shape).Reduces [1] (⟨2, ![l, n]⟩ : Shape)) (hφ : FKind.Formats φ)
    (hacc : acc = FKind.maximumf.neutral φ hφ) (b : Fin l) (c : Fin n) :
    multiReduction .maximumf [1] ⟨2, ![l, n]⟩ src acc h hφ hacc (ix2 b c)
      = (Finset.univ : Finset (Fin m)).fold max (Ideal.ofBits φ acc) (fun k => src (ix3 b k c)) :=
  (Ideal.multiReduction_maximumf_single src acc h hφ hacc (ix2 b c)).trans
    (congrArg (fun f => (Finset.univ : Finset (Fin m)).fold max (Ideal.ofBits φ acc) f)
      (funext fun k => congrArg src (lift_middle h b c k)))

end Cert.MiddleAxisMax
-- ==== Proof.LibUnfoldRows.lean ====
/-
  A general reading at an index: an `[r, b]` array whose first axis is unfolded into two, `[a, c, b]` with r = a·c,
  holds at `(i, q, j)` the operand's entry `(p, j)` whenever p = i·c + q (row-major order) — the inverse of folding
  the first two axes of a rank-three array into one. Independent of any program.
-/
import Idealize.ShloMosaic.Lib.ValueIdx
import Idealize.ShloMosaic.Lib.Pipeline.Value

noncomputable section

namespace Cert.UnfoldRows

open Idealize.ShloMosaic Idealize.ShloMosaic.ValueIdx

variable {α : Type} {a c b r : ℕ}

/-- The cast `[r, b] → [a, c, b]` at `(i, q, j)` is the operand at `(p, j)`, where p = i·c + q. -/
theorem shapeCast_rb_acb_apply (x : (⟨2, ![r, b]⟩ : Shape).Idx → α)
    (h : (⟨2, ![r, b]⟩ : Shape).ShapeCasts ⟨3, ![a, c, b]⟩) (i : Fin a) (q : Fin c) (j : Fin b) (p : Fin r)
    (hp : p.val = i.val * c + q.val) :
    shapeCast ⟨3, ![a, c, b]⟩ x h (ix3 i q j) = x (ix2 p j) :=
  shapeCast_apply x h _ _ (by
    rw [Shape.rowMajor_val_two, Shape.rowMajor_val_three]
    show p.val * b + j.val = (i.val * c + q.val) * b + j.val
    rw [hp])

end Cert.UnfoldRows

end
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.KIRegion0Step.lean ====
/- Region 0's step function read at an index, over the extended reals: with the previous accumulator `a`, the new
   accumulator's entry (i, c) is the maximum of `a (i, c)` and, over the 64 positions j of the step's block, of the
   second layer's unit c at position (i, j) — each layer a sum of products plus a bias, cut at zero — where position
   (i, j) of the block reads the twelve consecutive entries 12 j … 12 j + 11 of row i of the input block. -/
import proofs.«101855_j59579786330696_2_alg».proof.Proof.Gen.KernelIdeal.Skeleton
import proofs.«101855_j59579786330696_2_alg».proof.Proof.LibMiddleAxisMax
import proofs.«101855_j59579786330696_2_alg».proof.Proof.LibUnfoldRows
import proofs.«101855_j59579786330696_2_alg».proof.Proof.LibRowColDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-! ## The two matrix products' index maps -/

theorem dotA_l0 (j : S8192x32.Idx) (q : dot_S8192x12_S12x32_S8192x32_1_0_0_1_n_n.contr.Idx) : (dot_S8192x12_S12x32_S8192x32_1_0_0_1_n_n.lhsIdx j q 0).val = (j 0).val := by
  unfold DotDims.lhsIdx
  rw [dif_neg (show ¬(0 : Fin S8192x12.rank) ∈ dot_S8192x12_S12x32_S8192x32_1_0_0_1_n_n.lhsBatch by decide), dif_pos (show (0 : Fin S8192x12.rank) ∈ dot_S8192x12_S12x32_S8192x32_1_0_0_1_n_n.lhsNonContracting by decide)]
  rfl
theorem dotA_r1 (j : S8192x32.Idx) (q : dot_S8192x12_S12x32_S8192x32_1_0_0_1_n_n.contr.Idx) : (dot_S8192x12_S12x32_S8192x32_1_0_0_1_n_n.rhsIdx j q 1).val = (j 1).val := by
  unfold DotDims.rhsIdx
  rw [dif_neg (show ¬(1 : Fin S12x32.rank) ∈ dot_S8192x12_S12x32_S8192x32_1_0_0_1_n_n.rhsBatch by decide), dif_pos (show (1 : Fin S12x32.rank) ∈ dot_S8192x12_S12x32_S8192x32_1_0_0_1_n_n.rhsNonContracting by decide)]
  rfl

theorem dotB_l0 (j : S8192x256.Idx) (q : dot_S8192x32_S32x256_S8192x256_1_0_0_1_n_n.contr.Idx) : (dot_S8192x32_S32x256_S8192x256_1_0_0_1_n_n.lhsIdx j q 0).val = (j 0).val := by
  unfold DotDims.lhsIdx
  rw [dif_neg (show ¬(0 : Fin S8192x32.rank) ∈ dot_S8192x32_S32x256_S8192x256_1_0_0_1_n_n.lhsBatch by decide), dif_pos (show (0 : Fin S8192x32.rank) ∈ dot_S8192x32_S32x256_S8192x256_1_0_0_1_n_n.lhsNonContracting by decide)]
  rfl
theorem dotB_r1 (j : S8192x256.Idx) (q : dot_S8192x32_S32x256_S8192x256_1_0_0_1_n_n.contr.Idx) : (dot_S8192x32_S32x256_S8192x256_1_0_0_1_n_n.rhsIdx j q 1).val = (j 1).val := by
  unfold DotDims.rhsIdx
  rw [dif_neg (show ¬(1 : Fin S32x256.rank) ∈ dot_S8192x32_S32x256_S8192x256_1_0_0_1_n_n.rhsBatch by decide), dif_pos (show (1 : Fin S32x256.rank) ∈ dot_S8192x32_S32x256_S8192x256_1_0_0_1_n_n.rhsNonContracting by decide)]
  rfl

/-! ## The block re-laid as positions by features -/

/-- Row `p = 64 i + j` of the [8192, 12] arrangement of a [1, 128, 768] block reads entries `12 j + d` of its row `i`. -/
theorem relaid_apply (x : FVec Ideal S1x128x768 .f32) (h1 : S1x128x768.ShapeCasts S128x768) (h2 : S128x768.ShapeCasts S8192x12)
    (p : Fin 8192) (d : Fin 12) (i : Fin 128) (k : Fin 768) (hi : i.val = p.val / 64) (hk : k.val = (p.val % 64) * 12 + d.val) :
    shapeCast S8192x12 (shapeCast S128x768 x h1) h2 (ix2 p d) = x (ix3 (0 : Fin 1) i k) := by
  refine (shapeCast_apply (shapeCast S128x768 x h1) h2 (ix2 p d) (ix2 i k) ?_).trans (shapeCast_1ab_ab_apply x h1 i k)
  rw [Shape.rowMajor_val_two, Shape.rowMajor_val_two]
  show i.val * 768 + k.val = p.val * 12 + d.val
  have := p.isLt
  omega

/-! ## One layer: a product with the weights, the bias row added, cut at zero -/

theorem layerA_apply (lhs : FVec Ideal S8192x12 .f32) (w : FVec Ideal S12x32 .f32) (b : FVec Ideal S32 .f32)
    (hw : S12x32.ShapeCasts S12x32) (hb : S32.ShapeCasts S32) (hb1 : S32.ShapeCasts S1x32) (hbc : S1x32.Broadcasts S8192x32)
    (p : Fin 8192) (h : Fin 32) :
    maximumf (addf (matmul dot_S8192x12_S12x32_S8192x32_1_0_0_1_n_n (some .fp32) lhs (shapeCast S12x32 w hw) (constant S8192x32 .f32 0x00000000#32))
        (broadcastTo S8192x32 (shapeCast S1x32 (shapeCast S32 b hb) hb1) hbc))
      (broadcast S8192x32 (Scalar.ofBits (F := Ideal) .f32 0x00000000#32)) (ix2 p h)
      = max ((∑ d : Fin 12, lhs (ix2 p d) * w (ix2 d h)) + b (ix1 h)) 0 := by
  rw [maximumf_apply, addf_apply, broadcast_apply, shapeCast_self, shapeCast_self]
  rw [Cert.RowColDot.matmul_rowcol dot_S8192x12_S12x32_S8192x32_1_0_0_1_n_n rfl rfl rfl rfl dotA_l0 dotA_r1 (some .fp32) lhs w (ix2 p h)]
  rw [broadcastTo_1b_ab_apply, shapeCast_a_1a_apply]
  show max ((∑ d : Fin 12, lhs (ix2 p d) * w (ix2 d h)) + b (ix1 h)) (Ideal.ofBits .f32 0x00000000#32) = _
  rw [Ideal.ofBits_zero_f32]

theorem layerB_apply (lhs : FVec Ideal S8192x32 .f32) (w : FVec Ideal S32x256 .f32) (b : FVec Ideal S256 .f32)
    (hw : S32x256.ShapeCasts S32x256) (hb : S256.ShapeCasts S256) (hb1 : S256.ShapeCasts S1x256) (hbc : S1x256.Broadcasts S8192x256)
    (p : Fin 8192) (c : Fin 256) :
    maximumf (addf (matmul dot_S8192x32_S32x256_S8192x256_1_0_0_1_n_n (some .fp32) lhs (shapeCast S32x256 w hw) (constant S8192x256 .f32 0x00000000#32))
        (broadcastTo S8192x256 (shapeCast S1x256 (shapeCast S256 b hb) hb1) hbc))
      (broadcast S8192x256 (Scalar.ofBits (F := Ideal) .f32 0x00000000#32)) (ix2 p c)
      = max ((∑ h : Fin 32, lhs (ix2 p h) * w (ix2 h c)) + b (ix1 c)) 0 := by
  rw [maximumf_apply, addf_apply, broadcast_apply, shapeCast_self, shapeCast_self]
  rw [Cert.RowColDot.matmul_rowcol dot_S8192x32_S32x256_S8192x256_1_0_0_1_n_n rfl rfl rfl rfl dotB_l0 dotB_r1 (some .fp32) lhs w (ix2 p c)]
  rw [broadcastTo_1b_ab_apply, shapeCast_a_1a_apply]
  show max ((∑ h : Fin 32, lhs (ix2 p h) * w (ix2 h c)) + b (ix1 c)) (Ideal.ofBits .f32 0x00000000#32) = _
  rw [Ideal.ofBits_zero_f32]

/-! ## The block maximum joined with the accumulator -/

theorem ofBits_ninf : Ideal.ofBits .f32 0xFF800000#32 = (⊥ : EReal) := by simp [Ideal.ofBits, Ideal.ieee]

theorem joined_apply (a : FVec Ideal S128x256 .f32) (v : FVec Ideal S8192x256 .f32) (h : S8192x256.ShapeCasts S128x64x256)
    (hr : S128x64x256.Reduces [1] S128x256) (hs : S128x256.ShapeCasts S128x256) (i : Fin 128) (c : Fin 256) :
    shapeCast S128x256 (maximumf a (multiReduction (F := Ideal) .maximumf [1] S128x256 (shapeCast S128x64x256 v h) 0xFF800000#32 hr (.inl rfl) rfl)) hs (ix2 i c)
      = max (a (ix2 i c)) ((Finset.univ : Finset (Fin 64)).fold max ⊥ fun j => v (ix2 (⟨i.val * 64 + j.val, by have := i.isLt; have := j.isLt; omega⟩ : Fin 8192) c)) := by
  rw [shapeCast_self, maximumf_apply]
  rw [Cert.MiddleAxisMax.multiReduction_maximumf_middle (shapeCast S128x64x256 v h) 0xFF800000#32 hr (.inl rfl) rfl i c, ofBits_ninf]
  congr 2
  funext j
  exact Cert.UnfoldRows.shapeCast_rb_acb_apply v h i j c _ rfl

/-! ## The step function at an index -/

/-- The first layer's unit `h` at position `p` of the step's block. -/
def hidAt (x0 : FVec Ideal S1x128x768 .f32) (x1 : FVec Ideal S12x32 .f32) (x2 : FVec Ideal S32 .f32) (p : Fin 8192) (h : Fin 32) : EReal :=
  max ((∑ d : Fin 12, x0 (ix3 (0 : Fin 1) (⟨p.val / 64, by have := p.isLt; omega⟩ : Fin 128) (⟨(p.val % 64) * 12 + d.val, by have := d.isLt; omega⟩ : Fin 768)) * x1 (ix2 d h)) + x2 (ix1 h)) 0

/-- The second layer's unit `c` at position `p`. -/
def actAt (x0 : FVec Ideal S1x128x768 .f32) (x1 : FVec Ideal S12x32 .f32) (x2 : FVec Ideal S32 .f32) (x3 : FVec Ideal S32x256 .f32) (x4 : FVec Ideal S256 .f32)
    (p : Fin 8192) (c : Fin 256) : EReal :=
  max ((∑ h : Fin 32, hidAt x0 x1 x2 p h * x3 (ix2 h c)) + x4 (ix1 c)) 0

set_option maxHeartbeats 1000000 in
theorem step_apply (x0 : FVec Ideal S1x128x768 .f32) (x1 : FVec Ideal S12x32 .f32) (x2 : FVec Ideal S32 .f32) (x3 : FVec Ideal S32x256 .f32) (x4 : FVec Ideal S256 .f32)
    (a : FVec Ideal S128x256 .f32) (i : Fin 128) (c : Fin 256) :
    k0_pay3 (F := Ideal) x0 x1 x2 x3 x4 a (ix2 i c)
      = max (a (ix2 i c)) ((Finset.univ : Finset (Fin 64)).fold max ⊥ fun j => actAt x0 x1 x2 x3 x4 (⟨i.val * 64 + j.val, by have := i.isLt; have := j.isLt; omega⟩ : Fin 8192) c) := by
  unfold k0_pay3
  refine (joined_apply a _ _ _ _ i c).trans ?_
  congr 2
  funext j
  refine (layerB_apply _ x3 x4 _ _ _ _ _ c).trans ?_
  unfold actAt
  congr 2
  refine Finset.sum_congr rfl fun h _ => ?_
  congr 1
  refine (layerA_apply _ x1 x2 _ _ _ _ _ h).trans ?_
  unfold hidAt
  congr 2
  refine Finset.sum_congr rfl fun d _ => ?_
  congr 1
  exact relaid_apply x0 _ _ _ d _ _ rfl rfl

/-- The reset value is -inf everywhere. -/
theorem reset_apply (j : S128x256.Idx) : k0_pay2 (F := Ideal) j = (⊥ : EReal) := by
  unfold k0_pay2
  rw [shapeCast_self, broadcast_apply]
  exact ofBits_ninf

/-- The result block is the accumulator with a unit axis in front. -/
theorem out_apply (a : FVec Ideal S128x256 .f32) (u : Fin 1) (i : Fin 128) (c : Fin 256) :
    k0_pay1 (F := Ideal) a (ix3 u i c) = a (ix2 i c) := by
  unfold k0_pay1
  exact shapeCast_ab_1ab_apply a _ u i c

end Cert.KernelIdeal.Hand

end
-- ==== Proof.Spec.lean ====
/-
  The specification: the result of the two-stage computation, written index by index on the
  extended reals, in the shape in which the kernel computes it.

  Stage one is a two-layer perceptron with the batch normalisations folded into the weights:
  with  scale = g * rsqrt (v + eps),  the folded weight is  w * scale  and the folded offset is
  (b - m) * scale + be.  Each layer is a contraction followed by the folded offset and a maximum
  with zero; the result is then maximised over the second of the two point axes (the lattice
  supremum of 512 values; the bottom element of the extended reals is the value of an empty
  supremum, so a running maximum started at minus infinity computes it).

  Stage two adds that maximum to x, projects to queries, keys and values (three column ranges of
  one product), and applies scaled dot-product attention with the usual stabilised softmax:
  exp (dots - row maximum), divided by its row sum, times the values.
-/
import Idealize.ShloMosaic.PureOps.Ideal
import Idealize.ShloMosaic.PureOps.Ideal.Laws
import Idealize.ShloMosaic.Lib.ValueIdx
import Mathlib

noncomputable section

namespace TprAttn

open Idealize.ShloMosaic Idealize.ShloMosaic.ValueIdx
open scoped BigOperators

/-- Arrays of extended reals over literal shapes of rank one to four. -/
abbrev A1 (n0 : Nat) : Type := (⟨1, ![n0]⟩ : Shape).Idx → EReal
abbrev A2 (n0 n1 : Nat) : Type := (⟨2, ![n0, n1]⟩ : Shape).Idx → EReal
abbrev A3 (n0 n1 n2 : Nat) : Type := (⟨3, ![n0, n1, n2]⟩ : Shape).Idx → EReal
abbrev A4 (n0 n1 n2 n3 : Nat) : Type := (⟨4, ![n0, n1, n2, n3]⟩ : Shape).Idx → EReal

/-- The fifteen argument arrays, in the order of the program's arguments. -/
structure Inputs where
  x : A3 2 512 256
  r : A4 2 512 512 12
  w1 : A2 12 32
  b1 : A1 32
  g1 : A1 32
  be1 : A1 32
  m1 : A1 32
  v1 : A1 32
  w2 : A2 32 256
  b2 : A1 256
  g2 : A1 256
  be2 : A1 256
  m2 : A1 256
  v2 : A1 256
  wqkv : A2 256 768

/-- The variance offset of the normalisation: one single-precision word, never evaluated. -/
def eps : EReal := Ideal.ofBits .f32 0x3727C5AC#32
/-- The attention scale 1/16, as its single-precision word. -/
def qkScale : EReal := Ideal.ofBits .f32 0x3D800000#32

/-! ## Stage one, with the normalisations folded into the weights -/

/-- The per-channel scale of the first normalisation: g · rsqrt (v + eps). -/
def scale1 (a : Inputs) (h : Fin 32) : EReal := a.g1 (ix1 h) * Ideal.rsqrt (a.v1 (ix1 h) + eps)
/-- First-layer weight with the scale folded in. -/
def w1f (a : Inputs) (d : Fin 12) (h : Fin 32) : EReal := a.w1 (ix2 d h) * scale1 a h
/-- First-layer offset with mean, scale and shift folded in. -/
def b1f (a : Inputs) (h : Fin 32) : EReal := (a.b1 (ix1 h) - a.m1 (ix1 h)) * scale1 a h + a.be1 (ix1 h)
/-- The per-channel scale of the second normalisation. -/
def scale2 (a : Inputs) (c : Fin 256) : EReal := a.g2 (ix1 c) * Ideal.rsqrt (a.v2 (ix1 c) + eps)
/-- Second-layer weight with the scale folded in. -/
def w2f (a : Inputs) (h : Fin 32) (c : Fin 256) : EReal := a.w2 (ix2 h c) * scale2 a c
/-- Second-layer offset with mean, scale and shift folded in. -/
def b2f (a : Inputs) (c : Fin 256) : EReal := (a.b2 (ix1 c) - a.m2 (ix1 c)) * scale2 a c + a.be2 (ix1 c)

/-- Hidden activations: contraction over the 12 features, folded offset, maximum with zero. -/
def hid (a : Inputs) (b : Fin 2) (t s : Fin 512) (h : Fin 32) : EReal :=
  max ((∑ d : Fin 12, a.r (ix4 b t s d) * w1f a d h) + b1f a h) 0
/-- Output activations: contraction over the 32 hidden channels, folded offset, maximum with zero. -/
def act (a : Inputs) (b : Fin 2) (t s : Fin 512) (c : Fin 256) : EReal :=
  max ((∑ h : Fin 32, hid a b t s h * w2f a h c) + b2f a c) 0
/-- The additive bias: the supremum of the activations over the second point axis. -/
def bias (a : Inputs) (b : Fin 2) (t : Fin 512) (c : Fin 256) : EReal :=
  Finset.univ.sup fun s : Fin 512 => act a b t s c

/-! ## Stage two: attention, as a function of x, a bias and the projection weights -/

/-- The column of the joint projection that holds query, key and value component d. -/
def qcol (d : Fin 256) : Fin 768 := ⟨d.val, by omega⟩
def kcol (d : Fin 256) : Fin 768 := ⟨256 + d.val, by omega⟩
def vcol (d : Fin 256) : Fin 768 := ⟨512 + d.val, by omega⟩

section Attention
variable (x : A3 2 512 256) (bs : Fin 2 → Fin 512 → Fin 256 → EReal) (wqkv : A2 256 768)

/-- x plus the bias. -/
def xb (b : Fin 2) (t : Fin 512) (c : Fin 256) : EReal := x (ix3 b t c) + bs b t c
/-- The joint query/key/value projection. -/
def qkv (b : Fin 2) (t : Fin 512) (e : Fin 768) : EReal := ∑ c : Fin 256, xb x bs b t c * wqkv (ix2 c e)
/-- Scaled dot products of queries with keys. -/
def dots (b : Fin 2) (t s : Fin 512) : EReal :=
  (∑ d : Fin 256, qkv x bs wqkv b t (qcol d) * qkv x bs wqkv b s (kcol d)) * qkScale
/-- Row maximum of the dot products. -/
def rowmax (b : Fin 2) (t : Fin 512) : EReal := Finset.univ.sup fun s : Fin 512 => dots x bs wqkv b t s
/-- Unnormalised softmax weights. -/
def p (b : Fin 2) (t s : Fin 512) : EReal := Ideal.exp (dots x bs wqkv b t s - rowmax x bs wqkv b t)
/-- Their row sums. -/
def rowsum (b : Fin 2) (t : Fin 512) : EReal := ∑ s : Fin 512, p x bs wqkv b t s
/-- Softmax weights. -/
def attn (b : Fin 2) (t s : Fin 512) : EReal := Ideal.div (p x bs wqkv b t s) (rowsum x bs wqkv b t)
/-- The attention output. -/
def out (b : Fin 2) (t : Fin 512) (d : Fin 256) : EReal :=
  ∑ s : Fin 512, attn x bs wqkv b t s * qkv x bs wqkv b s (vcol d)

end Attention

/-- The whole result, in the kernel's arrangement. -/
def K (a : Inputs) : A3 2 512 256 := fun i => out a.x (bias a) a.wqkv (i 0) (i 1) (i 2)

theorem K_ix3 (a : Inputs) (b : Fin 2) (t : Fin 512) (d : Fin 256) :
    K a (ix3 b t d) = out a.x (bias a) a.wqkv b t d := rfl

/-- The running maximum the kernel keeps: from the bottom element, the maximum over any list of
    values folded in, in any order, is the supremum.  Stated for a Finset fold of max. -/
theorem fold_max_bot_eq_sup {ι : Type*} (s : Finset ι) (f : ι → EReal) :
    s.fold max ⊥ f = s.sup f := by
  classical
  induction s using Finset.induction_on with
  | empty => simp
  | insert i s hi ih => rw [Finset.fold_insert hi, Finset.sup_insert, ih]

end TprAttn

end
-- ==== Proof.LibBlockMax.lean ====
/-
  A maximum over q·n positions taken block by block. Library imports only.
-/
import Mathlib.Order.Lattice
import Mathlib.Data.Finset.Lattice.Fold
import Mathlib.Data.Finset.Range
import Mathlib.Tactic.Ring
import Mathlib.Tactic.Linarith

namespace Cert.Lib.BlockMax

/-- The maximum of `f` over the positions below `q * n` is the maximum over the `q` consecutive blocks of `n` positions of
    the maximum within each block (any join-semilattice with a least element): a maximum accumulated block by block
    against one maximum over everything. -/
theorem sup_blocks {α : Type*} [SemilatticeSup α] [OrderBot α] (q n : ℕ) (f : ℕ → α) :
    (Finset.range (q * n)).sup f = (Finset.range q).sup fun b => (Finset.range n).sup fun p => f (b * n + p) := by
  apply le_antisymm
  · refine Finset.sup_le fun k hk => ?_
    have hk' : k < q * n := Finset.mem_range.mp hk
    have hn : 0 < n := by
      rcases Nat.eq_zero_or_pos n with h | h
      · subst h; simp at hk'
      · exact h
    have hb : k / n < q := (Nat.div_lt_iff_lt_mul hn).mpr hk'
    have hp : k % n < n := Nat.mod_lt _ hn
    have hk2 : (k / n) * n + k % n = k := by rw [Nat.mul_comm]; exact Nat.div_add_mod k n
    calc f k = f ((k / n) * n + k % n) := by rw [hk2]
      _ ≤ (Finset.range n).sup fun p => f ((k / n) * n + p) :=
          Finset.le_sup (f := fun p => f ((k / n) * n + p)) (Finset.mem_range.mpr hp)
      _ ≤ _ := Finset.le_sup (f := fun b => (Finset.range n).sup fun p => f (b * n + p)) (Finset.mem_range.mpr hb)
  · refine Finset.sup_le fun b hb => Finset.sup_le fun p hp => ?_
    have hb' : b < q := Finset.mem_range.mp hb
    have hp' : p < n := Finset.mem_range.mp hp
    refine Finset.le_sup (Finset.mem_range.mpr ?_)
    calc b * n + p < b * n + n := Nat.add_lt_add_left hp' _
      _ = (b + 1) * n := by ring
      _ ≤ q * n := Nat.mul_le_mul_right _ hb'

end Cert.Lib.BlockMax
-- ==== Proof.RunningBlocks.lean ====
/-
  The running maximum over eight blocks of sixty-four positions.  An accumulator that starts, at the
  first block, from the bottom element joined with that block's maximum, and at each later block is
  joined with that block's maximum, holds after the eighth block the supremum over all 512 positions.
  Pure lattice arithmetic on the extended reals: a maximum taken block by block is the maximum.
-/
import proofs.«101855_j59579786330696_2_alg».proof.Proof.Spec
import proofs.«101855_j59579786330696_2_alg».proof.Proof.LibBlockMax

noncomputable section

namespace TprAttn

/-- Position j of block s lies below 512. -/
theorem lt512 {s : ℕ} (h : s < 8) (j : Fin 64) : s * 64 + j.val < 512 := by
  have := j.isLt; omega

/-- A supremum over Fin n of a function of the value is the supremum over the range. -/
theorem sup_fin_eq_sup_range (n : ℕ) (g : ℕ → EReal) :
    (Finset.univ : Finset (Fin n)).sup (fun j => g j.val) = (Finset.range n).sup g := by
  apply le_antisymm
  · exact Finset.sup_le fun j _ => Finset.le_sup (Finset.mem_range.mpr j.isLt)
  · exact Finset.sup_le fun j hj =>
      Finset.le_sup (f := fun j : Fin n => g j.val) (Finset.mem_univ (⟨j, Finset.mem_range.mp hj⟩ : Fin n))

/-- THE RUNNING MAXIMUM OVER EIGHT BLOCKS OF SIXTY-FOUR is the supremum over the 512 positions. -/
theorem running_blocks (f : Fin 512 → EReal) (A : ℕ → EReal)
    (h0 : A 0 = max ⊥ ((Finset.univ : Finset (Fin 64)).fold max ⊥ fun j => f ⟨0 * 64 + j.val, lt512 (by omega) j⟩))
    (hs : ∀ (s : ℕ) (h : s + 1 < 8), A (s + 1)
      = max (A s) ((Finset.univ : Finset (Fin 64)).fold max ⊥ fun j => f ⟨(s + 1) * 64 + j.val, lt512 h j⟩)) :
    A 7 = Finset.univ.sup f := by
  -- f extended by the bottom element beyond 512
  let g : ℕ → EReal := fun k => if h : k < 512 then f ⟨k, h⟩ else ⊥
  have hg : ∀ (k : ℕ) (h : k < 512), g k = f ⟨k, h⟩ := fun k h => dif_pos h
  -- one block's fold of max is the supremum of g over the block
  have hblock : ∀ (s : ℕ) (h : s < 8),
      ((Finset.univ : Finset (Fin 64)).fold max ⊥ fun j => f ⟨s * 64 + j.val, lt512 h j⟩)
        = (Finset.range 64).sup fun p => g (s * 64 + p) := by
    intro s h
    rw [fold_max_bot_eq_sup, ← sup_fin_eq_sup_range 64 (fun p => g (s * 64 + p))]
    exact congrArg _ (funext fun j => (hg _ (lt512 h j)).symm)
  -- the accumulator after block s
  have hA : ∀ (s : ℕ), s < 8 → A s = (Finset.range (s + 1)).sup fun b => (Finset.range 64).sup fun p => g (b * 64 + p) := by
    intro s
    induction s with
    | zero =>
      intro _
      rw [h0, hblock 0 (by omega), max_bot_left, Finset.range_one, Finset.sup_singleton]
    | succ s ih =>
      intro h
      rw [hs s h, ih (by omega), hblock (s + 1) h, Finset.range_add_one (n := s + 1), Finset.sup_insert, max_comm]
  rw [hA 7 (by omega), ← Cert.Lib.BlockMax.sup_blocks 8 64 g, ← sup_fin_eq_sup_range (8 * 64) g]
  exact congrArg _ (funext fun j => hg j.val j.isLt)

end TprAttn

end
-- ==== Proof.KIRegion0Array.lean ====
/- Region 0's result array: every entry (b, T, c) ends at the maximum, over the 512 positions s of row (b, T) of the
   re-laid input, of the second layer's unit c there. A group of 8 consecutive grid points shares one block of 128 rows of
   one batch element; its point s reads the 64 positions 64 s … 64 s + 63 of each of those rows; the accumulator starts at
   -inf at the group's first point and joins one block maximum per point, and the group's last point writes it back as
   block (b, T / 128) of the result. The 8 result blocks tile the array. -/
import proofs.«101855_j59579786330696_2_alg».proof.Proof.KIRegion0Pieces
import proofs.«101855_j59579786330696_2_alg».proof.Proof.KIRegion0Step
import proofs.«101855_j59579786330696_2_alg».proof.Proof.RunningBlocks

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

-- the recursions over the grid points are used through their equations only
attribute [local irreducible] acc0 outsAt0

/-! ## The five arrays the region reads, as functions on their index sets -/

/-- The re-laid input `[2, 512, 6144]`, the folded weights and biases of the two layers. -/
abbrev arrR (c : Dev nD) : S2x512x6144.Idx → EReal := V c main_v20
abbrev arrW1 (c : Dev nD) : S12x32.Idx → EReal := V c main_v6
abbrev arrB1 (c : Dev nD) : S32.Idx → EReal := V c main_v9
abbrev arrW2 (c : Dev nD) : S32x256.Idx → EReal := V c main_v16
abbrev arrB2 (c : Dev nD) : S256.Idx → EReal := V c main_v19

/-! ## The printed index maps, decided over the grid -/

theorem idx_facts0 : ∀ t : Fin cfg0.N,
    win0_0.index t (0 : Fin 3) = t.val / 32 ∧ win0_0.index t (1 : Fin 3) = t.val / 8 % 4 ∧ win0_0.index t (2 : Fin 3) = t.val % 8
    ∧ win0_5.index t (0 : Fin 3) = t.val / 32 ∧ win0_5.index t (1 : Fin 3) = t.val / 8 % 4 ∧ win0_5.index t (2 : Fin 3) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0 :=
  (by decide +kernel : ∀ t : Fin grid0.N, _)

/-! ## The blocks read off the arrays -/

/-- The input block at point `t`: rows `128 (t / 8 % 4) …` of batch element `t / 32`, columns `768 (t % 8) …`. -/
theorem iblk0_0_apply (c : Dev nD) (t : Fin cfg0.N) (y : S1x128x768.Idx) :
    iblk0 V c 0 t y = arrR V c (ix3 (⟨t.val / 32, by have := t.isLt; have : cfg0.N = 64 := N_0; omega⟩ : Fin 2)
      (⟨t.val / 8 % 4 * 128 + (y 1).val, by have : (y 1).val < 128 := (y 1).isLt; omega⟩ : Fin 512)
      (⟨t.val % 8 * 768 + (y 2).val, by have : (y 2).val < 768 := (y 2).isLt; omega⟩ : Fin 6144)) := by
  obtain ⟨e0, e1, e2, -⟩ := idx_facts0 t
  show V c main_v20 (((cfg0.win 0).blk t).view.emb y) = _
  refine congrArg (V c main_v20) ?_
  funext a; apply Fin.ext
  match a with
  | ⟨0, _⟩ => show win0_0.index t (0 : Fin 3) * 1 + 1 * (y 0).val = t.val / 32; have hj : (y 0).val < 1 := (y 0).isLt; omega
  | ⟨1, _⟩ => show win0_0.index t (1 : Fin 3) * 128 + 1 * (y 1).val = t.val / 8 % 4 * 128 + (y 1).val; omega
  | ⟨2, _⟩ => show win0_0.index t (2 : Fin 3) * 768 + 1 * (y 2).val = t.val % 8 * 768 + (y 2).val; omega

/-- The weights and biases are whole-array windows: their blocks are the arrays. -/
theorem iblk0_1_eq (c : Dev nD) (t : Fin cfg0.N) : iblk0 V c 1 t = arrW1 V c := by
  obtain ⟨-, -, -, -, -, -, e0, e1, -⟩ := idx_facts0 t
  funext y
  show V c main_v6 (((cfg0.win 1).blk t).view.emb y) = _
  refine congrArg (V c main_v6) ?_
  funext a; apply Fin.ext
  match a with
  | ⟨0, _⟩ => show win0_1.index t (0 : Fin 2) * 12 + 1 * (y 0).val = (y 0).val; omega
  | ⟨1, _⟩ => show win0_1.index t (1 : Fin 2) * 32 + 1 * (y 1).val = (y 1).val; omega

theorem iblk0_2_eq (c : Dev nD) (t : Fin cfg0.N) : iblk0 V c 2 t = arrB1 V c := by
  obtain ⟨-, -, -, -, -, -, -, -, e0, -⟩ := idx_facts0 t
  funext y
  show V c main_v9 (((cfg0.win 2).blk t).view.emb y) = _
  refine congrArg (V c main_v9) ?_
  funext a; apply Fin.ext
  match a with
  | ⟨0, _⟩ => show win0_2.index t (0 : Fin 1) * 32 + 1 * (y 0).val = (y 0).val; omega

theorem iblk0_3_eq (c : Dev nD) (t : Fin cfg0.N) : iblk0 V c 3 t = arrW2 V c := by
  obtain ⟨-, -, -, -, -, -, -, -, -, e0, e1, -⟩ := idx_facts0 t
  funext y
  show V c main_v16 (((cfg0.win 3).blk t).view.emb y) = _
  refine congrArg (V c main_v16) ?_
  funext a; apply Fin.ext
  match a with
  | ⟨0, _⟩ => show win0_3.index t (0 : Fin 2) * 32 + 1 * (y 0).val = (y 0).val; omega
  | ⟨1, _⟩ => show win0_3.index t (1 : Fin 2) * 256 + 1 * (y 1).val = (y 1).val; omega

theorem iblk0_4_eq (c : Dev nD) (t : Fin cfg0.N) : iblk0 V c 4 t = arrB2 V c := by
  obtain ⟨-, -, -, -, -, -, -, -, -, -, -, e0⟩ := idx_facts0 t
  funext y
  show V c main_v19 (((cfg0.win 4).blk t).view.emb y) = _
  refine congrArg (V c main_v19) ?_
  funext a; apply Fin.ext
  match a with
  | ⟨0, _⟩ => show win0_4.index t (0 : Fin 1) * 256 + 1 * (y 0).val = (y 0).val; omega

/-! ## The two layers at a position of the whole array -/

/-- The second layer's unit `cc` at position `s` of row `(b, T)`: both layers are a sum of products with the folded
    weights plus the folded bias, cut at zero; position `s` reads entries `12 s … 12 s + 11` of the re-laid row. -/
def actV (c : Dev nD) (b : Fin 2) (T : Fin 512) (s : Fin 512) (cc : Fin 256) : EReal :=
  max ((∑ h : Fin 32, max ((∑ d : Fin 12, arrR V c (ix3 b T (⟨s.val * 12 + d.val, by have := s.isLt; have := d.isLt; omega⟩ : Fin 6144)) * arrW1 V c (ix2 d h)) + arrB1 V c (ix1 h)) 0
    * arrW2 V c (ix2 h cc)) + arrB2 V c (ix1 cc)) 0

/-- Position `j` of row `i` of a block that reads rows `128 tq …` of batch element `bq` and columns `768 sq …` of the
    re-laid input, beside the whole weights and biases, is position `64 sq + j` of row `128 tq + i`. -/
theorem actAt_of_blocks (c : Dev nD) (x0 : FVec Ideal S1x128x768 .f32) (x1 : FVec Ideal S12x32 .f32) (x2 : FVec Ideal S32 .f32)
    (x3 : FVec Ideal S32x256 .f32) (x4 : FVec Ideal S256 .f32) (bq : Fin 2) (tq sq : ℕ) (htq : tq < 4) (hsq : sq < 8)
    (h0 : ∀ y : S1x128x768.Idx, x0 y = arrR V c (ix3 bq (⟨tq * 128 + (y 1).val, by have : (y 1).val < 128 := (y 1).isLt; omega⟩ : Fin 512)
      (⟨sq * 768 + (y 2).val, by have : (y 2).val < 768 := (y 2).isLt; omega⟩ : Fin 6144)))
    (h1 : x1 = arrW1 V c) (h2 : x2 = arrB1 V c) (h3 : x3 = arrW2 V c) (h4 : x4 = arrB2 V c)
    (i : Fin 128) (j : Fin 64) (cc : Fin 256) :
    actAt x0 x1 x2 x3 x4 (⟨i.val * 64 + j.val, by have := i.isLt; have := j.isLt; omega⟩ : Fin 8192) cc
      = actV V c bq (⟨tq * 128 + i.val, by have := i.isLt; omega⟩ : Fin 512) (⟨sq * 64 + j.val, by have := j.isLt; omega⟩ : Fin 512) cc := by
  have hi := i.isLt
  have hj := j.isLt
  subst h1 h2 h3 h4
  unfold actAt hidAt actV
  congr 2
  refine Finset.sum_congr rfl fun h _ => ?_
  congr 3
  refine Finset.sum_congr rfl fun d _ => ?_
  congr 1
  rw [h0]
  refine congrArg (arrR V c) ?_
  have hd := d.isLt
  funext a; apply Fin.ext
  match a with
  | ⟨0, _⟩ => rfl
  | ⟨1, _⟩ => show tq * 128 + (i.val * 64 + j.val) / 64 = tq * 128 + i.val; omega
  | ⟨2, _⟩ => show sq * 768 + ((i.val * 64 + j.val) % 64 * 12 + d.val) = (sq * 64 + j.val) * 12 + d.val; omega

/-- The step function of such blocks at an index: the accumulator joined with the maximum over the block's 64 positions. -/
theorem step_of_blocks (c : Dev nD) (x0 : FVec Ideal S1x128x768 .f32) (x1 : FVec Ideal S12x32 .f32) (x2 : FVec Ideal S32 .f32)
    (x3 : FVec Ideal S32x256 .f32) (x4 : FVec Ideal S256 .f32) (bq : Fin 2) (tq sq : ℕ) (htq : tq < 4) (hsq : sq < 8)
    (h0 : ∀ y : S1x128x768.Idx, x0 y = arrR V c (ix3 bq (⟨tq * 128 + (y 1).val, by have : (y 1).val < 128 := (y 1).isLt; omega⟩ : Fin 512)
      (⟨sq * 768 + (y 2).val, by have : (y 2).val < 768 := (y 2).isLt; omega⟩ : Fin 6144)))
    (h1 : x1 = arrW1 V c) (h2 : x2 = arrB1 V c) (h3 : x3 = arrW2 V c) (h4 : x4 = arrB2 V c)
    (a : FVec Ideal S128x256 .f32) (i : Fin 128) (cc : Fin 256) :
    k0_pay3 (F := Ideal) x0 x1 x2 x3 x4 a (ix2 i cc)
      = max (a (ix2 i cc)) ((Finset.univ : Finset (Fin 64)).fold max ⊥ fun j =>
          actV V c bq (⟨tq * 128 + i.val, by have := i.isLt; omega⟩ : Fin 512) (⟨sq * 64 + j.val, by have := j.isLt; omega⟩ : Fin 512) cc) := by
  rw [step_apply]
  congr 2
  funext j
  exact actAt_of_blocks V c x0 x1 x2 x3 x4 bq tq sq htq hsq h0 h1 h2 h3 h4 i j cc

/-- The step's block maximum at row `i` of the group's rows: over the 64 positions point `n` reads. -/
def blockMax (c : Dev nD) (n : ℕ) (i : Fin 128) (cc : Fin 256) : EReal :=
  (Finset.univ : Finset (Fin 64)).fold max ⊥ fun j => actV V c (⟨n / 32 % 2, Nat.mod_lt _ (by decide)⟩ : Fin 2)
    (⟨n / 8 % 4 * 128 + i.val, by have := i.isLt; omega⟩ : Fin 512) (⟨n % 8 * 64 + j.val, by have := j.isLt; omega⟩ : Fin 512) cc

set_option maxHeartbeats 2000000 in
theorem step0_apply (c : Dev nD) (t : Fin cfg0.N) (a : FVec Ideal S128x256 .f32) (i : Fin 128) (cc : Fin 256) :
    step0 V c t a (ix2 i cc) = max (a (ix2 i cc)) (blockMax V c t.val i cc) := by
  have hN : cfg0.N = 64 := N_0
  have ht := t.isLt
  have hb : (⟨t.val / 32, by omega⟩ : Fin 2) = (⟨t.val / 32 % 2, Nat.mod_lt _ (by decide)⟩ : Fin 2) := Fin.ext (by show t.val / 32 = t.val / 32 % 2; omega)
  unfold step0 blockMax
  rw [← hb]
  exact step_of_blocks V c (iblk0 V c 0 t) (iblk0 V c 1 t) (iblk0 V c 2 t) (iblk0 V c 3 t) (iblk0 V c 4 t)
    (⟨t.val / 32, by omega⟩ : Fin 2) (t.val / 8 % 4) (t.val % 8) (Nat.mod_lt _ (by decide)) (Nat.mod_lt _ (by decide))
    (iblk0_0_apply V c t) (iblk0_1_eq V c t) (iblk0_2_eq V c t) (iblk0_3_eq V c t) (iblk0_4_eq V c t) a i cc

/-! ## The accumulator within a group of 8 points -/

theorem acc_first_apply (c : Dev nD) (t : Fin cfg0.N) (h0 : t.val % 8 = 0) (i : Fin 128) (cc : Fin 256) :
    acc0 V c t.val t.isLt (ix2 i cc) = max ⊥ (blockMax V c t.val i cc) := by
  rw [acc0_first V c t h0, step0_apply, reset_apply]

theorem acc_later_apply (c : Dev nD) (t : Fin cfg0.N) (h0 : ¬t.val % 8 = 0) (i : Fin 128) (cc : Fin 256) :
    acc0 V c t.val t.isLt (ix2 i cc)
      = max (acc0 V c (t.val - 1) (Nat.lt_of_le_of_lt (Nat.sub_le _ _) t.isLt) (ix2 i cc)) (blockMax V c t.val i cc) := by
  rw [acc0_later V c t h0, step0_apply]

/-- The accumulator's entry after position `n`, for any natural `n` (nothing past the grid). -/
def accN (c : Dev nD) (n : ℕ) (i : Fin 128) (cc : Fin 256) : EReal :=
  if h : n < cfg0.N then acc0 V c n h (ix2 i cc) else ⊥

theorem accN_of_lt (c : Dev nD) (n : ℕ) (h : n < cfg0.N) (i : Fin 128) (cc : Fin 256) :
    accN V c n i cc = acc0 V c n h (ix2 i cc) := dif_pos h

theorem accN_first (c : Dev nD) (n : ℕ) (h : n < cfg0.N) (h0 : n % 8 = 0) (i : Fin 128) (cc : Fin 256) :
    accN V c n i cc = max ⊥ (blockMax V c n i cc) :=
  (accN_of_lt V c n h i cc).trans (acc_first_apply V c ⟨n, h⟩ h0 i cc)

theorem accN_later (c : Dev nD) (n : ℕ) (h : n + 1 < cfg0.N) (h0 : ¬(n + 1) % 8 = 0) (i : Fin 128) (cc : Fin 256) :
    accN V c (n + 1) i cc = max (accN V c n i cc) (blockMax V c (n + 1) i cc) := by
  rw [accN_of_lt V c (n + 1) h, accN_of_lt V c n (Nat.lt_of_succ_lt h)]
  exact acc_later_apply V c ⟨n + 1, h⟩ h0 i cc

/-- The maximum of the second layer's unit `cc` over all 512 positions of row `(b, T)`. -/
def rowSup (c : Dev nD) (b : Fin 2) (T : Fin 512) (cc : Fin 256) : EReal :=
  Finset.univ.sup fun s : Fin 512 => actV V c b T s cc

/-- The block maximum of point `n` as the positions `64 s …` of its row, `s` the point's place in its group. -/
theorem blockMax_eq (c : Dev nD) (n : ℕ) (i : Fin 128) (cc : Fin 256) (b : Fin 2) (T : Fin 512) (s : ℕ) (hs : s < 8)
    (hb : n / 32 % 2 = b.val) (hT : n / 8 % 4 * 128 + i.val = T.val) (hs' : n % 8 = s) :
    blockMax V c n i cc
      = (Finset.univ : Finset (Fin 64)).fold max ⊥ fun j => (fun s2 : Fin 512 => actV V c b T s2 cc) ⟨s * 64 + j.val, TprAttn.lt512 hs j⟩ := by
  unfold blockMax
  have e1 : (⟨n / 32 % 2, Nat.mod_lt _ (by decide)⟩ : Fin 2) = b := Fin.ext hb
  have e2 : (⟨n / 8 % 4 * 128 + i.val, by have := i.isLt; omega⟩ : Fin 512) = T := Fin.ext hT
  rw [e1, e2]
  congr 1
  funext j
  exact congrArg (fun s2 : Fin 512 => actV V c b T s2 cc) (Fin.ext (by show n % 8 * 64 + j.val = s * 64 + j.val; rw [hs']))

theorem acc0_congr (c : Dev nD) {n n' : ℕ} (e : n = n') (h : n < cfg0.N) (h' : n' < cfg0.N) : acc0 V c n h = acc0 V c n' h' := by
  subst e; rfl

set_option maxHeartbeats 2000000 in
/-- After a group's last point the accumulator's entry `(i, cc)` is the row supremum. -/
theorem acc_last_apply (c : Dev nD) (t : Fin cfg0.N) (h7 : t.val % 8 = 7) (i : Fin 128) (cc : Fin 256) :
    acc0 V c t.val t.isLt (ix2 i cc)
      = rowSup V c (⟨t.val / 32 % 2, Nat.mod_lt _ (by decide)⟩ : Fin 2) (⟨t.val / 8 % 4 * 128 + i.val, by have := i.isLt; omega⟩ : Fin 512) cc := by
  have hN : cfg0.N = 64 := N_0
  have ht := t.isLt
  have hi := i.isLt
  have h0 : accN V c (t.val - 7 + 0) i cc = max ⊥ ((Finset.univ : Finset (Fin 64)).fold max ⊥ fun j =>
      (fun s2 : Fin 512 => actV V c (⟨t.val / 32 % 2, Nat.mod_lt _ (by decide)⟩ : Fin 2) (⟨t.val / 8 % 4 * 128 + i.val, by omega⟩ : Fin 512) s2 cc) ⟨0 * 64 + j.val, TprAttn.lt512 (by omega) j⟩) :=
    (accN_first V c (t.val - 7 + 0) (by omega) (by omega) i cc).trans
      (congrArg (max ⊥) (blockMax_eq V c (t.val - 7 + 0) i cc (⟨t.val / 32 % 2, Nat.mod_lt _ (by decide)⟩ : Fin 2) (⟨t.val / 8 % 4 * 128 + i.val, by omega⟩ : Fin 512) 0 (by omega)
        (by show (t.val - 7 + 0) / 32 % 2 = t.val / 32 % 2; omega)
        (by show (t.val - 7 + 0) / 8 % 4 * 128 + i.val = t.val / 8 % 4 * 128 + i.val; omega) (by omega)))
  have hs : ∀ (s : ℕ) (h : s + 1 < 8), accN V c (t.val - 7 + (s + 1)) i cc = max (accN V c (t.val - 7 + s) i cc)
      ((Finset.univ : Finset (Fin 64)).fold max ⊥ fun j =>
        (fun s2 : Fin 512 => actV V c (⟨t.val / 32 % 2, Nat.mod_lt _ (by decide)⟩ : Fin 2) (⟨t.val / 8 % 4 * 128 + i.val, by omega⟩ : Fin 512) s2 cc) ⟨(s + 1) * 64 + j.val, TprAttn.lt512 h j⟩) := fun s h =>
    (accN_later V c (t.val - 7 + s) (by omega) (by omega) i cc).trans
      (congrArg (max (accN V c (t.val - 7 + s) i cc)) (blockMax_eq V c (t.val - 7 + s + 1) i cc (⟨t.val / 32 % 2, Nat.mod_lt _ (by decide)⟩ : Fin 2) (⟨t.val / 8 % 4 * 128 + i.val, by omega⟩ : Fin 512) (s + 1) h
        (by show (t.val - 7 + s + 1) / 32 % 2 = t.val / 32 % 2; omega)
        (by show (t.val - 7 + s + 1) / 8 % 4 * 128 + i.val = t.val / 8 % 4 * 128 + i.val; omega) (by omega)))
  have key := TprAttn.running_blocks
    (fun s2 : Fin 512 => actV V c (⟨t.val / 32 % 2, Nat.mod_lt _ (by decide)⟩ : Fin 2) (⟨t.val / 8 % 4 * 128 + i.val, by omega⟩ : Fin 512) s2 cc)
    (fun s => accN V c (t.val - 7 + s) i cc) h0 hs
  have hA : accN V c (t.val - 7 + 7) i cc = acc0 V c t.val t.isLt (ix2 i cc) :=
    (accN_of_lt V c (t.val - 7 + 7) (by omega) i cc).trans (congrFun (acc0_congr V c (by omega) _ _) _)
  exact hA.symm.trans key

/-! ## What the group's last point writes back, and the cover -/

/-- The result array: entry `(b, T, cc)` is the row supremum. -/
def biasG (c : Dev nD) : S2x512x256.Idx → EReal := fun y => rowSup V c (y 0) (y 1) (y 2)

set_option maxHeartbeats 2000000 in
/-- The write-back at a group's last point is that point's block of `biasG`. -/
theorem flushed0_5_eq (c : Dev nD) (t : Fin cfg0.N) (hf : (cfg0.win 5).flush t = true) :
    (dat0 V c).flushed 5 t = ((cfg0.win 5).blk t).view.read (Elt Ideal) (biasG V c) := by
  have h7 : t.val % 8 = 7 := (flush0_5 t).mp hf
  have hN : cfg0.N = 64 := N_0
  have ht := t.isLt
  obtain ⟨-, -, -, e3, e4, e5, -⟩ := idx_facts0 t
  show (cfg0.win 5).cut (grid0.coords t) ((dat0 V c).after 5 t) = _
  rw [after0_5, outsAt_out V c t h7]
  funext y
  obtain ⟨u, i, cc, rfl⟩ : ∃ (u : Fin 1) (i : Fin 128) (cc : Fin 256), y = ix3 u i cc := ⟨y 0, y 1, y 2, eq_ix3 y⟩
  show k0_pay1 (F := Ideal) (acc0 V c t.val t.isLt) (ix3 u i cc) = biasG V c (((cfg0.win 5).blk t).view.emb (ix3 u i cc))
  rw [out_apply, acc_last_apply V c t h7]
  unfold biasG
  have hu := u.isLt
  have eb : (((cfg0.win 5).blk t).view.emb (ix3 u i cc)) 0 = (⟨t.val / 32 % 2, Nat.mod_lt _ (by decide)⟩ : Fin 2) :=
    Fin.ext (by show win0_5.index t (0 : Fin 3) * 1 + 1 * u.val = t.val / 32 % 2; omega)
  have eT : (((cfg0.win 5).blk t).view.emb (ix3 u i cc)) 1 = (⟨t.val / 8 % 4 * 128 + i.val, by have := i.isLt; omega⟩ : Fin 512) :=
    Fin.ext (by show win0_5.index t (1 : Fin 3) * 128 + 1 * i.val = t.val / 8 % 4 * 128 + i.val; omega)
  have ec : (((cfg0.win 5).blk t).view.emb (ix3 u i cc)) 2 = cc :=
    Fin.ext (by show win0_5.index t (2 : Fin 3) * 256 + 1 * cc.val = cc.val; omega)
  rw [eb, eT, ec]

/-- An index of the result array is in point `t`'s block iff each coordinate is in the block's range on its axis. -/
theorem mem_blk0_5 (t : Fin cfg0.N) (i : S2x512x256.Idx) :
    i ∈ ((cfg0.win 5).blk t).view.set ↔ ∀ a : Fin 3, win0_5.index t a * S1x128x256.size a ≤ (i a).val ∧ (i a).val < win0_5.index t a * S1x128x256.size a + S1x128x256.size a := by
  show i ∈ ((View.whole main_v21).slice (win0_5.rect t)).set ↔ _
  rw [View.set_slice_whole, Rect.mem_set_unit]
  exact Iff.rfl

/-- Every entry `(b, T, cc)` lies in the block the last point of group `(b, T / 128)` writes back. -/
theorem cover0_5 (i : S2x512x256.Idx) : ∃ t : Fin cfg0.N, (cfg0.win 5).flush t = true ∧ i ∈ ((cfg0.win 5).blk t).view.set := by
  have hN : cfg0.N = 64 := N_0
  have h0 : (i 0).val < 2 := (i 0).isLt
  have h1 : (i 1).val < 512 := (i 1).isLt
  have h2 : (i 2).val < 256 := (i 2).isLt
  have hlt : (i 0).val * 32 + (i 1).val / 128 * 8 + 7 < cfg0.N := by omega
  refine ⟨⟨(i 0).val * 32 + (i 1).val / 128 * 8 + 7, hlt⟩, (flush0_5 _).mpr (by show ((i 0).val * 32 + (i 1).val / 128 * 8 + 7) % 8 = 7; omega), ?_⟩
  rw [mem_blk0_5]
  obtain ⟨-, -, -, e3, e4, e5, -⟩ := idx_facts0 ⟨(i 0).val * 32 + (i 1).val / 128 * 8 + 7, hlt⟩
  have e3' : win0_5.index ⟨(i 0).val * 32 + (i 1).val / 128 * 8 + 7, hlt⟩ (0 : Fin 3) = ((i 0).val * 32 + (i 1).val / 128 * 8 + 7) / 32 := e3
  have e4' : win0_5.index ⟨(i 0).val * 32 + (i 1).val / 128 * 8 + 7, hlt⟩ (1 : Fin 3) = ((i 0).val * 32 + (i 1).val / 128 * 8 + 7) / 8 % 4 := e4
  intro a
  match a with
  | ⟨0, _⟩ => show win0_5.index _ (0 : Fin 3) * 1 ≤ (i 0).val ∧ (i 0).val < win0_5.index _ (0 : Fin 3) * 1 + 1; omega
  | ⟨1, _⟩ => show win0_5.index _ (1 : Fin 3) * 128 ≤ (i 1).val ∧ (i 1).val < win0_5.index _ (1 : Fin 3) * 128 + 128; omega
  | ⟨2, _⟩ => show win0_5.index _ (2 : Fin 3) * 256 ≤ (i 2).val ∧ (i 2).val < win0_5.index _ (2 : Fin 3) * 256 + 256; omega

/-- THE RESULT ARRAY after the region: every entry the row supremum. -/
theorem bias_final (c : Dev nD) : (dat0 V c).arrAt 5 cfg0.N = biasG V c :=
  (dat0 V c).arrAt_eq_of_cover 5 (biasG V c) (flushed0_5_eq V c) cover0_5

end Cert.KernelIdeal.Hand

end
-- ==== Proof.LibRowSoftmax.lean ====
/-
  General lemmas for kernels that take a softmax along the rows of a matrix and multiply matrices row by column,
  read at an index given by coordinates, on the extended reals. Independent of any program.

  * `expRows s` — every row of `s` minus its maximum, exponentiated — and `normRows e` — every row of `e` over its
    sum — are written with the vector operations a kernel body prints (a lane reduction, the result kept as a column,
    the column broadcast back along the row), with the shape facts and the accumulator facts as arguments, so that a
    printed body is such a term by `rfl`. `expRows_apply` and `normRows_apply` read them at `(p, j)`: the entry's
    distance below the fold of `max` over row `p`, exponentiated; the entry over the `Fin n` sum of row `p`.
  * `matmul_rows_cols_apply` — a product `[a, n] · [n, b]` into the zero accumulator, read at `(p, c)`, is the sum
    over `k : Fin n` of the left factor at `(p, k)` times the right factor at `(k, c)`; the two kept-axis coordinate
    facts of the dimension numbers are the caller's (they are decided on the printed record).
-/
import Idealize.ShloMosaic.PureOps
import Idealize.ShloMosaic.PureOps.Ideal.Laws
import Idealize.ShloMosaic.Lib.ValueIdx
import Idealize.ShloMosaic.Lib.Pipeline.Value

noncomputable section

open scoped BigOperators

namespace Cert.RowSoftmax

open Idealize.ShloMosaic Idealize.ShloMosaic.ValueIdx

section Layout

variable {α : Type} {a n : ℕ}

/-- A vector `[a]` kept as the column `[a, 1]` holds, at `(p, u)`, the vector's entry `p`. -/
theorem column_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, n]` holds, at `(p, c)`, the column's entry `p`. -/
theorem column_broadcast_apply (v : (⟨2, ![a, 1]⟩ : Shape).Idx → α)
    (h : (⟨2, ![a, 1]⟩ : Shape).Broadcasts ⟨2, ![a, n]⟩) (p : Fin a) (c : Fin n) :
    broadcastTo ⟨2, ![a, n]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `p` with the column coordinate `k` put back is the index `(p, k)`. -/
theorem row_lift (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

end Layout

section Terms

variable {F : FTy → Type} [FloatOps F] {a n : ℕ}

/-- Every row minus its maximum, exponentiated. -/
def expRows (s : FVec F ⟨2, ![a, n]⟩ .f32)
    (hr : (⟨2, ![a, n]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  exp (subf s (broadcastTo ⟨2, ![a, n]⟩
    (shapeCast ⟨2, ![a, 1]⟩ (multiReduction .maximumf [1] ⟨1, ![a]⟩ s 0xFF800000#32 hr hφ hacc) hc) hb))

/-- Every row over its sum. -/
def normRows (e : FVec F ⟨2, ![a, n]⟩ .f32)
    (hr : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  divf e (broadcastTo ⟨2, ![a, n]⟩
    (shapeCast ⟨2, ![a, 1]⟩ (multiReduction .add [1] ⟨1, ![a]⟩ e 0x00000000#32 hr hφ hacc) hc) hb)

end Terms

variable {a n : ℕ}

/-- Entry `(p, j)` of the exponentials: the exponential of the entry's distance below row `p`'s maximum, the
    maximum a fold of `max` from the accumulator word's value over the row. -/
theorem expRows_apply (s : FVec Ideal ⟨2, ![a, n]⟩ .f32)
    (hr : (⟨2, ![a, n]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    expRows s hr hφ hacc hc hb (ix2 p j)
      = Ideal.exp (s (ix2 p j)
          - (Finset.univ : Finset (Fin n)).fold max (Ideal.ofBits .f32 0xFF800000#32) (fun j' => s (ix2 p j'))) := by
  unfold expRows
  show Ideal.exp (s (ix2 p j) - broadcastTo ⟨2, ![a, n]⟩ _ hb (ix2 p j)) = _
  rw [column_broadcast_apply, column_apply]
  refine congrArg (fun x => Ideal.exp (s (ix2 p j) - x)) ?_
  exact (Ideal.multiReduction_maximumf_single s _ hr hφ hacc (ix1 p)).trans
    (congrArg (fun f => (Finset.univ : Finset (Fin n)).fold max (Ideal.ofBits .f32 0xFF800000#32) f)
      (funext fun k => congrArg s (row_lift hr p k)))

/-- Entry `(p, j)` of the normalised rows: the entry over the sum of row `p`. -/
theorem normRows_apply (e : FVec Ideal ⟨2, ![a, n]⟩ .f32)
    (hr : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    normRows e hr hφ hacc hc hb (ix2 p j) = Ideal.div (e (ix2 p j)) (∑ j' : Fin n, e (ix2 p j')) := by
  unfold normRows
  rw [divf_apply, column_broadcast_apply, column_apply]
  refine congrArg (Ideal.div (e (ix2 p j))) ?_
  exact (Ideal.multiReduction_add_single e _ hr hφ hacc (ix1 p)).trans
    (Finset.sum_congr rfl fun k _ => congrArg e (row_lift hr p k))

/-- A rows-by-columns product `[a, n] · [n, b]` into the zero accumulator, read at `(p, c)`: the sum over the shared
    axis of row `p` of the left factor against column `c` of the right one. The contracted coordinates follow from
    which axes are contracted; the kept ones (`hl0`, `hr1`) are the caller's. -/
theorem matmul_rows_cols_apply {b : ℕ} (d : DotDims ⟨2, ![a, n]⟩ ⟨2, ![n, b]⟩ ⟨2, ![a, b]⟩)
    (hr : d.contr.rank = 1) (hs : d.contr.size ⟨0, by omega⟩ = n)
    (hlc : d.lhsContracting = [1]) (hrc : d.rhsContracting = [0])
    (hl0 : ∀ (i : (⟨2, ![a, b]⟩ : Shape).Idx) (q : d.contr.Idx), (d.lhsIdx i q 0).val = (i 0).val)
    (hr1 : ∀ (i : (⟨2, ![a, b]⟩ : Shape).Idx) (q : d.contr.Idx), (d.rhsIdx i q 1).val = (i 1).val)
    {φ₁ φ₂ : FTy} (prec : Option ContractPrecision) (lhs : FVec Ideal ⟨2, ![a, n]⟩ φ₁) (rhs : FVec Ideal ⟨2, ![n, b]⟩ φ₂)
    (p : Fin a) (c : Fin b) :
    FloatOps.matmul d prec lhs rhs (constant ⟨2, ![a, b]⟩ .f32 0x00000000#32) (ix2 p c)
      = ∑ k : Fin n, lhs (ix2 p k) * rhs (ix2 k c) := by
  rw [Ideal.matmul_constant_zero_apply, ← Equiv.sum_comp (contrEquiv1 d n hr hs).symm]
  refine Finset.sum_congr rfl fun k _ => ?_
  have hk := contrEquiv1_symm_val d n hr hs k
  have hL : d.lhsIdx (ix2 p c) ((contrEquiv1 d n hr hs).symm k) = ix2 p k := by
    funext ax; apply Fin.ext
    match ax with
    | ⟨0, _⟩ => exact hl0 _ _
    | ⟨1, _⟩ => exact (d.lhsIdx_val_of_single hlc _ _).trans hk
  have hR : d.rhsIdx (ix2 p c) ((contrEquiv1 d n hr hs).symm k) = ix2 k c := by
    funext ax; apply Fin.ext
    match ax with
    | ⟨0, _⟩ => exact (d.rhsIdx_val_of_single hrc _ _).trans hk
    | ⟨1, _⟩ => exact hr1 _ _
  rw [hL, hR]

end Cert.RowSoftmax

end
-- ==== Proof.KIAttnValue.lean ====
/- The attention kernel's block at an index, on the extended reals.

   The body's one store writes the payload `k1_pay1 x0 x1 x2` of its three loaded blocks: x0 a batch of x as
   [1, 512, 256], x1 the same batch of the additive bias, x2 the joint projection matrix [256, 768]. Reading the
   payload's operations one at a time — the two leading-unit-axis casts and the sum x + bias; the product with the
   projection matrix; the three column ranges (queries, keys, values); the keys transposed; the scaled
   query-key products; each row minus its maximum, exponentiated; each row over its sum; the product with the
   values; the cast back to [1, 512, 256] — the entry (0, t, d) is the specification's attention output
   `TprAttn.out` at (b, t, d), for any arrays whose batch b is the two loaded blocks. -/
import proofs.«101855_j59579786330696_2_alg».proof.Proof.KIRegion1
import proofs.«101855_j59579786330696_2_alg».proof.Proof.Spec
import proofs.«101855_j59579786330696_2_alg».proof.Proof.LibRowSoftmax
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.ValueIdx
open scoped BigOperators

/-! ## The dimension numbers' kept coordinates -/

theorem dot1_l0 (i : S512x768.Idx) (q : dot_S512x256_S256x768_S512x768_1_0_0_1_n_n.contr.Idx) : (dot_S512x256_S256x768_S512x768_1_0_0_1_n_n.lhsIdx i q 0).val = (i 0).val := by
  unfold DotDims.lhsIdx
  rw [dif_neg (show ¬(0 : Fin S512x256.rank) ∈ dot_S512x256_S256x768_S512x768_1_0_0_1_n_n.lhsBatch by decide), dif_pos (show (0 : Fin S512x256.rank) ∈ dot_S512x256_S256x768_S512x768_1_0_0_1_n_n.lhsNonContracting by decide)]
  rfl
theorem dot1_r1 (i : S512x768.Idx) (q : dot_S512x256_S256x768_S512x768_1_0_0_1_n_n.contr.Idx) : (dot_S512x256_S256x768_S512x768_1_0_0_1_n_n.rhsIdx i q 1).val = (i 1).val := by
  unfold DotDims.rhsIdx
  rw [dif_neg (show ¬(1 : Fin S256x768.rank) ∈ dot_S512x256_S256x768_S512x768_1_0_0_1_n_n.rhsBatch by decide), dif_pos (show (1 : Fin S256x768.rank) ∈ dot_S512x256_S256x768_S512x768_1_0_0_1_n_n.rhsNonContracting by decide)]
  rfl

theorem dot2_l0 (i : S512x512.Idx) (q : dot_S512x256_S256x512_S512x512_1_0_0_1_n_n.contr.Idx) : (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
  rfl
theorem dot2_r1 (i : S512x512.Idx) (q : dot_S512x256_S256x512_S512x512_1_0_0_1_n_n.contr.Idx) : (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
  rfl

theorem dot3_l0 (i : S512x256.Idx) (q : dot_S512x512_S512x256_S512x256_1_0_0_1_n_n.contr.Idx) : (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem dot3_r1 (i : S512x256.Idx) (q : dot_S512x512_S512x256_S512x256_1_0_0_1_n_n.contr.Idx) : (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-- Single precision is a format the reductions take; their accumulator words are the operations' neutral elements. -/
theorem fmt32 : FKind.Formats .f32 := .inl rfl
theorem accMax : (0xFF800000#32 : BitVec 32) = FKind.maximumf.neutral .f32 fmt32 := rfl
theorem accAdd : (0x00000000#32 : BitVec 32) = FKind.add.neutral .f32 fmt32 := rfl

/-- The accumulator word of the row maximum is the bottom element. -/
theorem negInf_eq_bot : Ideal.ofBits .f32 0xFF800000#32 = (⊥ : EReal) := by simp [Ideal.ofBits, Ideal.ieee]

/-! ## The payload's stages -/

section Stages
variable (x0 x1 : Vec Ideal S1x512x256 .f32) (x2 : Vec Ideal S256x768 .f32)

/-- x plus the bias, as a [512, 256] matrix. -/
def aXB : FVec Ideal S512x256 .f32 :=
  addf (shapeCast S512x256 x0 shapeCasts_S1x512x256_S512x256) (shapeCast S512x256 x1 shapeCasts_S1x512x256_S512x256)
/-- The joint query/key/value projection. -/
def aQKV : FVec Ideal S512x768 .f32 :=
  matmul (φ₁ := .f32) (φ₂ := .f32) dot_S512x256_S256x768_S512x768_1_0_0_1_n_n (some .fp32) (aXB x0 x1) x2 (constant S512x768 .f32 0x00000000#32)
/-- Its three column ranges. -/
def aQ : FVec Ideal S512x256 .f32 := extractStridedSlice S512x256 ![0, 0] (aQKV x0 x1 x2) slices_S512x768_o0_0_S512x256
def aK : FVec Ideal S512x256 .f32 := extractStridedSlice S512x256 ![0, 256] (aQKV x0 x1 x2) slices_S512x768_o0_256_S512x256
def aV : FVec Ideal S512x256 .f32 := extractStridedSlice S512x256 ![0, 512] (aQKV x0 x1 x2) slices_S512x768_o0_512_S512x256
/-- The keys, transposed. -/
def aKT : FVec Ideal S256x512 .f32 := transpose S256x512 [1, 0] (aK x0 x1 x2) transposes_S512x256_p1_0_S256x512
/-- The scaled query-key products. -/
def aDots : FVec Ideal S512x512 .f32 :=
  mulf (matmul (φ₁ := .f32) (φ₂ := .f32) dot_S512x256_S256x512_S512x512_1_0_0_1_n_n (some .fp32) (aQ x0 x1 x2) (aKT x0 x1 x2) (constant S512x512 .f32 0x00000000#32))
    (broadcast S512x512 (Scalar.ofBits .f32 0x3D800000#32))
/-- Each row minus its maximum, exponentiated. -/
def aExp : FVec Ideal S512x512 .f32 :=
  Cert.RowSoftmax.expRows (a := 512) (n := 512) (aDots x0 x1 x2) reduces_S512x512_S512 fmt32 accMax shapeCasts_S512_S512x1 broadcasts_S512x1_S512x512
/-- Each row over its sum. -/
def aAttn : FVec Ideal S512x512 .f32 :=
  Cert.RowSoftmax.normRows (a := 512) (n := 512) (aExp x0 x1 x2) reduces_S512x512_S512 fmt32 accAdd shapeCasts_S512_S512x1 broadcasts_S512x1_S512x512
/-- The weights times the values. -/
def aOut : FVec Ideal S512x256 .f32 :=
  matmul (φ₁ := .f32) (φ₂ := .f32) dot_S512x512_S512x256_S512x256_1_0_0_1_n_n (some .fp32) (aAttn x0 x1 x2) (aV x0 x1 x2) (constant S512x256 .f32 0x00000000#32)

/-- The payload is the last stage with the leading unit axis put back. -/
theorem k1_pay1_eq_stages :
    k1_pay1 (F := Ideal) x0 x1 x2 = shapeCast S1x512x256 (aOut x0 x1 x2) shapeCasts_S512x256_S1x512x256 := rfl

/-! ## Each stage at an index -/

/-- A [1, 512, 256] block read as a [512, 256] matrix: entry (t, c) is the block's (0, t, c). -/
theorem dropLead_apply (x : Vec Ideal S1x512x256 .f32) (t : Fin 512) (c : Fin 256) :
    shapeCast S512x256 x shapeCasts_S1x512x256_S512x256 (ix2 t c) = x (ix3 (0 : Fin 1) t c) :=
  shapeCast_apply x _ _ _ (by
    rw [Shape.rowMajor_val_three, Shape.rowMajor_val_two]
    show ((0 : ℕ) * 512 + t.val) * 256 + c.val = t.val * 256 + c.val
    omega)

/-- A [512, 256] matrix stored as a [1, 512, 256] block: entry (0, t, d) is the matrix's (t, d). -/
theorem addLead_apply (y : FVec Ideal S512x256 .f32) (u : Fin 1) (t : Fin 512) (d : Fin 256) :
    shapeCast S1x512x256 y shapeCasts_S512x256_S1x512x256 (ix3 u t d) = y (ix2 t d) :=
  shapeCast_apply y _ _ _ (by
    have hu : u.val = 0 := by omega
    rw [Shape.rowMajor_val_three, Shape.rowMajor_val_two]
    show t.val * 256 + d.val = (u.val * 512 + t.val) * 256 + d.val
    omega)

theorem aXB_apply (t : Fin 512) (c : Fin 256) :
    aXB x0 x1 (ix2 t c) = x0 (ix3 (0 : Fin 1) t c) + x1 (ix3 (0 : Fin 1) t c) := by
  unfold aXB
  rw [addf_apply, dropLead_apply, dropLead_apply]

theorem aQKV_apply (t : Fin 512) (e : Fin 768) :
    aQKV x0 x1 x2 (ix2 t e) = ∑ c : Fin 256, aXB x0 x1 (ix2 t c) * x2 (ix2 c e) :=
  Cert.RowSoftmax.matmul_rows_cols_apply (φ₁ := .f32) (φ₂ := .f32) dot_S512x256_S256x768_S512x768_1_0_0_1_n_n rfl rfl rfl rfl dot1_l0 dot1_r1 (some .fp32) (aXB x0 x1) x2 t e

theorem aQ_apply (t : Fin 512) (d : Fin 256) : aQ x0 x1 x2 (ix2 t d) = aQKV x0 x1 x2 (ix2 t (TprAttn.qcol d)) :=
  extractStridedSlice_apply _ _ _ _ _ fun a => by
    match a with
    | ⟨0, _⟩ => show t.val = 0 + t.val; omega
    | ⟨1, _⟩ => show d.val = 0 + d.val; omega
theorem aK_apply (t : Fin 512) (d : Fin 256) : aK x0 x1 x2 (ix2 t d) = aQKV x0 x1 x2 (ix2 t (TprAttn.kcol d)) :=
  extractStridedSlice_apply _ _ _ _ _ fun a => by
    match a with
    | ⟨0, _⟩ => show t.val = 0 + t.val; omega
    | ⟨1, _⟩ => show 256 + d.val = 256 + d.val; rfl
theorem aV_apply (t : Fin 512) (d : Fin 256) : aV x0 x1 x2 (ix2 t d) = aQKV x0 x1 x2 (ix2 t (TprAttn.vcol d)) :=
  extractStridedSlice_apply _ _ _ _ _ fun a => by
    match a with
    | ⟨0, _⟩ => show t.val = 0 + t.val; omega
    | ⟨1, _⟩ => show 512 + d.val = 512 + d.val; rfl

theorem aKT_apply (d : Fin 256) (s : Fin 512) : aKT x0 x1 x2 (ix2 d s) = aK x0 x1 x2 (ix2 s d) :=
  transpose_apply _ _ _ _ _ fun b => by
    match b with
    | ⟨0, _⟩ => rfl
    | ⟨1, _⟩ => rfl

theorem aDots_apply (t s : Fin 512) :
    aDots x0 x1 x2 (ix2 t s) = (∑ d : Fin 256, aQ x0 x1 x2 (ix2 t d) * aKT x0 x1 x2 (ix2 d s)) * TprAttn.qkScale :=
  congrArg (fun z : EReal => z * TprAttn.qkScale)
    (Cert.RowSoftmax.matmul_rows_cols_apply (φ₁ := .f32) (φ₂ := .f32) dot_S512x256_S256x512_S512x512_1_0_0_1_n_n rfl rfl rfl rfl dot2_l0 dot2_r1 (some .fp32) (aQ x0 x1 x2) (aKT x0 x1 x2) t s)

theorem aExp_apply (t s : Fin 512) :
    aExp x0 x1 x2 (ix2 t s)
      = Ideal.exp (aDots x0 x1 x2 (ix2 t s) - Finset.univ.sup fun s' : Fin 512 => aDots x0 x1 x2 (ix2 t s')) := by
  unfold aExp
  rw [Cert.RowSoftmax.expRows_apply, negInf_eq_bot, TprAttn.fold_max_bot_eq_sup]

theorem aAttn_apply (t s : Fin 512) :
    aAttn x0 x1 x2 (ix2 t s) = Ideal.div (aExp x0 x1 x2 (ix2 t s)) (∑ s' : Fin 512, aExp x0 x1 x2 (ix2 t s')) := by
  unfold aAttn
  rw [Cert.RowSoftmax.normRows_apply]

theorem aOut_apply (t : Fin 512) (d : Fin 256) :
    aOut x0 x1 x2 (ix2 t d) = ∑ s : Fin 512, aAttn x0 x1 x2 (ix2 t s) * aV x0 x1 x2 (ix2 s d) :=
  Cert.RowSoftmax.matmul_rows_cols_apply (φ₁ := .f32) (φ₂ := .f32) dot_S512x512_S512x256_S512x256_1_0_0_1_n_n rfl rfl rfl rfl dot3_l0 dot3_r1 (some .fp32) (aAttn x0 x1 x2) (aV x0 x1 x2) t d

/-! ## The stages are the specification's -/

variable (X : TprAttn.A3 2 512 256) (BS : Fin 2 → Fin 512 → Fin 256 → EReal) (b : Fin 2)
  (hx : ∀ (t : Fin 512) (c : Fin 256), x0 (ix3 (0 : Fin 1) t c) = X (ix3 b t c))
  (hb : ∀ (t : Fin 512) (c : Fin 256), x1 (ix3 (0 : Fin 1) t c) = BS b t c)
include hx hb

theorem aXB_spec (t : Fin 512) (c : Fin 256) : aXB x0 x1 (ix2 t c) = TprAttn.xb X BS b t c := by
  rw [aXB_apply, hx, hb]; rfl

theorem aQKV_spec (t : Fin 512) (e : Fin 768) : aQKV x0 x1 x2 (ix2 t e) = TprAttn.qkv X BS x2 b t e := by
  rw [aQKV_apply]; unfold TprAttn.qkv
  exact Finset.sum_congr rfl fun c _ => by rw [aXB_spec x0 x1 X BS b hx hb]

theorem aDots_spec (t s : Fin 512) : aDots x0 x1 x2 (ix2 t s) = TprAttn.dots X BS x2 b t s := by
  rw [aDots_apply]; unfold TprAttn.dots
  refine congrArg (fun z : EReal => z * TprAttn.qkScale) (Finset.sum_congr rfl fun d _ => ?_)
  rw [aQ_apply, aKT_apply, aK_apply, aQKV_spec x0 x1 x2 X BS b hx hb, aQKV_spec x0 x1 x2 X BS b hx hb]

theorem aExp_spec (t s : Fin 512) : aExp x0 x1 x2 (ix2 t s) = TprAttn.p X BS x2 b t s := by
  rw [aExp_apply]; unfold TprAttn.p TprAttn.rowmax
  simp only [aDots_spec x0 x1 x2 X BS b hx hb]

theorem aAttn_spec (t s : Fin 512) : aAttn x0 x1 x2 (ix2 t s) = TprAttn.attn X BS x2 b t s := by
  rw [aAttn_apply]; unfold TprAttn.attn TprAttn.rowsum
  simp only [aExp_spec x0 x1 x2 X BS b hx hb]

theorem aOut_spec (t : Fin 512) (d : Fin 256) : aOut x0 x1 x2 (ix2 t d) = TprAttn.out X BS x2 b t d := by
  rw [aOut_apply]; unfold TprAttn.out
  exact Finset.sum_congr rfl fun s _ => by
    rw [aAttn_spec x0 x1 x2 X BS b hx hb, aV_apply, aQKV_spec x0 x1 x2 X BS b hx hb]

/-- The payload at (0, t, d) is the specification's attention output at (b, t, d). -/
theorem k1_pay1_apply (u : Fin 1) (t : Fin 512) (d : Fin 256) :
    k1_pay1 (F := Ideal) x0 x1 x2 (ix3 u t d) = TprAttn.out X BS x2 b t d := by
  rw [k1_pay1_eq_stages, addLead_apply, aOut_spec x0 x1 x2 X BS b hx hb]

/-- What the body leaves in the output window's buffer, at (0, t, d): the same. -/
theorem out1_3_apply (u : Fin 1) (t : Fin 512) (d : Fin 256) :
    out1_3 (F := Ideal) x0 x1 x2 (ix3 u t d) = TprAttn.out X BS x2 b t d := by
  have hz3 : (![0, 0, 0] : Fin 3 → ℕ) = fun _ => 0 := funext fun a => by
    match a with
    | ⟨0, _⟩ => rfl
    | ⟨1, _⟩ => rfl
    | ⟨2, _⟩ => rfl
  have hz2 : (![0, 0] : Fin 2 → ℕ) = fun _ => 0 := funext fun a => by
    match a with
    | ⟨0, _⟩ => rfl
    | ⟨1, _⟩ => rfl
  unfold out1_3
  rw [View.canon_unit_zero hz3]
  simp only [View.ld_unit_zero (S := S1x512x256) hz3, View.ld_unit_zero (S := S256x768) hz2]
  exact k1_pay1_apply x0 x1 x2 X BS b hx hb u t d

end Stages

end Cert.KernelIdeal.Hand

end
-- ==== Proof.KIAttnArray.lean ====
/- Region 1's result array, whole: whatever the region is entered with, after its two write-backs the result array
   holds, at (b, t, d), the specification's attention output computed from the three arrays the region reads — x,
   the additive bias and the projection matrix as entered.

   Point b of the two-point grid reads batch b of x and of the bias (the blocks' first block index is the point, the
   others are zero), the whole projection matrix, and writes batch b of the result; the two written blocks tile the
   result array. So each written block is the corresponding block of ONE whole-array function, and the array ends
   holding that function. -/
import proofs.«101855_j59579786330696_2_alg».proof.Proof.KIAttnValue
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-- The additive bias the region is entered with, by coordinates. -/
def biasIn (c : Dev nD) : Fin 2 → Fin 512 → Fin 256 → EReal :=
  fun b t k => (V c main_v21 : S2x512x256.Idx → Elt Ideal .f32) (ix3 b t k)

/-- The result array as one function of the region-entry contents. -/
def attnArr (c : Dev nD) : S2x512x256.Idx → Elt Ideal .f32 := fun i =>
  TprAttn.out (V c main_arg0 : S2x512x256.Idx → Elt Ideal .f32) (biasIn V c) (V c main_arg14 : S256x768.Idx → Elt Ideal .f32) (i 0) (i 1) (i 2)

/-- The printed index maps, decided over the two grid points: the batched windows' first block index is the point,
    every other block index is zero. -/
theorem idx_facts1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

/-- Window 0's block at point `t` is batch `t` of x. -/
theorem iblk1_0_apply (c : Dev nD) (t : Fin cfg1.N) (b : Fin 2) (hbt : b.val = t.val) (p : Fin 512) (k : Fin 256) :
    (iblk1 V c 0 t : Vec Ideal S1x512x256 .f32) (ix3 (0 : Fin 1) p k)
      = (V c main_arg0 : S2x512x256.Idx → Elt Ideal .f32) (ix3 b p k) := by
  obtain ⟨e0, e1, e2, -⟩ := idx_facts1 t
  unfold iblk1
  rw [View.read_apply]
  show V c main_arg0 _ = V c main_arg0 _
  congr 1
  funext a
  apply Fin.ext
  match a with
  | ⟨0, _⟩ => show win1_0.index t 0 * 1 + 1 * 0 = b.val; rw [e0]; omega
  | ⟨1, _⟩ => show win1_0.index t 1 * 512 + 1 * p.val = p.val; rw [e1]; omega
  | ⟨2, _⟩ => show win1_0.index t 2 * 256 + 1 * k.val = k.val; rw [e2]; omega

/-- Window 1's block at point `t` is batch `t` of the bias. -/
theorem iblk1_1_apply (c : Dev nD) (t : Fin cfg1.N) (b : Fin 2) (hbt : b.val = t.val) (p : Fin 512) (k : Fin 256) :
    (iblk1 V c 1 t : Vec Ideal S1x512x256 .f32) (ix3 (0 : Fin 1) p k) = biasIn V c b p k := by
  obtain ⟨-, -, -, e0, e1, e2, -⟩ := idx_facts1 t
  unfold iblk1 biasIn
  rw [View.read_apply]
  show V c main_v21 _ = V c main_v21 _
  congr 1
  funext a
  apply Fin.ext
  match a with
  | ⟨0, _⟩ => show win1_1.index t 0 * 1 + 1 * 0 = b.val; rw [e0]; omega
  | ⟨1, _⟩ => show win1_1.index t 1 * 512 + 1 * p.val = p.val; rw [e1]; omega
  | ⟨2, _⟩ => show win1_1.index t 2 * 256 + 1 * k.val = k.val; rw [e2]; omega

/-- Window 2's block at every point is the whole projection matrix. -/
theorem iblk1_2_eq (c : Dev nD) (t : Fin cfg1.N) :
    (iblk1 V c 2 t : Vec Ideal S256x768 .f32) = (V c main_arg14 : S256x768.Idx → Elt Ideal .f32) := by
  obtain ⟨-, -, -, -, -, -, e0, e1, -⟩ := idx_facts1 t
  funext y
  unfold iblk1
  rw [View.read_apply]
  show V c main_arg14 _ = V c main_arg14 _
  congr 1
  funext a
  apply Fin.ext
  match a with
  | ⟨0, _⟩ => show win1_2.index t 0 * 256 + 1 * (y 0).val = (y 0).val; rw [e0]; omega
  | ⟨1, _⟩ => show win1_2.index t 1 * 768 + 1 * (y 1).val = (y 1).val; rw [e1]; omega

/-- What point `t` writes back is block `t` of `attnArr`. -/
theorem flushed1_3_eq (c : Dev nD) (t : Fin cfg1.N) :
    (dat1 V c).flushed 3 t = ((cfg1.win 3).blk t).view.read (Elt Ideal) (attnArr V c) := by
  obtain ⟨-, -, -, -, -, -, -, -, e0, e1, e2⟩ := idx_facts1 t
  have ht : t.val < 2 := by have h := t.isLt; have hN : cfg1.N = 2 := N_1; omega
  show (cfg1.win 3).cut (grid1.coords t) ((dat1 V c).after 3 t) = _
  rw [after1_3]
  funext j
  obtain ⟨u, p, d, rfl⟩ : ∃ (u : Fin 1) (p : Fin 512) (d : Fin 256), j = ix3 u p d := ⟨j 0, j 1, j 2, eq_ix3 j⟩
  refine (out1_3_apply (iblk1 V c 0 t) (iblk1 V c 1 t) (iblk1 V c 2 t)
    (V c main_arg0 : S2x512x256.Idx → Elt Ideal .f32) (biasIn V c) ⟨t.val, ht⟩
    (fun p k => iblk1_0_apply V c t ⟨t.val, ht⟩ rfl p k) (fun p k => iblk1_1_apply V c t ⟨t.val, ht⟩ rfl p k) u p d).trans ?_
  rw [iblk1_2_eq V c t]
  show TprAttn.out _ _ _ (⟨t.val, ht⟩ : Fin 2) p d
    = TprAttn.out (V c main_arg0 : S2x512x256.Idx → Elt Ideal .f32) (biasIn V c) (V c main_arg14 : S256x768.Idx → Elt Ideal .f32)
        ((((cfg1.win 3).blk t).view.emb (ix3 u p d)) 0) ((((cfg1.win 3).blk t).view.emb (ix3 u p d)) 1) ((((cfg1.win 3).blk t).view.emb (ix3 u p d)) 2)
  have hu : u.val = 0 := by omega
  have h0 : (((cfg1.win 3).blk t).view.emb (ix3 u p d)) 0 = (⟨t.val, ht⟩ : Fin 2) :=
    Fin.ext (by show win1_3.index t 0 * 1 + 1 * u.val = t.val; rw [e0]; omega)
  have h1 : (((cfg1.win 3).blk t).view.emb (ix3 u p d)) 1 = p :=
    Fin.ext (by show win1_3.index t 1 * 512 + 1 * p.val = p.val; rw [e1]; omega)
  have h2 : (((cfg1.win 3).blk t).view.emb (ix3 u p d)) 2 = d :=
    Fin.ext (by show win1_3.index t 2 * 256 + 1 * d.val = d.val; rw [e2]; omega)
  rw [h0, h1, h2]

/-- The two written blocks tile the result array: batch `b` is point `b`'s. -/
theorem cover1_3_arr (i : S2x512x256.Idx) :
    ∃ t : Fin cfg1.N, (cfg1.win 3).flush t = true ∧ i ∈ ((cfg1.win 3).blk t).view.set := by
  have hi0 : (i 0).val < 2 := (i 0).isLt
  have hi1 : (i 1).val < 512 := (i 1).isLt
  have hi2 : (i 2).val < 256 := (i 2).isLt
  have hN : cfg1.N = 2 := N_1
  have hlt : (i 0).val < cfg1.N := by omega
  refine ⟨⟨(i 0).val, hlt⟩, flush1_3 _, ?_⟩
  obtain ⟨-, -, -, -, -, -, -, -, e0', e1, e2⟩ := idx_facts1 ⟨(i 0).val, hlt⟩
  have e0 : win1_3.index ⟨(i 0).val, hlt⟩ 0 = (i 0).val := e0'
  show i ∈ ((View.whole main_v22).slice (win1_3.rect ⟨(i 0).val, hlt⟩)).set
  rw [View.set_slice_whole, Rect.mem_set_unit]
  intro a
  match a with
  | ⟨0, _⟩ =>
    show win1_3.index ⟨(i 0).val, hlt⟩ 0 * 1 ≤ (i 0).val ∧ (i 0).val < win1_3.index ⟨(i 0).val, hlt⟩ 0 * 1 + 1
    rw [e0]; omega
  | ⟨1, _⟩ =>
    show win1_3.index ⟨(i 0).val, hlt⟩ 1 * 512 ≤ (i 1).val ∧ (i 1).val < win1_3.index ⟨(i 0).val, hlt⟩ 1 * 512 + 512
    rw [e1]; omega
  | ⟨2, _⟩ =>
    show win1_3.index ⟨(i 0).val, hlt⟩ 2 * 256 ≤ (i 2).val ∧ (i 2).val < win1_3.index ⟨(i 0).val, hlt⟩ 2 * 256 + 256
    rw [e2]; omega

/-- THE RESULT ARRAY after region 1: the attention output of the arrays the region is entered with. -/
theorem result_array (c : Dev nD) : (dat1 V c).arrAt 3 cfg1.N = attnArr V c :=
  (dat1 V c).arrAt_eq_of_cover 3 (attnArr V c) (fun t _ => flushed1_3_eq V c t) (cover1_3_arr)

end Cert.KernelIdeal.Hand

end
-- ==== Proof.KIRunValue.lean ====
/- The run of @main read at the result, on the extended reals: every weakly fair execution terminates with the
   result's buffer holding the specification's attention output computed from x and the projection matrix as
   launched and from the bias array region 0 leaves (its output array after its last write-back), and with the
   fifteen arguments as launched. -/
import proofs.«101855_j59579786330696_2_alg».proof.Proof.KIRun
import proofs.«101855_j59579786330696_2_alg».proof.Proof.KIAttnArray

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- x and the projection matrix reach region 1 as launched: no host operation writes them and region 0 stages neither. -/
theorem W2_main_arg0 (c : Dev nD) : W2 m ρ c (Proc.devRef .tc main_arg0) = m ((c : Thread nD τ).loc main_arg0) :=
  (W2_of_ne m ρ c main_arg0 (by decide)).trans ((W1_of m ρ c main_arg0 (by decide)).trans rfl)
theorem W2_main_arg14 (c : Dev nD) : W2 m ρ c (Proc.devRef .tc main_arg14) = m ((c : Thread nD τ).loc main_arg14) :=
  (W2_of_ne m ρ c main_arg14 (by decide)).trans ((W1_of m ρ c main_arg14 (by decide)).trans rfl)

/-- The bias array region 0 leaves: its output array after its last write-back. -/
def bias0 (c : Dev nD) : S2x512x256.Idx → Elt Ideal .f32 := (dat0 (V1 m ρ) c).arrAt 5 cfg0.N

/-- The result: the attention output of x as launched, region 0's bias array and the projection matrix as launched. -/
def resultOf (c : Dev nD) : S2x512x256.Idx → Elt Ideal .f32 := fun i =>
  TprAttn.out (m ((c : Thread nD τ).loc main_arg0) : S2x512x256.Idx → Elt Ideal .f32)
    (fun b t k => bias0 m ρ c (ix3 b t k))
    (m ((c : Thread nD τ).loc main_arg14) : S256x768.Idx → Elt Ideal .f32) (i 0) (i 1) (i 2)

/-- The result's buffer at the end of the run. -/
theorem W3_result_value (c : Dev nD) : W3 m ρ c (Proc.devRef .tc main_v22) = resultOf m ρ c := by
  rw [W3_result, result_array]
  unfold attnArr biasIn resultOf bias0
  show (fun i : S2x512x256.Idx => TprAttn.out (W2 m ρ c (Proc.devRef .tc main_arg0) : S2x512x256.Idx → Elt Ideal .f32)
      (fun b t k => (W2 m ρ c (Proc.devRef .tc main_v21) : S2x512x256.Idx → Elt Ideal .f32) (ix3 b t k))
      (W2 m ρ c (Proc.devRef .tc main_arg14) : S256x768.Idx → Elt Ideal .f32) (i 0) (i 1) (i 2)) = _
  rw [W2_main_arg0, W2_main_arg14, W2_bias]

/-- THE RUN, READ AT THE RESULT: the result's buffer at `resultOf`, the arguments as launched. -/
theorem run_result : θ_run defs (onTc (τ := τ) (main (F := Ideal))) ⟨m, fun _ => 0, ρ⟩ (fun r => ∀ c : Dev nD,
      r.2.mem ((c.tc : Thread nD τ).loc main_v22) = resultOf m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c _ (mem_uc main_v22 (by decide))).trans (W3_result_value m ρ c),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c),
      (h c _ (mem_uc main_arg7 (by decide))).trans (W3_main_arg7 m ρ c),
      (h c _ (mem_uc main_arg8 (by decide))).trans (W3_main_arg8 m ρ c),
      (h c _ (mem_uc main_arg9 (by decide))).trans (W3_main_arg9 m ρ c),
      (h c _ (mem_uc main_arg10 (by decide))).trans (W3_main_arg10 m ρ c),
      (h c _ (mem_uc main_arg11 (by decide))).trans (W3_main_arg11 m ρ c),
      (h c _ (mem_uc main_arg12 (by decide))).trans (W3_main_arg12 m ρ c),
      (h c _ (mem_uc main_arg13 (by decide))).trans (W3_main_arg13 m ρ c),
      (h c _ (mem_uc main_arg14 (by decide))).trans (W3_main_arg14 m ρ c)⟩) (run m ρ)

/-- When region 0's bias array is the specification's bias of the inputs `a`, and x and the projection matrix as
    launched are `a`'s, the result is the specification's whole result. -/
theorem resultOf_eq_K (c : Dev nD) (a : TprAttn.Inputs)
    (hx : (m ((c : Thread nD τ).loc main_arg0) : S2x512x256.Idx → Elt Ideal .f32) = a.x)
    (hw : (m ((c : Thread nD τ).loc main_arg14) : S256x768.Idx → Elt Ideal .f32) = a.wqkv)
    (hbias : ∀ (b : Fin 2) (t : Fin 512) (k : Fin 256), bias0 m ρ c (ix3 b t k) = TprAttn.bias a b t k) :
    resultOf m ρ c = TprAttn.K a := by
  unfold resultOf TprAttn.K
  rw [hx, hw, show (fun b t k => bias0 m ρ c (ix3 b t k)) = TprAttn.bias a from funext fun b => funext fun t => funext fun k => hbias b t k]

end Cert.KernelIdeal.Hand

end
-- ==== Proof.KernelInputs.lean ====
/-
  The fifteen argument arrays as the idealised kernel's device finds them in a memory.
-/
import proofs.«101855_j59579786330696_2_alg».proof.KernelIdeal
import proofs.«101855_j59579786330696_2_alg».proof.Proof.Spec

noncomputable section

namespace TprAttn

open Idealize.ShloMosaic Idealize.ShloMosaic.TcCoe Idealize.SL.Sem

/-- The fifteen argument arrays as the idealised kernel's device c finds them in a memory. -/
def kernelInputs (m : (ℓ : Loc Cert.KernelIdeal.nD Cert.KernelIdeal.τ Cert.KernelIdeal.sig) → Buf (Elt Ideal) ℓ) (c : Dev Cert.KernelIdeal.nD) : Inputs where
  x := m ((c.tc : Thread Cert.KernelIdeal.nD Cert.KernelIdeal.τ).loc Cert.KernelIdeal.main_arg0)
  r := m ((c.tc : Thread Cert.KernelIdeal.nD Cert.KernelIdeal.τ).loc Cert.KernelIdeal.main_arg1)
  w1 := m ((c.tc : Thread Cert.KernelIdeal.nD Cert.KernelIdeal.τ).loc Cert.KernelIdeal.main_arg2)
  b1 := m ((c.tc : Thread Cert.KernelIdeal.nD Cert.KernelIdeal.τ).loc Cert.KernelIdeal.main_arg3)
  g1 := m ((c.tc : Thread Cert.KernelIdeal.nD Cert.KernelIdeal.τ).loc Cert.KernelIdeal.main_arg4)
  be1 := m ((c.tc : Thread Cert.KernelIdeal.nD Cert.KernelIdeal.τ).loc Cert.KernelIdeal.main_arg5)
  m1 := m ((c.tc : Thread Cert.KernelIdeal.nD Cert.KernelIdeal.τ).loc Cert.KernelIdeal.main_arg6)
  v1 := m ((c.tc : Thread Cert.KernelIdeal.nD Cert.KernelIdeal.τ).loc Cert.KernelIdeal.main_arg7)
  w2 := m ((c.tc : Thread Cert.KernelIdeal.nD Cert.KernelIdeal.τ).loc Cert.KernelIdeal.main_arg8)
  b2 := m ((c.tc : Thread Cert.KernelIdeal.nD Cert.KernelIdeal.τ).loc Cert.KernelIdeal.main_arg9)
  g2 := m ((c.tc : Thread Cert.KernelIdeal.nD Cert.KernelIdeal.τ).loc Cert.KernelIdeal.main_arg10)
  be2 := m ((c.tc : Thread Cert.KernelIdeal.nD Cert.KernelIdeal.τ).loc Cert.KernelIdeal.main_arg11)
  m2 := m ((c.tc : Thread Cert.KernelIdeal.nD Cert.KernelIdeal.τ).loc Cert.KernelIdeal.main_arg12)
  v2 := m ((c.tc : Thread Cert.KernelIdeal.nD Cert.KernelIdeal.τ).loc Cert.KernelIdeal.main_arg13)
  wqkv := m ((c.tc : Thread Cert.KernelIdeal.nD Cert.KernelIdeal.τ).loc Cert.KernelIdeal.main_arg14)

end TprAttn

end
-- ==== Proof.KIHostGlue.lean ====
/-
  The arrays the host computes before the first region, read at an index: the folded weights and
  offsets of the two layers (scale = g * rsqrt (v + eps); weight * scale; (b - m) * scale + be), and
  the point features with their last two axes merged (entry (b, t, k) of the merged array is entry
  (b, t, k / 12, k % 12) of the argument).
-/
import proofs.«101855_j59579786330696_2_alg».proof.Proof.KIRun
import proofs.«101855_j59579786330696_2_alg».proof.Proof.KernelInputs
import Idealize.ShloMosaic.Lib.Pipeline.Value
import Idealize.ShloMosaic.Lib.ValueIdx

set_option maxRecDepth 16384

noncomputable section

namespace TprAttn.KIGlue

open Cert.KernelIdeal Cert.KernelIdeal.Gen Cert.KernelIdeal.Hand Cert.KernelIdeal.Facts
open Idealize.ShloMosaic Idealize.ShloMosaic.TcCoe Idealize.ShloMosaic.ValueIdx Idealize.SL.Sem
open Idealize.ShloMosaic.StableHlo TprAttn

variable (m : (ℓ : Loc nD τ sig) → Buf (Elt Ideal) ℓ) (ρ : Dev nD → PrngReg)

/-- A row vector broadcast first to one row and then to n0 rows reads, at (d, h), its entry h. -/
theorem bcast_rows_at {α : Type} {n0 n1 : ℕ} (hn : n1 ≠ 1) (x : (⟨1, ![n1]⟩ : Shape).Idx → α)
    (bc1 : (⟨1, ![n1]⟩ : Shape).BroadcastsInDim (⟨2, ![1, n1]⟩ : Shape) ![1])
    (bc2 : (⟨2, ![1, n1]⟩ : Shape).BroadcastsInDim (⟨2, ![n0, n1]⟩ : Shape) ![0, 1]) (d : Fin n0) (h : Fin n1) :
    broadcastInDim (⟨2, ![n0, n1]⟩ : Shape) ![0, 1] bc2 (broadcastInDim (⟨2, ![1, n1]⟩ : Shape) ![1] bc1 x) (ix2 d h)
      = x (ix1 h) := by
  rw [broadcastInDim_apply ![0, 1] bc2 _ (ix2 d h) (ix2 (0 : Fin 1) h) (fun a => match a with
    | ⟨0, _⟩ => by show 0 = if (1 : Nat) = 1 then 0 else d.val; rw [if_pos rfl]
    | ⟨1, _⟩ => by show h.val = if n1 = 1 then 0 else h.val; rw [if_neg hn])]
  exact broadcastInDim_apply ![1] bc1 x (ix2 (0 : Fin 1) h) (ix1 h) (fun a => match a with
    | ⟨0, _⟩ => by show h.val = if n1 = 1 then 0 else h.val; rw [if_neg hn])

/-! ## The host's arrays as terms of the arguments -/

theorem W1_v3_eq (c : Dev nD) :
    (W1 (F := Ideal) m ρ c (Proc.devRef .tc main_v3) : S32.Idx → EReal)
      = mulf (m ((c : Thread nD τ).loc main_arg4)) (Host.rsqrt (F := Ideal) (addf (m ((c : Thread nD τ).loc main_arg7))
          (broadcastInDim S32 ![] bcast_S_S32 (constant (F := Ideal) S_ .f32 0x3727C5AC#32)))) := by
  dsimp only [W1]
  after_results <;> rfl

theorem W1_v13_eq (c : Dev nD) :
    (W1 (F := Ideal) m ρ c (Proc.devRef .tc main_v13) : S256.Idx → EReal)
      = mulf (m ((c : Thread nD τ).loc main_arg10)) (Host.rsqrt (F := Ideal) (addf (m ((c : Thread nD τ).loc main_arg13))
          (broadcastInDim S256 ![] bcast_S_S256 (constant (F := Ideal) S_ .f32 0x3727C5AC#32)))) := by
  dsimp only [W1]
  after_results <;> rfl

/-- The first layer's scale at channel h. -/
theorem scale1_at (c : Dev nD) (h : Fin 32) :
    (W1 (F := Ideal) m ρ c (Proc.devRef .tc main_v3) : S32.Idx → EReal) (ix1 h) = scale1 (kernelInputs m c) h := by
  rw [W1_v3_eq]; rfl

/-- The second layer's scale at channel c'. -/
theorem scale2_at (c : Dev nD) (c' : Fin 256) :
    (W1 (F := Ideal) m ρ c (Proc.devRef .tc main_v13) : S256.Idx → EReal) (ix1 c') = scale2 (kernelInputs m c) c' := by
  rw [W1_v13_eq]; rfl

theorem W1_v6_eq (c : Dev nD) :
    (W1 (F := Ideal) m ρ c (Proc.devRef .tc main_v6) : S12x32.Idx → EReal)
      = mulf (F := Ideal) (φ := .f32) (m ((c : Thread nD τ).loc main_arg2)) (broadcastInDim S12x32 ![0, 1] bcast_S1x32_S12x32_0_1
          (broadcastInDim S1x32 ![1] bcast_S32_S1x32_1 (W1 (F := Ideal) m ρ c (Proc.devRef .tc main_v3) : S32.Idx → EReal))) := by
  dsimp only [W1]
  after_results <;> rfl

/-- The folded first-layer weight at (d, h). -/
theorem w1f_at (c : Dev nD) (d : Fin 12) (h : Fin 32) :
    (W1 (F := Ideal) m ρ c (Proc.devRef .tc main_v6) : S12x32.Idx → EReal) (ix2 d h) = w1f (kernelInputs m c) d h := by
  rw [W1_v6_eq]
  refine (mulf_apply (s := S12x32) (φ := .f32) _ _ (ix2 d h)).trans ?_
  rw [bcast_rows_at (by decide) _ _ _ d h, scale1_at]
  rfl

theorem W1_v9_eq (c : Dev nD) :
    (W1 (F := Ideal) m ρ c (Proc.devRef .tc main_v9) : S32.Idx → EReal)
      = addf (F := Ideal) (φ := .f32) (s := S32) (mulf (F := Ideal) (φ := .f32) (subf (F := Ideal) (φ := .f32) (m ((c : Thread nD τ).loc main_arg3)) (m ((c : Thread nD τ).loc main_arg6)))
          (W1 (F := Ideal) m ρ c (Proc.devRef .tc main_v3) : S32.Idx → EReal)) (m ((c : Thread nD τ).loc main_arg5)) := by
  dsimp only [W1]
  after_results <;> rfl

/-- The folded first-layer offset at h. -/
theorem b1f_at (c : Dev nD) (h : Fin 32) :
    (W1 (F := Ideal) m ρ c (Proc.devRef .tc main_v9) : S32.Idx → EReal) (ix1 h) = b1f (kernelInputs m c) h := by
  rw [W1_v9_eq]
  refine (addf_apply (s := S32) (φ := .f32) _ _ (ix1 h)).trans ?_
  refine (congrArg (· + _) (mulf_apply (s := S32) (φ := .f32) _ _ (ix1 h))).trans ?_
  rw [scale1_at]
  rfl

set_option maxHeartbeats 4000000 in
theorem W1_v16_eq (c : Dev nD) :
    (W1 (F := Ideal) m ρ c (Proc.devRef .tc main_v16) : S32x256.Idx → EReal)
      = mulf (F := Ideal) (φ := .f32) (m ((c : Thread nD τ).loc main_arg8)) (broadcastInDim S32x256 ![0, 1] bcast_S1x256_S32x256_0_1
          (broadcastInDim S1x256 ![1] bcast_S256_S1x256_1 (W1 (F := Ideal) m ρ c (Proc.devRef .tc main_v13) : S256.Idx → EReal))) := by
  dsimp only [W1]
  after_results <;> rfl

/-- The folded second-layer weight at (h, c'). -/
theorem w2f_at (c : Dev nD) (h : Fin 32) (c' : Fin 256) :
    (W1 (F := Ideal) m ρ c (Proc.devRef .tc main_v16) : S32x256.Idx → EReal) (ix2 h c') = w2f (kernelInputs m c) h c' := by
  rw [W1_v16_eq]
  refine (mulf_apply (s := S32x256) (φ := .f32) _ _ (ix2 h c')).trans ?_
  rw [bcast_rows_at (by decide) _ _ _ h c', scale2_at]
  rfl

set_option maxHeartbeats 4000000 in
theorem W1_v19_eq (c : Dev nD) :
    (W1 (F := Ideal) m ρ c (Proc.devRef .tc main_v19) : S256.Idx → EReal)
      = addf (F := Ideal) (φ := .f32) (s := S256) (mulf (F := Ideal) (φ := .f32) (subf (F := Ideal) (φ := .f32) (m ((c : Thread nD τ).loc main_arg9)) (m ((c : Thread nD τ).loc main_arg12)))
          (W1 (F := Ideal) m ρ c (Proc.devRef .tc main_v13) : S256.Idx → EReal)) (m ((c : Thread nD τ).loc main_arg11)) := by
  dsimp only [W1]
  after_results <;> rfl

/-- The folded second-layer offset at c'. -/
theorem b2f_at (c : Dev nD) (c' : Fin 256) :
    (W1 (F := Ideal) m ρ c (Proc.devRef .tc main_v19) : S256.Idx → EReal) (ix1 c') = b2f (kernelInputs m c) c' := by
  rw [W1_v19_eq]
  refine (addf_apply (s := S256) (φ := .f32) _ _ (ix1 c')).trans ?_
  refine (congrArg (· + _) (mulf_apply (s := S256) (φ := .f32) _ _ (ix1 c'))).trans ?_
  rw [scale2_at]
  rfl

theorem W1_v20_eq (c : Dev nD) :
    (W1 (F := Ideal) m ρ c (Proc.devRef .tc main_v20) : S2x512x6144.Idx → EReal)
      = shapeCast S2x512x6144 (m ((c : Thread nD τ).loc main_arg1)) shapeCasts_S2x512x512x12_S2x512x6144 := by
  dsimp only [W1]
  after_results <;> rfl

/-- The merged point features at (b, t, k): the argument's entry (b, t, k / 12, k % 12). -/
theorem r_at (c : Dev nD) (b : Fin 2) (t : Fin 512) (k : Fin 6144) :
    (W1 (F := Ideal) m ρ c (Proc.devRef .tc main_v20) : S2x512x6144.Idx → EReal) (ix3 b t k)
      = (kernelInputs m c).r (ix4 b t (⟨k.val / 12, by have := k.isLt; omega⟩ : Fin 512) (⟨k.val % 12, Nat.mod_lt _ (by decide)⟩ : Fin 12)) := by
  rw [W1_v20_eq]
  refine shapeCast_apply _ _ (ix3 b t k) _ ?_
  show ((⟨4, ![2, 512, 512, 12]⟩ : Shape).rowMajor _).val = ((⟨3, ![2, 512, 6144]⟩ : Shape).rowMajor _).val
  rw [Shape.rowMajor_val_four, Shape.rowMajor_val_three]
  show ((b.val * 512 + t.val) * 512 + k.val / 12) * 12 + k.val % 12 = (b.val * 512 + t.val) * 6144 + k.val
  have := Nat.div_add_mod k.val 12
  omega

end TprAttn.KIGlue

end
-- ==== Proof.KIValue.lean ====
/- The kernel's result is the specification's: the bias array region 0 leaves is, entry by entry, the supremum
   over the second point axis of the two-layer activations computed from the folded weights the host operations
   leave — and those are the specification's folded weights of the argument arrays, the point features being read
   with their last two axes merged (entry s * 12 + d of the merged axis is entry (s, d)). With region 1's
   attention over that bias, the result buffer at the end of the run is the specification's whole result. -/
import proofs.«101855_j59579786330696_2_alg».proof.Proof.KIRegion0Array
import proofs.«101855_j59579786330696_2_alg».proof.Proof.KIRunValue
import proofs.«101855_j59579786330696_2_alg».proof.Proof.KIHostGlue

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open scoped BigOperators

variable (m : (ℓ : Loc nD τ sig) → Buf (Elt Ideal) ℓ) (ρ : Dev nD → PrngReg)

/-- The activations computed from the arrays the host operations leave are the specification's. -/
theorem actV_eq (c : Dev nD) (b : Fin 2) (t s : Fin 512) (k : Fin 256) :
    actV (V1 m ρ) c b t s k = TprAttn.act (TprAttn.kernelInputs m c) b t s k := by
  have hW1 : ∀ (d : Fin 12) (h : Fin 32), arrW1 (V1 m ρ) c (ix2 d h) = TprAttn.w1f (TprAttn.kernelInputs m c) d h :=
    fun d h => TprAttn.KIGlue.w1f_at m ρ c d h
  have hB1 : ∀ h : Fin 32, arrB1 (V1 m ρ) c (ix1 h) = TprAttn.b1f (TprAttn.kernelInputs m c) h :=
    fun h => TprAttn.KIGlue.b1f_at m ρ c h
  have hW2 : ∀ (h : Fin 32) (k' : Fin 256), arrW2 (V1 m ρ) c (ix2 h k') = TprAttn.w2f (TprAttn.kernelInputs m c) h k' :=
    fun h k' => TprAttn.KIGlue.w2f_at m ρ c h k'
  have hB2 : ∀ k' : Fin 256, arrB2 (V1 m ρ) c (ix1 k') = TprAttn.b2f (TprAttn.kernelInputs m c) k' :=
    fun k' => TprAttn.KIGlue.b2f_at m ρ c k'
  have hR : ∀ (d : Fin 12) (hlt : s.val * 12 + d.val < 6144),
      arrR (V1 m ρ) c (ix3 b t ⟨s.val * 12 + d.val, hlt⟩) = (TprAttn.kernelInputs m c).r (ix4 b t s d) := fun d hlt => by
    refine (TprAttn.KIGlue.r_at m ρ c b t ⟨s.val * 12 + d.val, hlt⟩).trans ?_
    have hq : (⟨(s.val * 12 + d.val) / 12, by have := s.isLt; have := d.isLt; omega⟩ : Fin 512) = s :=
      Fin.ext (by show (s.val * 12 + d.val) / 12 = s.val; have := d.isLt; omega)
    have hr : (⟨(s.val * 12 + d.val) % 12, Nat.mod_lt _ (by decide)⟩ : Fin 12) = d :=
      Fin.ext (by show (s.val * 12 + d.val) % 12 = d.val; have := d.isLt; omega)
    exact congrArg₂ (fun (q : Fin 512) (r : Fin 12) => (TprAttn.kernelInputs m c).r (ix4 b t q r)) hq hr
  unfold actV TprAttn.act TprAttn.hid
  simp only [hW1, hB1, hW2, hB2, hR]

/-- The bias array region 0 leaves is the specification's bias of the argument arrays. -/
theorem bias0_eq (c : Dev nD) (b : Fin 2) (t : Fin 512) (k : Fin 256) :
    bias0 m ρ c (ix3 b t k) = TprAttn.bias (TprAttn.kernelInputs m c) b t k := by
  unfold bias0
  rw [bias_final]
  unfold biasG TprAttn.bias
  show (Finset.univ.sup fun s : Fin 512 => actV (V1 m ρ) c b t s k) = _
  simp only [actV_eq]

/-- The result buffer at the end of the run holds the specification's whole result. -/
theorem kernel_value (c : Dev nD) : resultOf m ρ c = TprAttn.K (TprAttn.kernelInputs m c) :=
  resultOf_eq_K m ρ c (TprAttn.kernelInputs m c) rfl rfl (bias0_eq m ρ c)

/-- THE RUN, READ AT THE SPECIFICATION: every weakly fair execution terminates with the result's buffer at the
    specification's result of the arguments as launched, and the arguments unchanged. -/
theorem run_K : θ_run defs (onTc (τ := τ) (main (F := Ideal))) ⟨m, fun _ => 0, ρ⟩ (fun r => ∀ c : Dev nD,
      r.2.mem ((c.tc : Thread nD τ).loc main_v22) = TprAttn.K (TprAttn.kernelInputs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c).1.trans (kernel_value m ρ c), (h c).2⟩) (run_result m ρ)

end Cert.KernelIdeal.Hand

end
-- ==== Proof.RefSpec.lean ====
/-
  The same result in the reference's arrangement: each normalisation is applied after its
  contraction, as  ((sum + b - m) * rsqrt (v + eps)) * g + be,  followed by the maximum with zero.
  Everything after the supremum over the second point axis is the attention of the specification,
  applied to this other bias.
-/
import proofs.«101855_j59579786330696_2_alg».proof.Proof.Spec

noncomputable section

namespace TprAttn

open Idealize.ShloMosaic Idealize.ShloMosaic.ValueIdx
open scoped BigOperators

/-- Hidden activations, normalisation applied after the contraction. -/
def hidR (a : Inputs) (b : Fin 2) (t s : Fin 512) (h : Fin 32) : EReal :=
  max (((((∑ d : Fin 12, a.r (ix4 b t s d) * a.w1 (ix2 d h)) + a.b1 (ix1 h)) - a.m1 (ix1 h))
      * Ideal.rsqrt (a.v1 (ix1 h) + eps)) * a.g1 (ix1 h) + a.be1 (ix1 h)) 0
/-- Output activations, normalisation applied after the contraction. -/
def actR (a : Inputs) (b : Fin 2) (t s : Fin 512) (c : Fin 256) : EReal :=
  max (((((∑ h : Fin 32, hidR a b t s h * a.w2 (ix2 h c)) + a.b2 (ix1 c)) - a.m2 (ix1 c))
      * Ideal.rsqrt (a.v2 (ix1 c) + eps)) * a.g2 (ix1 c) + a.be2 (ix1 c)) 0
/-- Their supremum over the second point axis. -/
def biasR (a : Inputs) (b : Fin 2) (t : Fin 512) (c : Fin 256) : EReal :=
  Finset.univ.sup fun s : Fin 512 => actR a b t s c

/-- The whole result, in the reference's arrangement. -/
def R (a : Inputs) : A3 2 512 256 := fun i => out a.x (biasR a) a.wqkv (i 0) (i 1) (i 2)

theorem R_ix3 (a : Inputs) (b : Fin 2) (t : Fin 512) (d : Fin 256) :
    R a (ix3 b t d) = out a.x (biasR a) a.wqkv b t d := rfl

end TprAttn

end
-- ==== Proof.RefRead1.lean ====
/-
  The reference's first stage read at an index: the two layers of the perceptron, each a
  contraction followed by the affine normalisation and the maximum with zero.
-/
import proofs.«101855_j59579786330696_2_alg».proof.Proof.Gen.ReferenceIdeal.Read
import proofs.«101855_j59579786330696_2_alg».proof.Proof.Spec
import proofs.«101855_j59579786330696_2_alg».proof.Proof.RefSpec

noncomputable section

namespace TprAttn.RefRead

open Cert.ReferenceIdeal Cert.ReferenceIdeal.Read Idealize.ShloMosaic Idealize.ShloMosaic.ValueIdx TprAttn
open scoped BigOperators

variable (a : Inputs)

/-- The hidden activations of the reference at (b, t, s, h). -/
theorem v19_at (b : Fin 2) (t s : Fin 512) (h : Fin 32) :
    val_main_v19 (F := Ideal) a.r a.w1 a.b1 a.g1 a.be1 a.m1 a.v1 (ix4 b t s h) = hidR a b t s h := by
  have el : ∀ k : Fin 12, lidx_main_v0 (ix4 b t s h) k = ix4 b t s k := fun k => funext fun e => Fin.ext (by
    match e with | ⟨0, _⟩ => rfl | ⟨1, _⟩ => rfl | ⟨2, _⟩ => rfl | ⟨3, _⟩ => rfl)
  have er : ∀ k : Fin 12, ridx_main_v0 (ix4 b t s h) k = ix2 k h := fun k => funext fun e => Fin.ext (by
    match e with | ⟨0, _⟩ => rfl | ⟨1, _⟩ => rfl)
  have e1 : idx_main_v1 (idx_main_v2 (ix4 b t s h)) = ix1 h := funext fun e => Fin.ext (by
    match e with | ⟨0, _⟩ => rfl)
  have e4 : idx_main_v4 (idx_main_v5 (ix4 b t s h)) = ix1 h := funext fun e => Fin.ext (by
    match e with | ⟨0, _⟩ => rfl)
  have e10 : idx_main_v10 (idx_main_v11 (ix4 b t s h)) = ix1 h := funext fun e => Fin.ext (by
    match e with | ⟨0, _⟩ => rfl)
  have e13 : idx_main_v13 (idx_main_v14 (ix4 b t s h)) = ix1 h := funext fun e => Fin.ext (by
    match e with | ⟨0, _⟩ => rfl)
  have e16 : idx_main_v16 (idx_main_v17 (ix4 b t s h)) = ix1 h := funext fun e => Fin.ext (by
    match e with | ⟨0, _⟩ => rfl)
  rw [val_main_v19_apply, val_main_v18_apply, val_main_v15_apply, val_main_v12_apply, val_main_v6_apply,
    val_main_v3_apply, val_main_v0_apply, val_main_v2_apply, val_main_v1_apply, val_main_v5_apply, val_main_v4_apply,
    val_main_v11_apply, val_main_v10_apply, val_main_v9_apply, val_main_v8_apply, val_main_v7_apply,
    val_main_cst_apply, val_main_v14_apply, val_main_v13_apply, val_main_v17_apply, val_main_v16_apply,
    val_main_call0_v0_apply, val_main_call0_cst_apply, e1, e4, e10, e13, e16]
  simp only [el, er, Ideal.maximumf_def, Ideal.addf_def, Ideal.mulf_def, Ideal.subf_def, Ideal.hostUnary_rsqrt_def,
    Ideal.ofBits_def, Ideal.ofBits_zero_f32]
  rfl

/-- The output activations of the reference at (b, t, s, c). -/
theorem v39_at (b : Fin 2) (t s : Fin 512) (c : Fin 256) :
    val_main_v39 (F := Ideal) a.r a.w1 a.b1 a.g1 a.be1 a.m1 a.v1 a.w2 a.b2 a.g2 a.be2 a.m2 a.v2 (ix4 b t s c)
      = actR a b t s c := by
  have el : ∀ k : Fin 32, lidx_main_v20 (ix4 b t s c) k = ix4 b t s k := fun k => funext fun e => Fin.ext (by
    match e with | ⟨0, _⟩ => rfl | ⟨1, _⟩ => rfl | ⟨2, _⟩ => rfl | ⟨3, _⟩ => rfl)
  have er : ∀ k : Fin 32, ridx_main_v20 (ix4 b t s c) k = ix2 k c := fun k => funext fun e => Fin.ext (by
    match e with | ⟨0, _⟩ => rfl | ⟨1, _⟩ => rfl)
  have e21 : idx_main_v21 (idx_main_v22 (ix4 b t s c)) = ix1 c := funext fun e => Fin.ext (by
    match e with | ⟨0, _⟩ => rfl)
  have e24 : idx_main_v24 (idx_main_v25 (ix4 b t s c)) = ix1 c := funext fun e => Fin.ext (by
    match e with | ⟨0, _⟩ => rfl)
  have e30 : idx_main_v30 (idx_main_v31 (ix4 b t s c)) = ix1 c := funext fun e => Fin.ext (by
    match e with | ⟨0, _⟩ => rfl)
  have e33 : idx_main_v33 (idx_main_v34 (ix4 b t s c)) = ix1 c := funext fun e => Fin.ext (by
    match e with | ⟨0, _⟩ => rfl)
  have e36 : idx_main_v36 (idx_main_v37 (ix4 b t s c)) = ix1 c := funext fun e => Fin.ext (by
    match e with | ⟨0, _⟩ => rfl)
  rw [val_main_v39_apply, val_main_v38_apply, val_main_v35_apply, val_main_v32_apply, val_main_v26_apply,
    val_main_v23_apply, val_main_v20_apply, val_main_v22_apply, val_main_v21_apply, val_main_v25_apply, val_main_v24_apply,
    val_main_v31_apply, val_main_v30_apply, val_main_v29_apply, val_main_v28_apply, val_main_v27_apply,
    val_main_cst_0_apply, val_main_v34_apply, val_main_v33_apply, val_main_v37_apply, val_main_v36_apply,
    val_main_call1_v0_apply, val_main_call1_cst_apply, e21, e24, e30, e33, e36]
  simp only [el, er, v19_at, Ideal.maximumf_def, Ideal.addf_def, Ideal.mulf_def, Ideal.subf_def, Ideal.hostUnary_rsqrt_def,
    Ideal.ofBits_def, Ideal.ofBits_zero_f32]
  rfl

end TprAttn.RefRead

end
-- ==== Proof.LibRealSums.lean ====
/-
  Real entries of the extended reals, and two laws of finite sums that hold for them.

  An extended real is called real (`IsReal`) when it is the coercion of a real number: neither +∞ nor −∞.
  Sums and products of reals are real, the logistic function of a real is real, an extended real whose absolute
  value max x (−x) is below +∞ is real, and the f32 words 0x7F800000 and 0xFF800000 denote +∞ and −∞.

  On the extended reals the multiplication does not distribute over addition at the infinities, so the two laws
  are stated for real entries. `sum_scale_comm`: in a finite sum of products, a scale applied to one factor of
  every term is the scale applied to the finished sum. `softmax_div_comm`: for a row r with no entry +∞ and some
  entry above −∞, the weights e^(r j − max r) are reals that are not negative and their total is a positive
  real; so the normalisation by the total can be exchanged with the weighted sum of real values — dividing each
  weight by the total first, or the weighted sum afterwards, gives the same real.
-/
import Mathlib.Data.EReal.Inv
import Mathlib.Data.Finset.Fold
import Idealize.ShloMosaic.PureOps.Ideal
import Idealize.ShloMosaic.PureOps.Ideal.Laws
import Idealize.ShloMosaic.Lib.IdealHost

noncomputable section

open scoped BigOperators

namespace Cert.Math

open Idealize.ShloMosaic

/-! ### Real extended reals -/

/-- An extended real that is the coercion of a real number. -/
def IsReal (x : EReal) : Prop := ∃ r : ℝ, x = (r : EReal)

/-- A real is not +∞. -/
theorem IsReal.ne_top {x : EReal} : IsReal x → x ≠ ⊤ := by
  rintro ⟨r, rfl⟩; exact EReal.coe_ne_top r

/-- A real is not −∞. -/
theorem IsReal.ne_bot {x : EReal} : IsReal x → x ≠ ⊥ := by
  rintro ⟨r, rfl⟩; exact EReal.coe_ne_bot r

/-- The coercion of a real number is real. -/
theorem isReal_coe (r : ℝ) : IsReal (r : EReal) := ⟨r, rfl⟩

/-- Zero is real. -/
theorem isReal_zero : IsReal 0 := ⟨0, EReal.coe_zero.symm⟩

/-- A product of reals is real. -/
theorem IsReal.mul {x y : EReal} : IsReal x → IsReal y → IsReal (x * y) := by
  rintro ⟨a, rfl⟩ ⟨b, rfl⟩; exact ⟨a * b, (EReal.coe_mul a b).symm⟩

/-- A sum of two reals is real. -/
theorem IsReal.add {x y : EReal} : IsReal x → IsReal y → IsReal (x + y) := by
  rintro ⟨a, rfl⟩ ⟨b, rfl⟩; exact ⟨a + b, (EReal.coe_add a b).symm⟩

/-- A finite sum of reals is real. -/
theorem IsReal.sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact IsReal.add (h a (Finset.mem_insert_self a s)) (ih (fun i hi => h i (Finset.mem_insert_of_mem hi)))

/-- The logistic function of a real r is the real 1 / (1 + e^(-r)): the divisor is positive. -/
theorem IsReal.logistic {x : EReal} : IsReal x → IsReal (Ideal.logistic x) := by
  rintro ⟨r, rfl⟩; exact ⟨_, Ideal.logistic_coe r⟩

/-- An extended real whose absolute value max x (-x) is below +∞ is real. -/
theorem isReal_of_abs_lt_top {x : EReal} (h : max x (-x) < ⊤) : IsReal x := by
  induction x using EReal.rec with
  | bot => simp at h
  | coe r => exact ⟨r, rfl⟩
  | top => simp at h

/-- The f32 word with sign 0, all-ones exponent and zero fraction is +∞. -/
theorem ofBits_inf : Ideal.ofBits .f32 0x7F800000#32 = ⊤ := by
  simp [Ideal.ofBits, Ideal.ieee]

/-- The f32 word with sign 1, all-ones exponent and zero fraction is −∞. -/
theorem ofBits_neg_inf : Ideal.ofBits .f32 0xFF800000#32 = ⊥ := by
  simp [Ideal.ofBits, Ideal.ieee]

/-! ### Finite sums of reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A scale applied to one factor of every term of a sum of products of reals is the scale applied to the
    finished sum. -/
theorem sum_scale_comm {ι : Type} [Fintype ι] (q k : ι → EReal) (s : EReal)
    (hq : ∀ h, IsReal (q h)) (hk : ∀ h, IsReal (k h)) (hs : IsReal s) :
    ∑ h, (q h * s) * k h = (∑ h, q h * k h) * s := by
  obtain ⟨s', rfl⟩ := hs
  choose q' hq' using hq
  choose k' hk' using hk
  have e1 : ∀ h ∈ (Finset.univ : Finset ι), (q h * (s' : EReal)) * k h = ((q' h * s' * k' h : ℝ) : EReal) := by
    intro h _; rw [hq' h, hk' h, EReal.coe_mul, EReal.coe_mul]
  have e2 : ∀ h ∈ (Finset.univ : Finset ι), q h * k h = ((q' h * k' h : ℝ) : EReal) := by
    intro h _; rw [hq' h, hk' h, EReal.coe_mul]
  rw [Finset.sum_congr rfl e1, Finset.sum_congr rfl e2, ← coe_sum, ← coe_sum, ← EReal.coe_mul,
    Finset.sum_mul]
  exact congrArg _ (Finset.sum_congr rfl (fun h _ => by ring))

/-! ### The row normalisation -/

/-- For a row r of extended reals none of which is +∞ and one of which is not −∞, the weights
    e^(r j − max r) are real and not negative and their total is positive; so dividing each weight by the
    total before the weighted sum of real values, or the weighted sum afterwards, gives the same real. -/
theorem softmax_div_comm {n : ℕ} (r : Fin n → EReal) (v : Fin n → EReal) (hr : ∀ j, r j ≠ ⊤)
    (j0 : Fin n) (hj0 : r j0 ≠ ⊥) (hv : ∀ j, IsReal (v j)) :
    ∑ j, Ideal.div (Ideal.exp (r j - (Finset.univ : Finset (Fin n)).fold max ⊥ r))
        (∑ j', Ideal.exp (r j' - (Finset.univ : Finset (Fin n)).fold max ⊥ r)) * v j
      = Ideal.div (∑ j, Ideal.exp (r j - (Finset.univ : Finset (Fin n)).fold max ⊥ r) * v j)
        (∑ j', Ideal.exp (r j' - (Finset.univ : Finset (Fin n)).fold max ⊥ r)) := by
  -- the maximum is real: below +∞ since every entry is, above −∞ since it bounds r j0
  have hm_top : (Finset.univ : Finset (Fin n)).fold max ⊥ r < ⊤ :=
    (Finset.fold_max_lt ⊤).mpr ⟨bot_lt_top, fun j _ => lt_top_iff_ne_top.mpr (hr j)⟩
  have hm_ge : r j0 ≤ (Finset.univ : Finset (Fin n)).fold max ⊥ r :=
    (Finset.le_fold_max (r j0)).mpr (Or.inr ⟨j0, Finset.mem_univ j0, le_refl _⟩)
  have hm_bot : (Finset.univ : Finset (Fin n)).fold max ⊥ r ≠ ⊥ := by
    intro e; rw [e] at hm_ge; exact hj0 (le_bot_iff.mp hm_ge)
  generalize (Finset.univ : Finset (Fin n)).fold max ⊥ r = m at hm_top hm_ge hm_bot ⊢
  lift m to ℝ using ⟨hm_top.ne, hm_bot⟩
  -- every weight is a real that is not negative
  have hw : ∀ j, ∃ w : ℝ, 0 ≤ w ∧ Ideal.exp (r j - (m : EReal)) = (w : EReal) := by
    intro j
    induction hx : r j using EReal.rec with
    | bot => exact ⟨0, le_refl _, by rw [EReal.bot_sub, Ideal.exp_bot, EReal.coe_zero]⟩
    | coe a => exact ⟨Real.exp (a - m), (Real.exp_pos _).le, by rw [← EReal.coe_sub, Ideal.exp_coe]⟩
    | top => exact absurd hx (hr j)
  choose w hw0 hw using hw
  choose v' hv' using hv
  -- the weight at j0 is positive, so the total is
  have hwj0 : 0 < w j0 := by
    have h := hw j0
    induction hx : r j0 using EReal.rec with
    | bot => exact absurd hx hj0
    | coe a =>
      rw [hx, ← EReal.coe_sub, Ideal.exp_coe] at h
      rw [← EReal.coe_eq_coe_iff.mp h]; exact Real.exp_pos _
    | top => exact absurd hx (hr j0)
  have hL : 0 < ∑ j, w j :=
    Finset.sum_pos' (fun j _ => hw0 j) ⟨j0, Finset.mem_univ j0, hwj0⟩
  have eL : ∑ j', Ideal.exp (r j' - (m : EReal)) = ((∑ j, w j : ℝ) : EReal) := by
    rw [coe_sum]; exact Finset.sum_congr rfl (fun j _ => hw j)
  rw [eL]
  have e1 : ∀ j ∈ (Finset.univ : Finset (Fin n)),
      Ideal.div (Ideal.exp (r j - (m : EReal))) ((∑ j, w j : ℝ) : EReal) * v j
        = ((w j * (1 / ∑ j, w j) * v' j : ℝ) : EReal) := by
    intro j _
    rw [Ideal.div_coe hL.ne', hw j, hv' j, EReal.coe_mul, EReal.coe_mul]
  have e2 : ∀ j ∈ (Finset.univ : Finset (Fin n)),
      Ideal.exp (r j - (m : EReal)) * v j = ((w j * v' j : ℝ) : EReal) := by
    intro j _
    rw [hw j, hv' j, EReal.coe_mul]
  rw [Finset.sum_congr rfl e1, Finset.sum_congr rfl e2, Ideal.div_coe hL.ne', ← coe_sum, ← coe_sum,
    ← EReal.coe_mul, Finset.sum_mul]
  exact congrArg _ (Finset.sum_congr rfl (fun j _ => by ring))

end Cert.Math

end
-- ==== Proof.RefRead2.lean ====
/-
  The reference's maximum over the second point axis, the addition to x, the joint projection and
  its three column ranges, each read at an index.

  The maximum is a host reduction with a maximum body over axis 2 of a rank-4 array: at (p, q, r) it is
  the fold of max, from the initial value, over the entries (p, q, k, r); from minus infinity that is the
  supremum.
-/
import proofs.«101855_j59579786330696_2_alg».proof.Proof.RefRead1
import proofs.«101855_j59579786330696_2_alg».proof.Proof.LibRealSums

noncomputable section

namespace TprAttn.RefRead

open Cert.ReferenceIdeal Cert.ReferenceIdeal.Read Idealize.ShloMosaic Idealize.ShloMosaic.ValueIdx TprAttn
open scoped BigOperators

/-- The reduced index (p, q, r) with the coordinate k put back on axis 2 is (p, q, k, r). -/
theorem lift_axis2 {n0 n1 n n3 : ℕ} (h : (⟨4, ![n0, n1, n, n3]⟩ : Shape).Reduces [2] (⟨3, ![n0, n1, n3]⟩ : Shape))
    (p : Fin n0) (q : Fin n1) (r : Fin n3) (k : Fin ((⟨4, ![n0, n1, n, n3]⟩ : Shape).size 2)) :
    h.lift (ix3 p q r) k = ix4 p q (⟨k.val, k.isLt⟩ : Fin n) r := by
  funext d; apply Fin.ext
  fin_cases d <;> rfl

/-- A host reduction with a maximum body over axis 2 of an [n0, n1, n, n3] array of extended reals, read at
    (p, q, r): the fold of max from the initial value over the n entries (p, q, k, r). -/
theorem hostReduce_max_axis2 {n0 n1 n n3 : ℕ} {u : Shape} (x : FVec Ideal ⟨4, ![n0, n1, n, n3]⟩ .f32)
    (init : u.Idx → Ideal .f32)
    (h' : (⟨4, ![n0, n1, n, n3]⟩ : Shape).ReducesTo [2] (⟨3, ![n0, n1, n3]⟩ : Shape))
    (h : (⟨4, ![n0, n1, n, n3]⟩ : Shape).Reduces [2] (⟨3, ![n0, n1, n3]⟩ : Shape)) (hu : 0 < u.numel)
    (p : Fin n0) (q : Fin n1) (r : Fin n3) :
    Host.reduce FloatOps.maximumf x init h' hu (ix3 p q r)
      = (Finset.univ : Finset (Fin n)).fold max (init (Shape.Idx.first hu)) (fun k => x (ix4 p q k r)) := by
  rw [Host.reduce_eq_fold_single FloatOps.maximumf x init h' h hu]
  exact congrArg (fun f => Finset.fold max (init (Shape.Idx.first hu)) f (Finset.univ : Finset (Fin n)))
    (funext fun k => congrArg x (lift_axis2 h p q r k))

variable (a : Inputs)

/-- The reference's bias at (b, t, c). -/
theorem v40_at (b : Fin 2) (t : Fin 512) (c : Fin 256) :
    val_main_v40 (F := Ideal) a.r a.w1 a.b1 a.g1 a.be1 a.m1 a.v1 a.w2 a.b2 a.g2 a.be2 a.m2 a.v2 (ix3 b t c) = biasR a b t c := by
  unfold val_main_v40
  refine (hostReduce_max_axis2 (n0 := 2) (n1 := 512) (n := 512) (n3 := 256) _ _ _ (by decide) _ b t c).trans ?_
  rw [val_main_cst_1_apply]
  simp only [v39_at, Ideal.ofBits_def, Cert.Math.ofBits_neg_inf]
  exact fold_max_bot_eq_sup _ _

/-- x plus the bias. -/
theorem v41_at (b : Fin 2) (t : Fin 512) (c : Fin 256) :
    val_main_v41 (F := Ideal) a.x a.r a.w1 a.b1 a.g1 a.be1 a.m1 a.v1 a.w2 a.b2 a.g2 a.be2 a.m2 a.v2 (ix3 b t c) = xb a.x (biasR a) b t c := by
  rw [val_main_v41_apply, v40_at]; rfl

/-- The joint projection. -/
theorem v42_at (b : Fin 2) (t : Fin 512) (e : Fin 768) :
    val_main_v42 (F := Ideal) a.x a.r a.w1 a.b1 a.g1 a.be1 a.m1 a.v1 a.w2 a.b2 a.g2 a.be2 a.m2 a.v2 a.wqkv (ix3 b t e) = qkv a.x (biasR a) a.wqkv b t e := by
  have el : ∀ k : Fin 256, lidx_main_v42 (ix3 b t e) k = ix3 b t k := fun k => funext fun z => Fin.ext (by
    match z with | ⟨0, _⟩ => rfl | ⟨1, _⟩ => rfl | ⟨2, _⟩ => rfl)
  have er : ∀ k : Fin 256, ridx_main_v42 (ix3 b t e) k = ix2 k e := fun k => funext fun z => Fin.ext (by
    match z with | ⟨0, _⟩ => rfl | ⟨1, _⟩ => rfl)
  rw [val_main_v42_apply]
  simp only [el, er, v41_at]
  rfl

/-- Queries: columns 0 to 255. -/
theorem v43_at (b : Fin 2) (t : Fin 512) (d : Fin 256) :
    val_main_v43 (F := Ideal) a.x a.r a.w1 a.b1 a.g1 a.be1 a.m1 a.v1 a.w2 a.b2 a.g2 a.be2 a.m2 a.v2 a.wqkv (ix3 b t d) = qkv a.x (biasR a) a.wqkv b t (qcol d) := by
  have e : idx_main_v43 (ix3 b t d) = ix3 b t (qcol d) := funext fun z => Fin.ext (by
    match z with | ⟨0, _⟩ => rfl | ⟨1, _⟩ => rfl | ⟨2, _⟩ => rfl)
  rw [val_main_v43_apply, e, v42_at]

/-- Keys: columns 256 to 511. -/
theorem v44_at (b : Fin 2) (t : Fin 512) (d : Fin 256) :
    val_main_v44 (F := Ideal) a.x a.r a.w1 a.b1 a.g1 a.be1 a.m1 a.v1 a.w2 a.b2 a.g2 a.be2 a.m2 a.v2 a.wqkv (ix3 b t d) = qkv a.x (biasR a) a.wqkv b t (kcol d) := by
  have e : idx_main_v44 (ix3 b t d) = ix3 b t (kcol d) := funext fun z => Fin.ext (by
    match z with | ⟨0, _⟩ => rfl | ⟨1, _⟩ => rfl | ⟨2, _⟩ => rfl)
  rw [val_main_v44_apply, e, v42_at]

/-- Values: columns 512 to 767. -/
theorem v45_at (b : Fin 2) (t : Fin 512) (d : Fin 256) :
    val_main_v45 (F := Ideal) a.x a.r a.w1 a.b1 a.g1 a.be1 a.m1 a.v1 a.w2 a.b2 a.g2 a.be2 a.m2 a.v2 a.wqkv (ix3 b t d) = qkv a.x (biasR a) a.wqkv b t (vcol d) := by
  have e : idx_main_v45 (ix3 b t d) = ix3 b t (vcol d) := funext fun z => Fin.ext (by
    match z with | ⟨0, _⟩ => rfl | ⟨1, _⟩ => rfl | ⟨2, _⟩ => rfl)
  rw [val_main_v45_apply, e, v42_at]

end TprAttn.RefRead

end
-- ==== Proof.LibLastAxisMax3.lean ====
/-
  A host reduction with a maximum body over the LAST axis of a rank-3 array, read at an index given by coordinates,
  on the extended reals. Independent of any program, generic in the three extents.

  * `lift_last` — the reduced index `(p, q)` with the last coordinate `k` put back is the index `(p, q, k)`.
  * `hostReduce_max_last` — the reduction's entry `(p, q)` is the fold of `max`, from the initial value's one
    element, over `k : Fin n` of the operand's entries `(p, q, k)`: the maximum of the last-axis fibre through
    `(p, q)`, taken from the initial value (a softmax's row maximum over a batch of matrices).
-/
import Idealize.ShloMosaic.PureOps
import Idealize.ShloMosaic.PureOps.Ideal.Laws
import Idealize.ShloMosaic.Lib.ValueIdx

noncomputable section

namespace Cert.LastAxisMax3

open Idealize.ShloMosaic Idealize.ShloMosaic.ValueIdx

/-- The reduced index (p, q) with the last coordinate k put back is (p, q, k). -/
theorem lift_last {a b n : ℕ} (h : (⟨3, ![a, b, n]⟩ : Shape).Reduces [2] (⟨2, ![a, b]⟩ : Shape)) (p : Fin a) (q : Fin b)
    (k : Fin ((⟨3, ![a, b, n]⟩ : Shape).size 2)) :
    h.lift (ix2 p q) k = ix3 p q (⟨k.val, k.isLt⟩ : Fin n) := by
  funext d; apply Fin.ext
  fin_cases d <;> rfl

/-- A host reduction with a maximum body over the last axis of an [a, b, n] array of extended reals, read at (p, q):
    the fold of max from the initial value over the n entries (p, q, k). -/
theorem hostReduce_max_last {a b n : ℕ} {u : Shape} (x : FVec Ideal ⟨3, ![a, b, n]⟩ .f32) (init : u.Idx → Ideal .f32)
    (h' : (⟨3, ![a, b, n]⟩ : Shape).ReducesTo [2] (⟨2, ![a, b]⟩ : Shape))
    (h : (⟨3, ![a, b, n]⟩ : Shape).Reduces [2] (⟨2, ![a, b]⟩ : Shape)) (hu : 0 < u.numel) (p : Fin a) (q : Fin b) :
    Host.reduce FloatOps.maximumf x init h' hu (ix2 p q)
      = (Finset.univ : Finset (Fin n)).fold max (init (Shape.Idx.first hu)) (fun k => x (ix3 p q k)) := by
  rw [Host.reduce_eq_fold_single FloatOps.maximumf x init h' h hu]
  exact congrArg (fun f => Finset.fold max (init (Shape.Idx.first hu)) f (Finset.univ : Finset (Fin n)))
    (funext fun k => congrArg x (lift_last h p q k))

end Cert.LastAxisMax3

end
-- ==== Proof.RefRead3.lean ====
/-
  The reference's attention read at an index: scaled dot products, the row maximum (a host reduction over
  the last axis, then a maximum with minus infinity, which changes nothing), the exponentials, their
  row sums (from zero), the quotient, and the product with the values.  The last theorem says that the
  reference's result is the reference-shaped function R of the fifteen arguments.
-/
import proofs.«101855_j59579786330696_2_alg».proof.Proof.RefRead2
import proofs.«101855_j59579786330696_2_alg».proof.Proof.LibLastAxisMax3

noncomputable section

namespace TprAttn.RefRead

open Cert.ReferenceIdeal Cert.ReferenceIdeal.Read Idealize.ShloMosaic Idealize.ShloMosaic.ValueIdx TprAttn
open scoped BigOperators

variable (a : Inputs)

/-- Scaled dot products of queries and keys. -/
theorem v48_at (b : Fin 2) (t s : Fin 512) :
    val_main_v48 (F := Ideal) a.x a.r a.w1 a.b1 a.g1 a.be1 a.m1 a.v1 a.w2 a.b2 a.g2 a.be2 a.m2 a.v2 a.wqkv (ix3 b t s) = dots a.x (biasR a) a.wqkv b t s := by
  have el : ∀ k : Fin 256, lidx_main_v46 (ix3 b t s) k = ix3 b t k := fun k => funext fun z => Fin.ext (by
    match z with | ⟨0, _⟩ => rfl | ⟨1, _⟩ => rfl | ⟨2, _⟩ => rfl)
  have er : ∀ k : Fin 256, ridx_main_v46 (ix3 b t s) k = ix3 b s k := fun k => funext fun z => Fin.ext (by
    match z with | ⟨0, _⟩ => rfl | ⟨1, _⟩ => rfl | ⟨2, _⟩ => rfl)
  rw [val_main_v48_apply, val_main_v46_apply, val_main_v47_apply, val_main_cst_2_apply]
  simp only [el, er, v43_at, v44_at, Ideal.mulf_def, Ideal.ofBits_def]
  rfl

/-- The row maximum. -/
theorem v51_at (b : Fin 2) (t : Fin 512) :
    val_main_v51 (F := Ideal) a.x a.r a.w1 a.b1 a.g1 a.be1 a.m1 a.v1 a.w2 a.b2 a.g2 a.be2 a.m2 a.v2 a.wqkv (ix2 b t) = rowmax a.x (biasR a) a.wqkv b t := by
  rw [val_main_v51_apply, val_main_v50_apply, val_main_cst_4_apply]
  unfold val_main_v49
  rw [Cert.LastAxisMax3.hostReduce_max_last (a := 2) (b := 512) (n := 512) _ _ _ (by decide) _ b t, val_main_cst_3_apply]
  simp only [v48_at, Ideal.ofBits_def, Cert.Math.ofBits_neg_inf, Ideal.maximumf_def, fold_max_bot_eq_sup, max_bot_left]
  rfl

/-- The unnormalised weights. -/
theorem v55_at (b : Fin 2) (t s : Fin 512) :
    val_main_v55 (F := Ideal) a.x a.r a.w1 a.b1 a.g1 a.be1 a.m1 a.v1 a.w2 a.b2 a.g2 a.be2 a.m2 a.v2 a.wqkv (ix3 b t s) = p a.x (biasR a) a.wqkv b t s := by
  have e : idx_main_v52 (idx_main_v53 (ix3 b t s)) = ix2 b t := funext fun z => Fin.ext (by
    match z with | ⟨0, _⟩ => rfl | ⟨1, _⟩ => rfl)
  rw [val_main_v55_apply, val_main_v54_apply, val_main_v53_apply, val_main_v52_apply, e, v51_at, v48_at]
  rfl

/-- The row sums. -/
theorem v56_at (b : Fin 2) (t : Fin 512) :
    val_main_v56 (F := Ideal) a.x a.r a.w1 a.b1 a.g1 a.be1 a.m1 a.v1 a.w2 a.b2 a.g2 a.be2 a.m2 a.v2 a.wqkv (ix2 b t) = rowsum a.x (biasR a) a.wqkv b t := by
  have e : ∀ k : Fin 512, idx_main_v56 (ix2 b t) k = ix3 b t k := fun k => funext fun z => Fin.ext (by
    match z with | ⟨0, _⟩ => rfl | ⟨1, _⟩ => rfl | ⟨2, _⟩ => rfl)
  rw [val_main_v56_apply, val_main_cst_5_apply]
  simp only [e, v55_at, Ideal.ofBits_def, Ideal.ofBits_zero_f32, zero_add]
  rfl

/-- The softmax weights. -/
theorem v59_at (b : Fin 2) (t s : Fin 512) :
    val_main_v59 (F := Ideal) a.x a.r a.w1 a.b1 a.g1 a.be1 a.m1 a.v1 a.w2 a.b2 a.g2 a.be2 a.m2 a.v2 a.wqkv (ix3 b t s) = attn a.x (biasR a) a.wqkv b t s := by
  have e : idx_main_v57 (idx_main_v58 (ix3 b t s)) = ix2 b t := funext fun z => Fin.ext (by
    match z with | ⟨0, _⟩ => rfl | ⟨1, _⟩ => rfl)
  rw [val_main_v59_apply, val_main_v58_apply, val_main_v57_apply, e, v56_at, v55_at]
  rfl

/-- The attention output. -/
theorem v60_at (b : Fin 2) (t : Fin 512) (d : Fin 256) :
    val_main_v60 (F := Ideal) a.x a.r a.w1 a.b1 a.g1 a.be1 a.m1 a.v1 a.w2 a.b2 a.g2 a.be2 a.m2 a.v2 a.wqkv (ix3 b t d) = out a.x (biasR a) a.wqkv b t d := by
  have el : ∀ k : Fin 512, lidx_main_v60 (ix3 b t d) k = ix3 b t k := fun k => funext fun z => Fin.ext (by
    match z with | ⟨0, _⟩ => rfl | ⟨1, _⟩ => rfl | ⟨2, _⟩ => rfl)
  have er : ∀ k : Fin 512, ridx_main_v60 (ix3 b t d) k = ix3 b k d := fun k => funext fun z => Fin.ext (by
    match z with | ⟨0, _⟩ => rfl | ⟨1, _⟩ => rfl | ⟨2, _⟩ => rfl)
  rw [val_main_v60_apply]
  simp only [el, er, v59_at, v45_at]
  rfl

/-- THE REFERENCE IS R: its last stage, applied to the fifteen arguments, is the reference-shaped function. -/
theorem ref_eq_R :
    val_main_v60 (F := Ideal) a.x a.r a.w1 a.b1 a.g1 a.be1 a.m1 a.v1 a.w2 a.b2 a.g2 a.be2 a.m2 a.v2 a.wqkv = R a := by
  funext i
  obtain ⟨b, t, d, rfl⟩ : ∃ (b : Fin 2) (t : Fin 512) (d : Fin 256), i = ix3 b t d := ⟨i 0, i 1, i 2, eq_ix3 i⟩
  rw [v60_at, R_ix3]

end TprAttn.RefRead

end
-- ==== Proof.Algebra.lean ====
/-
  The algebra between the two arrangements.  On real entries (no infinity), with variances that
  are not negative, the scale  g * rsqrt (v + eps)  is a real number, and

    ((sum_d r d * w d + b - m) * rs) * g + be  =  sum_d r d * (w d * (g * rs)) + ((b - m) * (g * rs) + be)

  by distributivity and commutativity in the real numbers.  The extended reals do not distribute at
  the infinities, which is why the entries are required to be real.
-/
import proofs.«101855_j59579786330696_2_alg».proof.Proof.Spec
import proofs.«101855_j59579786330696_2_alg».proof.Proof.RefSpec
import proofs.«101855_j59579786330696_2_alg».proof.Proof.LibRealSums

noncomputable section

namespace TprAttn

open Idealize.ShloMosaic Idealize.ShloMosaic.ValueIdx Cert.Math
open scoped BigOperators

/-- Every entry of every argument array is a real number, and the two variance arrays are not
    negative. -/
structure Inputs.Good (a : Inputs) : Prop where
  x : ∀ i, IsReal (a.x i)
  r : ∀ i, IsReal (a.r i)
  w1 : ∀ i, IsReal (a.w1 i)
  b1 : ∀ i, IsReal (a.b1 i)
  g1 : ∀ i, IsReal (a.g1 i)
  be1 : ∀ i, IsReal (a.be1 i)
  m1 : ∀ i, IsReal (a.m1 i)
  v1 : ∀ i, IsReal (a.v1 i)
  w2 : ∀ i, IsReal (a.w2 i)
  b2 : ∀ i, IsReal (a.b2 i)
  g2 : ∀ i, IsReal (a.g2 i)
  be2 : ∀ i, IsReal (a.be2 i)
  m2 : ∀ i, IsReal (a.m2 i)
  v2 : ∀ i, IsReal (a.v2 i)
  wqkv : ∀ i, IsReal (a.wqkv i)
  v1_nonneg : ∀ i, 0 ≤ a.v1 i
  v2_nonneg : ∀ i, 0 ≤ a.v2 i

/-- The variance offset is a positive real number. -/
theorem eps_pos : ∃ e : ℝ, 0 < e ∧ eps = (e : EReal) := by
  refine ⟨_, ?_, by simp [eps, Ideal.ofBits, Ideal.ieee]; rfl⟩
  positivity

/-- The maximum of two reals is real. -/
theorem IsReal.max {x y : EReal} (hx : IsReal x) (hy : IsReal y) : IsReal (max x y) := by
  rcases max_choice x y with h | h <;> rw [h] <;> assumption

/-- A difference of reals is real. -/
theorem IsReal.sub {x y : EReal} : IsReal x → IsReal y → IsReal (x - y) := by
  rintro ⟨a, rfl⟩ ⟨b, rfl⟩; exact ⟨a - b, (EReal.coe_sub a b).symm⟩

/-- The reciprocal square root of a non-negative real plus the variance offset is real. -/
theorem isReal_rsqrt_add_eps {v : EReal} (hv : IsReal v) (h0 : 0 ≤ v) : IsReal (Ideal.rsqrt (v + eps)) := by
  obtain ⟨r, rfl⟩ := hv
  obtain ⟨e, he, hE⟩ := eps_pos
  have hr : 0 ≤ r := EReal.coe_nonneg.mp h0
  rw [hE, ← EReal.coe_add, Ideal.rsqrt_coe, if_neg (by linarith), if_neg (by linarith)]
  exact ⟨_, rfl⟩

/-- Folding an affine normalisation into the weights and the offset of the contraction before it,
    for real entries. -/
theorem bn_fold {ι : Type} [Fintype ι] (r w : ι → EReal) (b m rs g be : EReal)
    (hr : ∀ d, IsReal (r d)) (hw : ∀ d, IsReal (w d)) (hb : IsReal b) (hm : IsReal m)
    (hrs : IsReal rs) (hg : IsReal g) (hbe : IsReal be) :
    ((((∑ d, r d * w d) + b) - m) * rs) * g + be
      = (∑ d, r d * (w d * (g * rs))) + ((b - m) * (g * rs) + be) := by
  obtain ⟨b', rfl⟩ := hb
  obtain ⟨m', rfl⟩ := hm
  obtain ⟨rs', rfl⟩ := hrs
  obtain ⟨g', rfl⟩ := hg
  obtain ⟨be', rfl⟩ := hbe
  choose r' hr' using hr
  choose w' hw' using hw
  have e1 : ∀ d ∈ (Finset.univ : Finset ι), r d * w d = ((r' d * w' d : ℝ) : EReal) := by
    intro d _; rw [hr' d, hw' d, EReal.coe_mul]
  have e2 : ∀ d ∈ (Finset.univ : Finset ι),
      r d * (w d * ((g' : EReal) * (rs' : EReal))) = ((r' d * (w' d * (g' * rs')) : ℝ) : EReal) := by
    intro d _; rw [hr' d, hw' d, EReal.coe_mul, EReal.coe_mul, EReal.coe_mul]
  rw [Finset.sum_congr rfl e1, Finset.sum_congr rfl e2, ← coe_sum, ← coe_sum]
  rw [← EReal.coe_add, ← EReal.coe_sub, ← EReal.coe_mul, ← EReal.coe_mul, ← EReal.coe_add,
    ← EReal.coe_sub, ← EReal.coe_mul, ← EReal.coe_mul, ← EReal.coe_add, ← EReal.coe_add]
  refine congrArg _ ?_
  have : ∑ d, r' d * (w' d * (g' * rs')) = (∑ d, r' d * w' d) * (g' * rs') := by
    rw [Finset.sum_mul]; exact Finset.sum_congr rfl fun d _ => by ring
  rw [this]; ring

variable {a : Inputs}

theorem Inputs.Good.scale1 (ha : a.Good) (h : Fin 32) : IsReal (Ideal.rsqrt (a.v1 (ix1 h) + eps)) :=
  isReal_rsqrt_add_eps (ha.v1 _) (ha.v1_nonneg _)
theorem Inputs.Good.scale2 (ha : a.Good) (c : Fin 256) : IsReal (Ideal.rsqrt (a.v2 (ix1 c) + eps)) :=
  isReal_rsqrt_add_eps (ha.v2 _) (ha.v2_nonneg _)

/-- The hidden activations agree. -/
theorem hidR_eq (ha : a.Good) (b : Fin 2) (t s : Fin 512) (h : Fin 32) : hidR a b t s h = hid a b t s h := by
  unfold hidR hid w1f b1f scale1
  exact congrArg (fun z => max z 0)
    (bn_fold _ _ _ _ _ _ _ (fun d => ha.r _) (fun d => ha.w1 _) (ha.b1 _) (ha.m1 _) (ha.scale1 h) (ha.g1 _) (ha.be1 _))

/-- The hidden activations are real. -/
theorem Inputs.Good.hidR (ha : a.Good) (b : Fin 2) (t s : Fin 512) (h : Fin 32) : IsReal (hidR a b t s h) := by
  unfold TprAttn.hidR
  exact IsReal.max (IsReal.add (IsReal.mul (IsReal.mul (IsReal.sub (IsReal.add
    (IsReal.sum _ _ fun d _ => IsReal.mul (ha.r _) (ha.w1 _)) (ha.b1 _)) (ha.m1 _)) (ha.scale1 h)) (ha.g1 _)) (ha.be1 _))
    isReal_zero

/-- The output activations agree. -/
theorem actR_eq (ha : a.Good) (b : Fin 2) (t s : Fin 512) (c : Fin 256) : actR a b t s c = act a b t s c := by
  unfold actR act w2f b2f scale2
  simp only [← hidR_eq ha]
  exact congrArg (fun z => max z 0)
    (bn_fold _ _ _ _ _ _ _ (fun h => ha.hidR b t s h) (fun h => ha.w2 _) (ha.b2 _) (ha.m2 _) (ha.scale2 c) (ha.g2 _) (ha.be2 _))

/-- The two biases agree. -/
theorem biasR_eq (ha : a.Good) : biasR a = bias a := by
  funext b t c
  unfold biasR bias
  exact congrArg _ (funext fun s => actR_eq ha b t s c)

/-- THE ALGEBRA: on real inputs with non-negative variances the two arrangements are one function. -/
theorem R_eq_K (ha : a.Good) : R a = K a := by
  unfold R K
  rw [biasR_eq ha]

end TprAttn

end
-- ==== Proof.RefAssembly.lean ====
/-
  The reference's result, assembled: on real inputs with non-negative variances, what the reference
  leaves in its result buffer is the kernel-shaped function K of the fifteen argument arrays it was
  started with.
-/
import proofs.«101855_j59579786330696_2_alg».proof.Proof.RefRead3
import proofs.«101855_j59579786330696_2_alg».proof.Proof.Algebra

noncomputable section

namespace TprAttn

open Cert.ReferenceIdeal Cert.ReferenceIdeal.Read Idealize.ShloMosaic Idealize.ShloMosaic.TcCoe Idealize.SL.Sem
  Idealize.ShloMosaic.StableHlo

/-- The fifteen argument arrays as the reference's device c finds them in a memory. -/
def refInputs (m : (ℓ : Loc nD τ sig) → Buf (Elt Ideal) ℓ) (c : Dev nD) : Inputs where
  x := m ((c.tc : Thread nD τ).loc main_arg0)
  r := m ((c.tc : Thread nD τ).loc main_arg1)
  w1 := m ((c.tc : Thread nD τ).loc main_arg2)
  b1 := m ((c.tc : Thread nD τ).loc main_arg3)
  g1 := m ((c.tc : Thread nD τ).loc main_arg4)
  be1 := m ((c.tc : Thread nD τ).loc main_arg5)
  m1 := m ((c.tc : Thread nD τ).loc main_arg6)
  v1 := m ((c.tc : Thread nD τ).loc main_arg7)
  w2 := m ((c.tc : Thread nD τ).loc main_arg8)
  b2 := m ((c.tc : Thread nD τ).loc main_arg9)
  g2 := m ((c.tc : Thread nD τ).loc main_arg10)
  be2 := m ((c.tc : Thread nD τ).loc main_arg11)
  m2 := m ((c.tc : Thread nD τ).loc main_arg12)
  v2 := m ((c.tc : Thread nD τ).loc main_arg13)
  wqkv := m ((c.tc : Thread nD τ).loc main_arg14)

/-- The reference's result is the reference-shaped function of its arguments (no hypothesis). -/
theorem ref_result_R (m : (ℓ : Loc nD τ sig) → Buf (Elt Ideal) ℓ) (c : Dev nD) :
    Cert.ReferenceIdeal.Value.res_main_v60 m c = R (refInputs m c) := by
  rw [val_main_v60_eq]
  exact RefRead.ref_eq_R (refInputs m c)

/-- On real inputs with non-negative variances the reference's result is the kernel-shaped function. -/
theorem ref_result (m : (ℓ : Loc nD τ sig) → Buf (Elt Ideal) ℓ) (c : Dev nD) (ha : (refInputs m c).Good) :
    Cert.ReferenceIdeal.Value.res_main_v60 m c = K (refInputs m c) :=
  (ref_result_R m c).trans (R_eq_K ha)

end TprAttn

end
-- ==== Proof.PreDecode.lean ====
/-
  The precondition read back.  It is the conjunction, over the fifteen argument arrays, of
  "every entry has absolute value below plus infinity", and of "every entry of the two variance
  arrays is at least zero".  An extended real whose absolute value max x (-x) is below plus infinity
  is a real number, so the precondition gives: every entry of every argument is real, and the
  variances are not negative.
-/
import proofs.«101855_j59579786330696_2_alg».proof.Pre_finite_inputs
import proofs.«101855_j59579786330696_2_alg».proof.Proof.Algebra
import Idealize.ShloMosaic.Lib.ReduceAll

noncomputable section

namespace TprAttn

open Idealize.ShloMosaic Idealize.ShloMosaic.ValueIdx Cert.Math

/-- The scalar shape has one index. -/
instance subsingleton_scalar_idx : Subsingleton (⟨0, ![]⟩ : Shape).Idx := ⟨fun _ _ => funext fun d => d.elim0⟩

/-- A one-bit word made from a proposition's decision is 1 exactly when the proposition holds. -/
theorem of_ofBool_decide_eq_one {p : Prop} [Decidable p] (h : BitVec.ofBool (decide p) = 1#1) : p := by
  by_contra hn
  rw [decide_eq_false hn] at h
  exact absurd h (by decide)

/-- A conjunction of two one-bit arrays is 1 at an index exactly when both are. -/
theorem andi_apply_eq_one {s : Shape} (x y : IVec s 1) (i : s.Idx) :
    andi x y i = 1#1 ↔ x i = 1#1 ∧ y i = 1#1 := IntOp.andi_eq_one

/-- "All entries have absolute value below plus infinity", read back: every entry is real. -/
theorem real_of_all_finite {s : Shape} {axes : List (Fin s.rank)} (x : FVec Ideal s .f32)
    (bc : (⟨0, ![]⟩ : Shape).BroadcastsInDim s (![] : Fin 0 → Fin s.rank))
    (h : s.ReducesTo axes (⟨0, ![]⟩ : Shape)) (hu : 0 < (⟨0, ![]⟩ : Shape).numel)
    (e : Host.reduce IntOp.andi
        (cmpf .olt (Host.absf x) (broadcastInDim s ![] bc (constant (F := Ideal) (⟨0, ![]⟩ : Shape) .f32 0x7F800000#32)))
        (constantI (⟨0, ![]⟩ : Shape) 1 1#1) h hu ix0 = 1#1) (i : s.Idx) : IsReal (x i) := by
  have hi := Host.reduce_andi_all _ _ h hu ix0 e i
  have h2 : BitVec.ofBool (decide (max (x i) (-(x i)) < Ideal.ofBits .f32 0x7F800000#32)) = 1#1 := hi
  rw [ofBits_inf] at h2
  exact isReal_of_abs_lt_top (of_ofBool_decide_eq_one h2)

/-- "All entries are at least zero", read back. -/
theorem nonneg_of_all_ge {s : Shape} {axes : List (Fin s.rank)} (x : FVec Ideal s .f32)
    (bc : (⟨0, ![]⟩ : Shape).BroadcastsInDim s (![] : Fin 0 → Fin s.rank))
    (h : s.ReducesTo axes (⟨0, ![]⟩ : Shape)) (hu : 0 < (⟨0, ![]⟩ : Shape).numel)
    (e : Host.reduce IntOp.andi
        (cmpf .oge x (broadcastInDim s ![] bc (constant (F := Ideal) (⟨0, ![]⟩ : Shape) .f32 0x00000000#32)))
        (constantI (⟨0, ![]⟩ : Shape) 1 1#1) h hu ix0 = 1#1) (i : s.Idx) : 0 ≤ x i := by
  have hi := Host.reduce_andi_all _ _ h hu ix0 e i
  have h2 : BitVec.ofBool (decide (Ideal.ofBits .f32 0x00000000#32 ≤ x i)) = 1#1 := hi
  rw [Ideal.ofBits_zero_f32] at h2
  exact of_ofBool_decide_eq_one h2

open Cert.Pre_finite_inputs in
/-- THE PRECONDITION DECODED: all entries real, variances not negative. -/
theorem good_of_pre [Cert.Pre_finite_inputs.Facts] (a : Inputs)
    (h : Cert.Pre_finite_inputs.fn (F := Ideal) a.x a.r a.w1 a.b1 a.g1 a.be1 a.m1 a.v1 a.w2 a.b2 a.g2 a.be2 a.m2 a.v2 a.wqkv
      = fun _ => 1#1) : a.Good := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4] at h0
  simp only [andi_apply_eq_one] at h0
  obtain ⟨⟨⟨⟨⟨⟨⟨⟨⟨⟨⟨⟨⟨⟨⟨⟨f0, f1⟩, f2⟩, f3⟩, f4⟩, f5⟩, f6⟩, f7⟩, f8⟩, f9⟩, f10⟩, f11⟩, f12⟩, f13⟩, f14⟩, n7⟩, n13⟩ := h0
  exact
    { x := real_of_all_finite _ _ _ _ f0
      r := real_of_all_finite _ _ _ _ f1
      w1 := real_of_all_finite _ _ _ _ f2
      b1 := real_of_all_finite _ _ _ _ f3
      g1 := real_of_all_finite _ _ _ _ f4
      be1 := real_of_all_finite _ _ _ _ f5
      m1 := real_of_all_finite _ _ _ _ f6
      v1 := real_of_all_finite _ _ _ _ f7
      w2 := real_of_all_finite _ _ _ _ f8
      b2 := real_of_all_finite _ _ _ _ f9
      g2 := real_of_all_finite _ _ _ _ f10
      be2 := real_of_all_finite _ _ _ _ f11
      m2 := real_of_all_finite _ _ _ _ f12
      v2 := real_of_all_finite _ _ _ _ f13
      wqkv := real_of_all_finite _ _ _ _ f14
      v1_nonneg := nonneg_of_all_ge _ _ _ _ n7
      v2_nonneg := nonneg_of_all_ge _ _ _ _ n13 }

end TprAttn

end
-- ==== Proof.AlgebraicOf.lean ====
/-
  The value conjunct reduced to the kernel's run: if every execution of the idealised kernel from a
  memory satisfying the precondition ends with the kernel-shaped function K of its fifteen argument
  arrays in its result buffer (and the arguments unchanged), then the idealised kernel and the
  idealised reference, started from memories that agree on the arguments, end with equal results.
  The reference's half is: its run leaves the reference-shaped function R of the same arrays, the
  precondition makes every entry real and the variances non-negative, and on such inputs R = K.
-/
import proofs.«101855_j59579786330696_2_alg».proof.Defs
import proofs.«101855_j59579786330696_2_alg».proof.Proof.Gen.KernelIdeal
import proofs.«101855_j59579786330696_2_alg».proof.Proof.Gen.ReferenceIdeal
import proofs.«101855_j59579786330696_2_alg».proof.Proof.Gen.Pre_finite_inputs
import proofs.«101855_j59579786330696_2_alg».proof.Proof.RefAssembly
import proofs.«101855_j59579786330696_2_alg».proof.Proof.PreDecode
import proofs.«101855_j59579786330696_2_alg».proof.Proof.KernelInputs

noncomputable section

namespace TprAttn

open Idealize.ShloMosaic Idealize.ShloMosaic.TcCoe Idealize.SL.Sem Idealize.ShloMosaic.StableHlo

/-- Under the precondition the kernel's argument arrays are real with non-negative variances. -/
theorem kernelInputs_good (m : (ℓ : Loc Cert.KernelIdeal.nD Cert.KernelIdeal.τ Cert.KernelIdeal.sig) → Buf (Elt Ideal) ℓ)
    (hpre : Cert.Pre_KernelIdeal m) (c : Dev Cert.KernelIdeal.nD) : (kernelInputs m c).Good :=
  good_of_pre (kernelInputs m c) (hpre c)

/-- The value conjunct, from the kernel's run stated with K. -/
theorem algebraic_of_kernel_run
    (hrun : ∀ (m : (ℓ : Loc Cert.KernelIdeal.nD Cert.KernelIdeal.τ Cert.KernelIdeal.sig) → Buf (Elt Ideal) ℓ) (g : Dev Cert.KernelIdeal.nD → PrngReg),
      Cert.Pre_KernelIdeal m →
      θ_run (Cert.KernelIdeal.defs (F := Ideal)) (onTc (τ := Cert.KernelIdeal.τ) (Cert.KernelIdeal.main (F := Ideal))) ⟨m, fun _ => 0, g⟩
        (fun r => ∀ c : Dev Cert.KernelIdeal.nD,
          r.2.mem ((c.tc : Thread Cert.KernelIdeal.nD Cert.KernelIdeal.τ).loc Cert.KernelIdeal.main_v22) = K (kernelInputs m c)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))) :
    Cert.algebraic_KernelIdeal_ReferenceIdeal := by
  intro m g m' g' hpre hagree
  have hin : ∀ c : Dev Cert.KernelIdeal.nD, refInputs m' c = kernelInputs m c := fun c => by
    obtain ⟨h0, h1, h2, h3, h4, h5, h6, h7, h8, h9, h10, h11, h12, h13, h14⟩ := hagree c
    unfold refInputs kernelInputs
    rw [h0, h1, h2, h3, h4, h5, h6, h7, h8, h9, h10, h11, h12, h13, h14]
  have hgood : ∀ c : Dev Cert.KernelIdeal.nD, (refInputs m' c).Good := fun c => by
    rw [hin c]; exact kernelInputs_good m hpre c
  refine ⟨fun c => K (kernelInputs m c), hrun m g hpre, ?_⟩
  exact (θ_run (Cert.ReferenceIdeal.defs (F := Ideal)) _ _).mono
    (fun _ h c => ⟨(h c).1.trans ((ref_result m' c (hgood c)).trans (congrArg K (hin c))), (h c).2⟩)
    (Cert.ReferenceIdeal.Value.run (F := Ideal) m' g')

end TprAttn

end
-- ==== Proof.lean ====
/- The certificate's claim, assembled.

   The kernel is two pipelined regions after a stretch of host operations: a two-layer perceptron with its
   normalisations folded into the weights, maximised over the second point axis into an additive bias, and scaled
   dot-product attention of x plus that bias. Each program's frame is its run over the segments of @main, read at the
   argument arrays; the word-level program is its idealisation with no rewrite recorded, so the preservation claim is
   empty; and on the extended reals the kernel's result buffer and the reference's both hold the one specification
   `TprAttn.K` of the argument arrays, index by index. -/
import proofs.«101855_j59579786330696_2_alg».proof.Defs
import proofs.«101855_j59579786330696_2_alg».proof.Proof.Gen.Kernel
import proofs.«101855_j59579786330696_2_alg».proof.Proof.Gen.KernelIdeal
import proofs.«101855_j59579786330696_2_alg».proof.Proof.Gen.ReferenceIdeal
import proofs.«101855_j59579786330696_2_alg».proof.Proof.Gen.Pre_finite_inputs
import proofs.«101855_j59579786330696_2_alg».proof.Proof.Gen.ReferenceIdeal.Run
import proofs.«101855_j59579786330696_2_alg».proof.Proof.Gen.ReferenceIdeal.Read
import proofs.«101855_j59579786330696_2_alg».proof.Proof.KRun
import proofs.«101855_j59579786330696_2_alg».proof.Proof.KIRun
import proofs.«101855_j59579786330696_2_alg».proof.Proof.KIValue
import proofs.«101855_j59579786330696_2_alg».proof.Proof.AlgebraicOf
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    fun m ρ _ => (θ_run (Cert.ReferenceIdeal.defs (F := Ideal)) _ _).mono (fun _ h c => (h c).2)
      (Cert.ReferenceIdeal.Value.run (F := Ideal) m ρ),
    trivial,
    TprAttn.algebraic_of_kernel_run (fun m g _ => Cert.KernelIdeal.Hand.run_K m g)⟩

end Cert.Proof

end
